-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S64 .f32) (main_arg8 : FVec F S64x10 .f32) (main_arg9 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg8
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x10 .f32) (main_arg9 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x10 .f32) (main_arg9 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x64 : Shape := ⟨2, ![1, 64]⟩
abbrev S1x10 : Shape := ⟨2, ![1, 10]⟩
abbrev S10000x64 : Shape := ⟨2, ![10000, 64]⟩
abbrev S400x10000 : Shape := ⟨2, ![400, 10000]⟩
abbrev S400x64 : Shape := ⟨2, ![400, 64]⟩
abbrev S1x10000 : Shape := ⟨2, ![1, 10000]⟩
abbrev S1x400 : Shape := ⟨2, ![1, 400]⟩

abbrev nBuf : Space → Nat
  | .hbm => 16
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x10, .f32⟩
  | .hbm, ⟨14, _⟩ => ⟨S10000x64, .f32⟩
  | .hbm, ⟨15, _⟩ => ⟨S1x10, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S400x64, .f32⟩
  | .local _ .vmem, ⟨7, _⟩ => ⟨S400x64, .f32⟩
  | .local _ .vmem, ⟨8, _⟩ => ⟨S10000x64, .f32⟩
  | .local _ .vmem, ⟨9, _⟩ => ⟨S400x10000, .f32⟩
  | .local _ .vmem, ⟨10, _⟩ => ⟨S400x10000, .f32⟩
  | .local _ .vmem, ⟨11, _⟩ => ⟨S10000x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x10, .f32⟩
  | .local _ .vmem, ⟨16, _⟩ => ⟨S1x10, .f32⟩
  | .local _ .vmem, ⟨17, _⟩ => ⟨S1x10, .f32⟩
  | .local _ .vmem, ⟨18, _⟩ => ⟨S10000x64, .f32⟩
  | .local _ .vmem, ⟨19, _⟩ => ⟨S1x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_6 : Index := 0#32
  ![v11.toNat, 0]
def k1_cond3 (i : grid1.Coords) : BitVec 1 :=
  let arg0 : BitVec 32 := BitVec.ofNat 32 (i 0).val
  let c24_i32 : BitVec 32 := 24#32
  let v23 : BitVec 1 := Scalar.cmpi .eq arg0 c24_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S64_S1x64 : S64.ShapeCasts S1x64
  shapeCasts_S10_S1x10 : S10.ShapeCasts S1x10
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S1x400_S400x10000_S1x10000_1_0_0_1_n_n_wf : DotDims.WF S1x400 S400x10000 S1x10000 [1] [0] [0] [1] [] []
  dot_S1x10000_S10000x64_S1x64_1_0_0_1_n_n_wf : DotDims.WF S1x10000 S10000x64 S1x64 [1] [0] [0] [1] [] []
  dot_S1x64_S64x64_S1x64_1_0_0_1_n_n_wf : DotDims.WF S1x64 S64x64 S1x64 [1] [0] [0] [1] [] []
  dot_S1x64_S64x10_S1x10_1_0_0_1_n_n_wf : DotDims.WF S1x64 S64x10 S1x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hrank1 : 0 < grid1.rank
  k1_off1_inb : ∀ i : grid1.Coords, ∀ a, (k1_off1 i) a + S400x64.size a ≤ S10000x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S1x400_S400x10000_S1x10000_1_0_0_1_n_n : DotDims S1x400 S400x10000 S1x10000 where
  lhsContracting := [1]
  rhsContracting := [0]
  lhsNonContracting := [0]
  rhsNonContracting := [1]
  lhsBatch := []
  rhsBatch := []
  wf := dot_S1x400_S400x10000_S1x10000_1_0_0_1_n_n_wf
def dot_S1x10000_S10000x64_S1x64_1_0_0_1_n_n : DotDims S1x10000 S10000x64 S1x64 where
  lhsContracting := [1]
  rhsContracting := [0]
  lhsNonContracting := [0]
  rhsNonContracting := [1]
  lhsBatch := []
  rhsBatch := []
  wf := dot_S1x10000_S10000x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S1x10.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond3 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S10000x64 : Shape := ⟨2, ![10000, 64]⟩
abbrev S1x64 : Shape := ⟨2, ![1, 64]⟩
abbrev S_ : Shape := ⟨0, ![]⟩
abbrev S1x10 : Shape := ⟨2, ![1, 10]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S10000x64, .f32⟩
  | .hbm, ⟨11, _⟩ => ⟨S10000x64, .f32⟩
  | .hbm, ⟨12, _⟩ => ⟨S1x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | .hbm, ⟨23, _⟩ => ⟨S_, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S1x10, .f32⟩
  | .hbm, ⟨38, _⟩ => ⟨S1x10, .f32⟩
  | .hbm, ⟨39, _⟩ => ⟨S1x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S64_d0 : S10000x64.ReducesTo [0] S64
  h_S_ : 0 < S_.numel
  bcast_S_S1x64 : S_.BroadcastsInDim S1x64 (![] : Fin 0 → Fin S1x64.rank)
  bcast_S10_S1x10_1 : S10.BroadcastsInDim S1x10 (![1] : Fin 1 → Fin S1x10.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S1x64_S64x10_S1x10_1_0_0_1_n_n_wf : DotDims.WF S1x64 S64x10 S1x10 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

class Facts : Prop extends Facts₀ where

variable [Facts]
-- ==== Proof.Run.lean ====
/-
  The run of the two-pass program as a sequence of segments: the host reshapes, then pass A, then pass B.

  Between two segments a core holds every unscoped buffer at known contents: the launch memory, then the reshaped
  bias rows, then pass A's result array at what its write-backs leave, then pass B's.  Each pass enters with its
  windows' arrays split out of those buffers and puts them back at its exit; the generator register goes into
  the pass's invariant and comes back; nothing is ever owed.  What is assumed of each pass (its half: proof data
  whose arrays are the entry contents, full shares, nothing owed, the body obligation, and the invariant's two
  ends against the class invariant) is a parameter here; the conclusion names every unscoped buffer after the run.
-/
import proofs.«109796_g44951127720457_cont_8to1_c_798_21_alg».proof.Proof.Gen.KernelIdeal.Launch
import proofs.«109796_g44951127720457_cont_8to1_c_798_21_alg».proof.Proof.Gen.KernelIdeal.Skeleton
import proofs.«109796_g44951127720457_cont_8to1_c_798_21_alg».proof.Proof.Gen.KernelIdeal.Points
import proofs.«109796_g44951127720457_cont_8to1_c_798_21_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The TensorCore's buffer contents on each core, read at its references. -/
abbrev Contents (F : FTy → Type) : Type := (c : Dev nD) → (b : Ref sig .tc) → Buf (Elt F) ((c : Thread nD τ).loc b)

/-- What pass A's half supplies at the entry contents `V`. -/
structure HalfA (V : Contents F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- What pass B's half supplies at the entry contents `V`. -/
structure HalfB (V : Contents F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ)

/-! ## The buffer contents at each boundary -/

/-- At launch. -/
abbrev W0 : Dev nD → Valuation τ sig (Elt F) := fun c b => m ((c : Dev nD), b)
/-- After the host reshapes (pass A's entry). -/
abbrev W1 : Dev nD → Valuation τ sig (Elt F) := fun c => StableHlo.after hostOps0 (W0 m c)
abbrev V1 : Contents F := fun c b => W1 m c b

variable (HA : HalfA (V1 m))

/-- At pass A's exit: its arrays at what the pipeline leaves, every other buffer as entered. -/
def W2 (c : Dev nD) : Valuation τ sig (Elt F) :=
  Pipeline.withArrays spec0 c (W1 m c) fun w => (HA.dat c).arrAt w cfg0.N
theorem W2_arr (c : Dev nD) (w : Fin cfg0.W) :
    W2 m HA c (Proc.devRef .tc (Pipeline.arrRef spec0 w)) = (HA.dat c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m HA c (Proc.devRef .tc b) = W1 m c (Proc.devRef .tc b) := by
  unfold W2; exact Pipeline.withArrays_of_ne spec0 c _ _ b hb
abbrev V2 : Contents F := fun c b => W2 m HA c b
theorem hF0 (c : Dev nD) (w : Fin cfg0.W) : (HA.dat c).arrAt w cfg0.N = V2 m HA c (Pipeline.arrRef spec0 w) :=
  (W2_arr m HA c w).symm
theorem hrest0 (c : Dev nD) : ∀ b, b ∉ Finset.univ.image (Pipeline.arrRef spec0) → V2 m HA c b = V1 m c b :=
  fun b hb => W2_of_ne m HA c b fun w e => hb (Finset.mem_image.mpr ⟨w, Finset.mem_univ _, e⟩)

variable (HB : HalfB (V2 m HA))

/-- At pass B's exit. -/
def W3 (c : Dev nD) : Valuation τ sig (Elt F) :=
  Pipeline.withArrays spec1 c (W2 m HA c) fun w => (HB.dat c).arrAt w cfg1.N
theorem W3_arr (c : Dev nD) (w : Fin cfg1.W) :
    W3 m HA HB c (Proc.devRef .tc (Pipeline.arrRef spec1 w)) = (HB.dat c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m HA HB c (Proc.devRef .tc b) = W2 m HA c (Proc.devRef .tc b) := by
  unfold W3; exact Pipeline.withArrays_of_ne spec1 c _ _ b hb
abbrev V3 : Contents F := fun c b => W3 m HA HB c b
theorem hF1 (c : Dev nD) (w : Fin cfg1.W) : (HB.dat c).arrAt w cfg1.N = V3 m HA HB c (Pipeline.arrRef spec1 w) :=
  (W3_arr m HA HB c w).symm
theorem hrest1 (c : Dev nD) : ∀ b, b ∉ Finset.univ.image (Pipeline.arrRef spec1) → V3 m HA HB c b = V2 m HA c b :=
  fun b hb => W3_of_ne m HA HB c b fun w e => hb (Finset.mem_image.mpr ⟨w, Finset.mem_univ _, e⟩)

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => HA.dat c
  | ⟨1, _⟩ => fun c => HB.dat c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

abbrev Tₙ (c : Dev nD) : sProp 𝕄 := iprop(StableHlo.held (c : Thread nD τ) (Pipeline.ucRefs τ sig) (W3 m HA HB c) ∗ ∃ r, prngReg c r)

/-- What pass A's entry hands its invariant — the generator register and the scoped buffers no window stages — is the class invariant. -/
theorem phiA_of_entry0 (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp
/-- and the class invariant gives them back at the exit (the kernel has no semaphore of its own). -/
theorem phiA_to_exit0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

/-- What pass B's entry hands its invariant — the generator register and the scoped buffers no window stages — is the class invariant. -/
theorem phiA_of_entry1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp
/-- and the class invariant gives them back at the exit (the kernel has no semaphore of its own). -/
theorem phiA_to_exit1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

/-! ## The passes as segments -/

set_option backward.isDefEq.respectTransparency.types false in
/-- Pass A over the thread state: entered from every unscoped buffer at `W1`, left at `W2`. -/
def regA : Pipeline.RegionSeg (pcfgs (F := F)) adm (pdats m HA HB) () defs₀ 𝒱₀ L lv 0 where
  win := launch0.win.to₀
  block_pos := launch0.block_pos
  stage_whole := launch0.stage_whole
  K := PEmpty
  osem k := k.elim
  ho := Pipeline.OwnSemFacts.none _
  hbody c := (HA.hbody c).loose
  hwaits := Pipeline.hwaits_of_owed_zero _ _ _ _ L lv 0 fun c t => HA.howed c t
  pre c := iprop(StableHlo.held (c : Thread nD τ) (Pipeline.ucRefs τ sig) (W1 m c) ∗ R c)
  post c := iprop(StableHlo.held (c : Thread nD τ) (Pipeline.ucRefs τ sig) (W2 m HA c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m HA HB) launch0.win launch0.arr_whole c
      ((pdats m HA HB 0 c).share_full (HA.hq c)) (V1 m c) (HA.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [show (pdats m HA HB 0 c).recorded 0 = Set.univ from HA.hrec c 0]; trivial)
      rw [show (pdats m HA HB 0 c).owed 0 = 0 from HA.howed c 0]
      iexact HO
    isplitl [Hp]; · iexact Hp
    iexact Hrest
  hin c := (phiA_of_entry0 c).trans (HA.hin c)
  hout c := by
    rw [Pipeline.ownSems0_none]
    exact (HA.hout c).trans (phiA_to_exit0 c)
  hexit c := by
    have hjoin := Pipeline.unscopedBufs_of_arrays (p := 0) (pcfgs (F := F)) adm (Ix := Unit) (Name := ℕ) (U := UR sig nD τ) (Lvl := ℕ)
      launch0.win launch0.arr_whole c (pdats m HA HB) ((pdats m HA HB 0 c).share_full (HA.hq c))
      (V1 m c) (V2 m HA c) ((pdats m HA HB 0 c).arrAt · cfg0.N) (hF0 m HA c) (hrest0 m HA c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m HA HB 0 c).owed (Fin.last _) = 0 from HA.howed c _]
    iexact HO

set_option backward.isDefEq.respectTransparency.types false in
/-- Pass B over the thread state: entered from every unscoped buffer at `W2`, left at `W3`. -/
def regB : Pipeline.RegionSeg (pcfgs (F := F)) adm (pdats m HA HB) () defs₀ 𝒱₀ L lv 1 where
  win := launch1.win.to₀
  block_pos := launch1.block_pos
  stage_whole := launch1.stage_whole
  K := PEmpty
  osem k := k.elim
  ho := Pipeline.OwnSemFacts.none _
  hbody c := (HB.hbody c).loose
  hwaits := Pipeline.hwaits_of_owed_zero _ _ _ _ L lv 1 fun c t => HB.howed c t
  pre c := iprop(StableHlo.held (c : Thread nD τ) (Pipeline.ucRefs τ sig) (W2 m HA c) ∗ R c)
  post c := iprop(Tₙ m HA HB c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m HA c)
  hentry c := by
    rw [Pipeline.ownSems0_none]
    have hsplit := Pipeline.arrays_of_unscopedBufs (p := 1) (pcfgs (F := F)) adm (pdats m HA HB) launch1.win launch1.arr_whole c
      ((pdats m HA HB 1 c).share_full (HB.hq c)) (V2 m HA c) (HB.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [show (pdats m HA HB 1 c).recorded 0 = Set.univ from HB.hrec c 0]; trivial)
      rw [show (pdats m HA HB 1 c).owed 0 = 0 from HB.howed c 0]
      iexact HO
    isplitl [Hp]; · iexact Hp
    iexact Hrest
  hin c := (phiA_of_entry1 c).trans (HB.hin c)
  hout c := by
    rw [Pipeline.ownSems0_none]
    exact (HB.hout c).trans (phiA_to_exit1 c)
  hexit c := by
    have hjoin := Pipeline.unscopedBufs_of_arrays (p := 1) (pcfgs (F := F)) adm (Ix := Unit) (Name := ℕ) (U := UR sig nD τ) (Lvl := ℕ)
      launch1.win launch1.arr_whole c (pdats m HA HB) ((pdats m HA HB 1 c).share_full (HB.hq c))
      (V2 m HA c) (V3 m HA HB c) ((pdats m HA HB 1 c).arrAt · cfg1.N) (hF1 m HA HB c) (hrest1 m HA HB c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m HA HB 1 c).owed (Fin.last _) = 0 from HB.howed c _]
    iexact HO

/-! ## The program as segments, and the launch -/

abbrev segs : List (Pipeline.Seg (pcfgs (F := F)) adm (pdats m HA HB) () defs₀ 𝒱₀ L lv) :=
  [ .host (hseg0 m), .region (regA m HA HB), .region (regB m HA HB) ]

theorem main_run (c : Dev nD) : main (F := F) c = Pipeline.Seg.run (segs m HA HB) := (main_chain c).trans (by chain_rfl)

set_option backward.isDefEq.respectTransparency.types false in
/-- THE RUN. From any memory with zero counters every weakly fair execution of the program terminates, nothing
    faulting, and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m HA HB c b) :=
  Pipeline.θ_run_regions_kit (pcfgs (F := F)) adm (pdats m HA HB) () cellOf_inj emb₁ defs₀ 𝒱₀ L lv m ρ main (segs m HA HB)
    (fun c Q => by rw [main_run m HA HB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m HA HB)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m HA HB c b)
    (hfin := fun c s' => by
      iintro ⟨⟨Hh, -⟩, HSI⟩
      unfold StableHlo.held
      imodintro
      iapply (pointsTo_read_all (Pipeline.ucRefs τ sig) (fun b => (((c : Thread nD τ)).1, b)) (W3 m HA HB c) s')
      isplitl [Hh] <;> iassumption)
    (hQ := fun s h c => h c)

/-! ## Arrays the passes only read, and the arguments at the end -/

/-- An input window's array leaves pass A as it entered. -/
theorem W2_in (c : Dev nD) (w : Fin cfg0.W) (hw : (cfg0.win w).isOut = false) :
    W2 m HA c (Proc.devRef .tc (Pipeline.arrRef spec0 w)) = W1 m c (Proc.devRef .tc (Pipeline.arrRef spec0 w)) :=
  (W2_arr m HA c w).trans (((HA.dat c).arrAt_in w hw _).trans (HA.hA c w))
/-- An input window's array leaves pass B as it entered. -/
theorem W3_in (c : Dev nD) (w : Fin cfg1.W) (hw : (cfg1.win w).isOut = false) :
    W3 m HA HB c (Proc.devRef .tc (Pipeline.arrRef spec1 w)) = W2 m HA c (Proc.devRef .tc (Pipeline.arrRef spec1 w)) :=
  (W3_arr m HA HB c w).trans (((HB.dat c).arrAt_in w hw _).trans (HB.hA c w))
/-- A buffer the host reshapes do not write holds its launch contents when pass A is entered. -/
theorem W1_of (c : Dev nD) (r : Ref sig .tc) (h : r ∉ (hostOps0_W : List (Ref sig .tc))) :
    W1 m c (Proc.devRef .tc r) = m ((c : Thread nD τ).loc r) :=
  (Gen.V1_of m c r h).trans rfl
theorem W3_main_arg0 (c : Dev nD) : W3 m HA HB c (Proc.devRef .tc main_arg0) = m ((c : Thread nD τ).loc main_arg0) :=
  (W3_of_ne m HA HB c main_arg0 (by decide)).trans ((W2_in m HA c 0 rfl).trans (W1_of m c main_arg0 (by decide)))
theorem W3_main_arg1 (c : Dev nD) : W3 m HA HB c (Proc.devRef .tc main_arg1) = m ((c : Thread nD τ).loc main_arg1) :=
  (W3_in m HA HB c 0 rfl).trans ((W2_in m HA c 1 rfl).trans (W1_of m c main_arg1 (by decide)))
theorem W3_main_arg2 (c : Dev nD) : W3 m HA HB c (Proc.devRef .tc main_arg2) = m ((c : Thread nD τ).loc main_arg2) :=
  (W3_of_ne m HA HB c main_arg2 (by decide)).trans ((W2_in m HA c 2 rfl).trans (W1_of m c main_arg2 (by decide)))
theorem W3_main_arg3 (c : Dev nD) : W3 m HA HB c (Proc.devRef .tc main_arg3) = m ((c : Thread nD τ).loc main_arg3) :=
  (W3_of_ne m HA HB c main_arg3 (by decide)).trans ((W2_of_ne m HA c main_arg3 (by decide)).trans (W1_of m c main_arg3 (by decide)))
theorem W3_main_arg4 (c : Dev nD) : W3 m HA HB c (Proc.devRef .tc main_arg4) = m ((c : Thread nD τ).loc main_arg4) :=
  (W3_of_ne m HA HB c main_arg4 (by decide)).trans ((W2_in m HA c 4 rfl).trans (W1_of m c main_arg4 (by decide)))
theorem W3_main_arg5 (c : Dev nD) : W3 m HA HB c (Proc.devRef .tc main_arg5) = m ((c : Thread nD τ).loc main_arg5) :=
  (W3_of_ne m HA HB c main_arg5 (by decide)).trans ((W2_of_ne m HA c main_arg5 (by decide)).trans (W1_of m c main_arg5 (by decide)))
theorem W3_main_arg6 (c : Dev nD) : W3 m HA HB c (Proc.devRef .tc main_arg6) = m ((c : Thread nD τ).loc main_arg6) :=
  (W3_in m HA HB c 3 rfl).trans ((W2_of_ne m HA c main_arg6 (by decide)).trans (W1_of m c main_arg6 (by decide)))
theorem W3_main_arg7 (c : Dev nD) : W3 m HA HB c (Proc.devRef .tc main_arg7) = m ((c : Thread nD τ).loc main_arg7) :=
  (W3_of_ne m HA HB c main_arg7 (by decide)).trans ((W2_of_ne m HA c main_arg7 (by decide)).trans (W1_of m c main_arg7 (by decide)))
theorem W3_main_arg8 (c : Dev nD) : W3 m HA HB c (Proc.devRef .tc main_arg8) = m ((c : Thread nD τ).loc main_arg8) :=
  (W3_in m HA HB c 5 rfl).trans ((W2_of_ne m HA c main_arg8 (by decide)).trans (W1_of m c main_arg8 (by decide)))
theorem W3_main_arg9 (c : Dev nD) : W3 m HA HB c (Proc.devRef .tc main_arg9) = m ((c : Thread nD τ).loc main_arg9) :=
  (W3_of_ne m HA HB c main_arg9 (by decide)).trans ((W2_of_ne m HA c main_arg9 (by decide)).trans (W1_of m c main_arg9 (by decide)))

include HA HB in
/-- THE FRAME: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m HA HB c),
      (h c _ (mem_uc main_arg1 (by decide))).trans (W3_main_arg1 m HA HB c),
      (h c _ (mem_uc main_arg2 (by decide))).trans (W3_main_arg2 m HA HB c),
      (h c _ (mem_uc main_arg3 (by decide))).trans (W3_main_arg3 m HA HB c),
      (h c _ (mem_uc main_arg4 (by decide))).trans (W3_main_arg4 m HA HB c),
      (h c _ (mem_uc main_arg5 (by decide))).trans (W3_main_arg5 m HA HB c),
      (h c _ (mem_uc main_arg6 (by decide))).trans (W3_main_arg6 m HA HB c),
      (h c _ (mem_uc main_arg7 (by decide))).trans (W3_main_arg7 m HA HB c),
      (h c _ (mem_uc main_arg8 (by decide))).trans (W3_main_arg8 m HA HB c),
      (h c _ (mem_uc main_arg9 (by decide))).trans (W3_main_arg9 m HA HB c)⟩)
    (run_all m HA HB ρ)

end Cert.KernelIdeal.Run

end
-- ==== Proof.KernelTerm.lean ====
/-
  What the two passes compute, as ONE term of the argument arrays.

  Pass A keeps `s1 = x · W1` and writes, for each block of 400 rows of the adjacency matrix,
  `relu (A_blk · s1 + b1) · W2` into the same 400 rows of `s2`.  Pass B computes, block by block,
  `h2 = relu (A_blk · s2 + b2)`, adds up the column sums of the blocks (`ones · A_blk`), and at the
  last block forms `((colsum · h2) · (1/N)) · W3 + b3` and applies the linear head.
  Everything is stated through the payload terms of the two kernel bodies, so that the frame side (which
  finds these payloads in the buffers) and the value side (which reads them at an index) meet here.
-/
import proofs.«109796_g44951127720457_cont_8to1_c_798_21_alg».proof.Proof.Gen.KernelIdeal.Skeleton
import Idealize.ShloMosaic.Lib.ValueIdx

noncomputable section

namespace Cert.KernelIdeal.Term

open Idealize.ShloMosaic Idealize.ShloMosaic.ValueIdx Cert.KernelIdeal Cert.KernelIdeal.Gen

variable {F : FTy → Type} [FloatOps F] [Named F]

/-- Rows `400 t … 400 t + 399` of the adjacency matrix (the row is taken modulo 10000 so that the
    definition is total; for `t < 25` the reduction does nothing). -/
def rowBlock (adj : Vec F S10000x10000 .f32) (t : ℕ) : Vec F S400x10000 .f32 :=
  fun y => adj (ix2 (⟨(400 * t + (y 0).val) % 10000, Nat.mod_lt _ (by decide)⟩ : Fin 10000) (⟨(y 1).val, idx2_lt1 y⟩ : Fin 10000))

/-- `s1 = x · W1`. -/
def s1 (x : Vec F S10000x128 .f32) (w1 : Vec F S128x64 .f32) : Vec F S10000x64 .f32 := k0_pay1 x w1

/-- `s2`: row `r` lies in block `r / 400`, at row `r % 400` of what pass A writes for that block. -/
def s2 (x : Vec F S10000x128 .f32) (adj : Vec F S10000x10000 .f32) (w1 : Vec F S128x64 .f32) (b1r : Vec F S1x64 .f32)
    (w2 : Vec F S64x64 .f32) : Vec F S10000x64 .f32 :=
  fun j => k0_pay2 (rowBlock adj ((j 0).val / 400)) (s1 x w1) b1r w2
    (ix2 (⟨(j 0).val % 400, Nat.mod_lt _ (by decide)⟩ : Fin 400) (⟨(j 1).val, idx2_lt1 j⟩ : Fin 64))

/-- `h2`: row `r` lies in block `r / 400`, at row `r % 400` of what pass B stores for that block. -/
def h2 (adj : Vec F S10000x10000 .f32) (s2v : Vec F S10000x64 .f32) (b2r : Vec F S1x64 .f32) : Vec F S10000x64 .f32 :=
  fun j => k1_pay1 (rowBlock adj ((j 0).val / 400)) s2v b2r
    (ix2 (⟨(j 0).val % 400, Nat.mod_lt _ (by decide)⟩ : Fin 400) (⟨(j 1).val, idx2_lt1 j⟩ : Fin 64))

/-- The column sums of the first `n + 1` blocks, accumulated as pass B does. -/
def csum (adj : Vec F S10000x10000 .f32) : ℕ → Vec F S1x10000 .f32
  | 0 => k1_pay3 (rowBlock adj 0)
  | n + 1 => k1_pay4 (rowBlock adj (n + 1)) (csum adj n)

/-- The kernel's result. -/
def out (x : Vec F S10000x128 .f32) (adj : Vec F S10000x10000 .f32) (w1 : Vec F S128x64 .f32) (b1r : Vec F S1x64 .f32)
    (w2 : Vec F S64x64 .f32) (b2r : Vec F S1x64 .f32) (w3 : Vec F S64x64 .f32) (b3r : Vec F S1x64 .f32)
    (wl : Vec F S64x10 .f32) (blr : Vec F S1x10 .f32) : Vec F S1x10 .f32 :=
  k1_pay5 (csum adj 24) (h2 adj (s2 x adj w1 b1r w2) b2r) w3 b3r wl blr

end Cert.KernelIdeal.Term

end
-- ==== Proof.Final.lean ====
/-
  What the run leaves in the result array, as the term of the argument arrays.

  Pass A's result array: block `t` (rows 400 t … 400 t + 399) is what the body stored at point `t`; the 25 blocks
  tile the array, so the array is one function of its index (row r in block r / 400 at row r % 400).  The body's
  input blocks are read where the index maps put them: the adjacency window's block at point `t` is rows
  400 t … of the matrix, every other window's block is its whole array.  Pass B's result is written back once, at
  the last point, through a block that is the whole 1×10 array.
-/
import proofs.«109796_g44951127720457_cont_8to1_c_798_21_alg».proof.Proof.Run
import proofs.«109796_g44951127720457_cont_8to1_c_798_21_alg».proof.Proof.KernelTerm
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run

variable {F : FTy → Type} [FloatOps F] [Named F]

variable (V : Contents F)

/-! ## Pass A: the input blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N0 : cfg0.N = 25 := N_0
/-- The first point. -/
abbrev t0 : Fin cfg0.N := ⟨0, by rw [N0]; omega⟩

/-- The printed index maps of pass A over the grid: the adjacency window and the result window move one block of rows
    per point; every other window stays on its one block. -/
theorem idxA : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The adjacency window's block at point `t` is rows 400 t … 400 t + 399 of the matrix. -/
theorem iblk0_adj (c : Dev nD) (t : Fin cfg0.N) :
    iblk0 V c 1 t = Term.rowBlock (V c main_arg1) t.val := by
  obtain ⟨-, -, e0, e1, -⟩ := idxA t
  have ht : t.val < 25 := lt_of_lt_of_eq t.isLt N0
  funext y
  show V c main_arg1 (((cfg0.win 1).blk t).view.emb y) = V c main_arg1 _
  refine congrArg _ ?_
  funext a; apply Fin.ext
  match a with
  | ⟨0, _⟩ =>
    show win0_1.index t (0 : Fin 2) * 400 + 1 * (y 0).val = (400 * t.val + (y 0).val) % 10000
    have hy : (y 0).val < 400 := (y 0).isLt
    omega
  | ⟨1, _⟩ =>
    show win0_1.index t (1 : Fin 2) * 10000 + 1 * (y 1).val = (y 1).val
    omega

/-- A window whose index map is constant reads its whole array at every point: an element's place in the block is its
    place in the array. -/
theorem iblk0_x (c : Dev nD) (t : Fin cfg0.N) : iblk0 V c 0 t = V c main_arg0 := by
  obtain ⟨e0, e1, -⟩ := idxA t
  funext y
  show V c main_arg0 (((cfg0.win 0).blk t).view.emb y) = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem iblk0_w1 (c : Dev nD) (t : Fin cfg0.N) : iblk0 V c 2 t = V c main_arg2 := by
  obtain ⟨-, -, -, -, e0, e1, -⟩ := idxA t
  funext y
  show V c main_arg2 (((cfg0.win 2).blk t).view.emb y) = V c main_arg2 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega
theorem iblk0_b1 (c : Dev nD) (t : Fin cfg0.N) : iblk0 V c 3 t = V c main_call0_v0 := by
  obtain ⟨-, -, -, -, -, -, e0, e1, -⟩ := idxA t
  funext y
  show V c main_call0_v0 (((cfg0.win 3).blk t).view.emb y) = V c main_call0_v0 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem iblk0_w2 (c : Dev nD) (t : Fin cfg0.N) : iblk0 V c 4 t = V c main_arg4 := by
  obtain ⟨-, -, -, -, -, -, -, -, e0, e1, -⟩ := idxA t
  funext y
  show V c main_arg4 (((cfg0.win 4).blk t).view.emb y) = V c main_arg4 y
  refine congrArg _ ?_
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-! ## Pass A: the result array -/

/-- The value facts of pass A's half: what the body leaves in the result window's buffer at each point. -/
structure ValA (HA : HalfA V) where
  out5 : (c : Dev nD) → (t : Fin cfg0.N) → Vec F S400x64 .f32
  hafter5 : ∀ c t, (HA.dat c).after 5 t = out5 c t
  hout5 : ∀ c t, out5 c t = k0_pay2 (iblk0 V c 1 t) (k0_pay1 (iblk0 V c 0 t0) (iblk0 V c 2 t0)) (iblk0 V c 3 t) (iblk0 V c 4 t)

variable {V} {HA : HalfA V} (VA : ValA V HA)

/-- Pass A's result array as one function: row r is row r % 400 of what point r / 400 stored. -/
def G5 (c : Dev nD) : Vec F S10000x64 .f32 := fun j =>
  VA.out5 c ⟨(j 0).val / 400, by rw [N0]; have := idx2_lt0 j; omega⟩
    (ix2 (⟨(j 0).val % 400, Nat.mod_lt _ (by decide)⟩ : Fin 400) (⟨(j 1).val, idx2_lt1 j⟩ : Fin 64))

theorem G5_at (c : Dev nD) (t : Fin cfg0.N) (p : Fin 400) (q : Fin 64) (hb : 400 * t.val + p.val < 10000) :
    G5 VA c (ix2 (⟨400 * t.val + p.val, hb⟩ : Fin 10000) q) = VA.out5 c t (ix2 p q) := by
  have h1 : (400 * t.val + p.val) / 400 = t.val := by have := p.isLt; omega
  have h2 : (400 * t.val + p.val) % 400 = p.val := by have := p.isLt; omega
  unfold G5
  show VA.out5 c ⟨(400 * t.val + p.val) / 400, _⟩ (ix2 (⟨(400 * t.val + p.val) % 400, _⟩ : Fin 400) (⟨q.val, _⟩ : Fin 64)) = _
  have e1 : ∀ (n : ℕ) (hn : n < cfg0.N), n = t.val → (⟨n, hn⟩ : Fin cfg0.N) = t := fun n hn e => Fin.ext e
  have e2 : ∀ (n : ℕ) (hn : n < 400), n = p.val → (⟨n, hn⟩ : Fin 400) = p := fun n hn e => Fin.ext e
  rw [e1 _ _ h1, e2 _ _ h2]

/-- WHAT POINT `t` WRITES BACK is block `t` of that function. -/
theorem flushed5_eq (c : Dev nD) (t : Fin cfg0.N) :
    (HA.dat c).flushed 5 t = ((cfg0.win 5).blk t).view.read (Elt F) (G5 VA c) := by
  obtain ⟨-, -, -, -, -, -, -, -, -, -, e0, e1⟩ := idxA t
  have ht : t.val < 25 := lt_of_lt_of_eq t.isLt N0
  show (cfg0.win 5).cut (grid0.coords t) ((HA.dat c).after 5 t) = _
  rw [VA.hafter5]
  funext y
  show VA.out5 c t y = G5 VA c (((cfg0.win 5).blk t).view.emb y)
  have hy0 : (y 0).val < 400 := (y 0).isLt
  have hy1 : (y 1).val < 64 := (y 1).isLt
  have hemb : ((cfg0.win 5).blk t).view.emb y = ix2 (⟨400 * t.val + (⟨(y 0).val, hy0⟩ : Fin 400).val, by show 400 * t.val + (y 0).val < 10000; omega⟩ : Fin 10000) (⟨(y 1).val, hy1⟩ : Fin 64) := by
    funext a; apply Fin.ext
    match a with
    | ⟨0, _⟩ => show win0_5.index t (0 : Fin 2) * 400 + 1 * (y 0).val = 400 * t.val + (y 0).val; omega
    | ⟨1, _⟩ => show win0_5.index t (1 : Fin 2) * 64 + 1 * (y 1).val = (y 1).val; omega
  rw [hemb, G5_at]
  exact congrArg _ (eq_ix2 y)

/-- An index of the result array is in point `t`'s block iff each coordinate is in the block's range on its axis. -/
theorem mem_blk5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_call0_v4).slice (win0_5.rect t)).set ↔ _
  rw [View.set_slice_whole, Rect.mem_set_unit]
  exact Iff.rfl

/-- Every row lies in the block of the point `row / 400`, and every point writes its block back. -/
theorem cover5 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  have hb : (i 0).val / 400 < cfg0.N := by rw [N0]; omega
  obtain ⟨-, -, -, -, -, -, -, -, -, -, e0, e1⟩ := idxA ⟨(i 0).val / 400, hb⟩
  refine ⟨⟨(i 0).val / 400, hb⟩, flush0_5 _, ?_⟩
  rw [mem_blk5]
  intro a
  match a with
  | ⟨0, _⟩ =>
    show win0_5.index ⟨(i 0).val / 400, hb⟩ (0 : Fin 2) * 400 ≤ (i 0).val ∧ (i 0).val < win0_5.index ⟨(i 0).val / 400, hb⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, hb⟩ (1 : Fin 2) * 64 ≤ (i 1).val ∧ (i 1).val < win0_5.index ⟨(i 0).val / 400, hb⟩ (1 : Fin 2) * 64 + 64
    omega

/-- PASS A'S RESULT ARRAY after the pass. -/
theorem final5 (c : Dev nD) : (HA.dat c).arrAt 5 cfg0.N = G5 VA c :=
  (HA.dat c).arrAt_eq_of_cover 5 (G5 VA c) (fun t _ => flushed5_eq VA c t) cover5

end Cert.KernelIdeal.Final

/-! # Pass B -/

namespace Cert.KernelIdeal.FinalB

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run

variable {F : FTy → Type} [FloatOps F] [Named F]

variable (V : Contents F)

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N1 : cfg1.N = 25 := N_1
/-- The last point. -/
abbrev tL : Fin cfg1.N := ⟨24, by rw [N1]; omega⟩

/-- The printed index maps of pass B over the grid: only the adjacency window moves. -/
theorem idxB : ∀ t : Fin cfg1.N,
    win1_0.index t (0 : Fin 2) = t.val ∧ win1_0.index t (1 : Fin 2) = 0
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- The adjacency window's block at point `t` is rows 400 t … 400 t + 399 of the matrix. -/
theorem iblk1_adj (c : Dev nD) (t : Fin cfg1.N) :
    iblk1 V c 0 t = Term.rowBlock (V c main_arg1) t.val := by
  obtain ⟨e0, e1, -⟩ := idxB t
  have ht : t.val < 25 := lt_of_lt_of_eq t.isLt N1
  funext y
  show V c main_arg1 (((cfg1.win 0).blk t).view.emb y) = V c main_arg1 _
  refine congrArg _ ?_
  funext a; apply Fin.ext
  match a with
  | ⟨0, _⟩ =>
    show win1_0.index t (0 : Fin 2) * 400 + 1 * (y 0).val = (400 * t.val + (y 0).val) % 10000
    have hy : (y 0).val < 400 := (y 0).isLt
    omega
  | ⟨1, _⟩ =>
    show win1_0.index t (1 : Fin 2) * 10000 + 1 * (y 1).val = (y 1).val
    omega

theorem iblk1_call0_v4 (c : Dev nD) (t : Fin cfg1.N) : iblk1 V c 1 t = V c main_call0_v4 := by
  have e0 : win1_1.index t (0 : Fin 2) = 0 := (idxB t).2.2.1.1
  have e1 : win1_1.index t (1 : Fin 2) = 0 := (idxB t).2.2.1.2
  funext y
  show V c main_call0_v4 (((cfg1.win 1).blk t).view.emb y) = V c main_call0_v4 y
  refine congrArg _ ?_
  funext a; apply Fin.ext
  match a with
  | ⟨0, _⟩ => show win1_1.index t (0 : Fin 2) * 10000 + 1 * (y 0).val = (y 0).val; omega
  | ⟨1, _⟩ => show win1_1.index t (1 : Fin 2) * 64 + 1 * (y 1).val = (y 1).val; omega

theorem iblk1_call0_v1 (c : Dev nD) (t : Fin cfg1.N) : iblk1 V c 2 t = V c main_call0_v1 := by
  have e0 : win1_2.index t (0 : Fin 2) = 0 := (idxB t).2.2.2.1.1
  have e1 : win1_2.index t (1 : Fin 2) = 0 := (idxB t).2.2.2.1.2
  funext y
  show V c main_call0_v1 (((cfg1.win 2).blk t).view.emb y) = V c main_call0_v1 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

theorem iblk1_arg6 (c : Dev nD) (t : Fin cfg1.N) : iblk1 V c 3 t = V c main_arg6 := by
  have e0 : win1_3.index t (0 : Fin 2) = 0 := (idxB t).2.2.2.2.1.1
  have e1 : win1_3.index t (1 : Fin 2) = 0 := (idxB t).2.2.2.2.1.2
  funext y
  show V c main_arg6 (((cfg1.win 3).blk t).view.emb y) = V c main_arg6 y
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem iblk1_call0_v2 (c : Dev nD) (t : Fin cfg1.N) : iblk1 V c 4 t = V c main_call0_v2 := by
  have e0 : win1_4.index t (0 : Fin 2) = 0 := (idxB t).2.2.2.2.2.1.1
  have e1 : win1_4.index t (1 : Fin 2) = 0 := (idxB t).2.2.2.2.2.1.2
  funext y
  show V c main_call0_v2 (((cfg1.win 4).blk t).view.emb y) = V c main_call0_v2 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

theorem iblk1_arg8 (c : Dev nD) (t : Fin cfg1.N) : iblk1 V c 5 t = V c main_arg8 := by
  have e0 : win1_5.index t (0 : Fin 2) = 0 := (idxB t).2.2.2.2.2.2.1.1
  have e1 : win1_5.index t (1 : Fin 2) = 0 := (idxB t).2.2.2.2.2.2.1.2
  funext y
  show V c main_arg8 (((cfg1.win 5).blk t).view.emb y) = V c main_arg8 y
  refine congrArg _ ?_
  funext a; apply Fin.ext
  match a with
  | ⟨0, _⟩ => show win1_5.index t (0 : Fin 2) * 64 + 1 * (y 0).val = (y 0).val; omega
  | ⟨1, _⟩ => show win1_5.index t (1 : Fin 2) * 10 + 1 * (y 1).val = (y 1).val; omega

theorem iblk1_call0_v3 (c : Dev nD) (t : Fin cfg1.N) : iblk1 V c 6 t = V c main_call0_v3 := by
  have e0 : win1_6.index t (0 : Fin 2) = 0 := (idxB t).2.2.2.2.2.2.2.1.1
  have e1 : win1_6.index t (1 : Fin 2) = 0 := (idxB t).2.2.2.2.2.2.2.1.2
  funext y
  show V c main_call0_v3 (((cfg1.win 6).blk t).view.emb y) = V c main_call0_v3 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 10 + 1 * (y 1).val = (y 1).val; omega

/-! ## What the two scratch buffers hold -/

/-- The column sums accumulated through point `n`. -/
def csumAt (c : Dev nD) : (n : ℕ) → n < cfg1.N → Vec F S1x10000 .f32
  | 0, h => k1_pay3 (iblk1 V c 0 ⟨0, h⟩)
  | n + 1, h => k1_pay4 (iblk1 V c 0 ⟨n + 1, h⟩) (csumAt c n (Nat.lt_of_succ_lt h))

/-- Row r of the row-sliced scratch lies in the slice point r / 400 stores, at row r % 400 of that point's payload. -/
def h2At (c : Dev nD) : Vec F S10000x64 .f32 := fun j =>
  k1_pay1 (iblk1 V c 0 ⟨(j 0).val / 400, by rw [N1]; have := idx2_lt0 j; omega⟩)
    (iblk1 V c 1 ⟨(j 0).val / 400, by rw [N1]; have := idx2_lt0 j; omega⟩)
    (iblk1 V c 2 ⟨(j 0).val / 400, by rw [N1]; have := idx2_lt0 j; omega⟩)
    (ix2 (⟨(j 0).val % 400, Nat.mod_lt _ (by decide)⟩ : Fin 400) (⟨(j 1).val, idx2_lt1 j⟩ : Fin 64))

/-! ## The result array -/

/-- The value facts of pass B's half: what the body leaves in the result window's buffer at the last point. -/
structure ValB (HB : HalfB V) where
  out7 : (c : Dev nD) → Vec F S1x10 .f32
  hafter7 : ∀ c, (HB.dat c).after 7 tL = out7 c
  hout7 : ∀ c, out7 c = k1_pay5 (csumAt V c 24 (by rw [N1]; omega)) (h2At V c) (iblk1 V c 3 tL) (iblk1 V c 4 tL) (iblk1 V c 5 tL) (iblk1 V c 6 tL)

variable {V} {HB : HalfB V} (VB : ValB V HB)

/-- The one point that writes the result back is the last, and its block is the whole array. -/
theorem flushed7_eq (c : Dev nD) (t : Fin cfg1.N) (hf : (cfg1.win 7).flush t = true) :
    (HB.dat c).flushed 7 t = ((cfg1.win 7).blk t).view.read (Elt F) (VB.out7 c) := by
  have ht : t.val < 25 := lt_of_lt_of_eq t.isLt N1
  have h24 : t.val % 25 = 24 := (flush1_7 t).mp hf
  obtain rfl : t = tL := Fin.ext (by show t.val = 24; omega)
  have e0 : win1_7.index tL (0 : Fin 2) = 0 := (idxB tL).2.2.2.2.2.2.2.2.1
  have e1 : win1_7.index tL (1 : Fin 2) = 0 := (idxB tL).2.2.2.2.2.2.2.2.2
  show (cfg1.win 7).cut (grid1.coords tL) ((HB.dat c).after 7 tL) = _
  rw [VB.hafter7]
  funext y
  show VB.out7 c y = VB.out7 c (((cfg1.win 7).blk tL).view.emb y)
  refine congrArg _ ?_
  funext a; apply Fin.ext
  match a with
  | ⟨0, _⟩ => show (y 0).val = win1_7.index tL (0 : Fin 2) * 1 + 1 * (y 0).val; omega
  | ⟨1, _⟩ => show (y 1).val = win1_7.index tL (1 : Fin 2) * 10 + 1 * (y 1).val; omega

theorem mem_blk7 (t : Fin cfg1.N) (i : S1x10.Idx) :
    i ∈ ((cfg1.win 7).blk t).view.set ↔ ∀ a : Fin 2, win1_7.index t a * S1x10.size a ≤ (i a).val ∧ (i a).val < win1_7.index t a * S1x10.size a + S1x10.size a := by
  show i ∈ ((View.whole main_v0).slice (win1_7.rect t)).set ↔ _
  rw [View.set_slice_whole, Rect.mem_set_unit]
  exact Iff.rfl

theorem cover7 (i : S1x10.Idx) : ∃ t : Fin cfg1.N, (cfg1.win 7).flush t = true ∧ i ∈ ((cfg1.win 7).blk t).view.set := by
  have hi0 : (i 0).val < 1 := (i 0).isLt
  have hi1 : (i 1).val < 10 := (i 1).isLt
  have e0 : win1_7.index tL (0 : Fin 2) = 0 := (idxB tL).2.2.2.2.2.2.2.2.1
  have e1 : win1_7.index tL (1 : Fin 2) = 0 := (idxB tL).2.2.2.2.2.2.2.2.2
  refine ⟨tL, (flush1_7 tL).mpr (by decide), ?_⟩
  rw [mem_blk7]
  intro a
  match a with
  | ⟨0, _⟩ => show win1_7.index tL (0 : Fin 2) * 1 ≤ (i 0).val ∧ (i 0).val < win1_7.index tL (0 : Fin 2) * 1 + 1; omega
  | ⟨1, _⟩ => show win1_7.index tL (1 : Fin 2) * 10 ≤ (i 1).val ∧ (i 1).val < win1_7.index tL (1 : Fin 2) * 10 + 10; omega

/-- PASS B'S RESULT ARRAY after the pass. -/
theorem final7 (c : Dev nD) : (HB.dat c).arrAt 7 cfg1.N = VB.out7 c :=
  (HB.dat c).arrAt_eq_of_cover 7 (VB.out7 c) (fun t hf => flushed7_eq VB c t hf) cover7

end Cert.KernelIdeal.FinalB

end
-- ==== Proof.Assemble.lean ====
/-
  The result array after the run is the kernel term of the launch contents of the arguments.

  The contents at each boundary are read at the buffers the passes use: an argument nobody writes holds its
  launch contents throughout; a reshaped bias row is the reshape of its argument; pass A's result array is
  `s2` of the arguments (block by block the body's payload of the blocks it was handed).  With these, the
  column sums pass B accumulates, the rows it keeps in its scratch and the payload of its last point are the
  kernel term's `csum`, `h2` and `out`.
-/
import proofs.«109796_g44951127720457_cont_8to1_c_798_21_alg».proof.Proof.Final

set_option maxRecDepth 16384

noncomputable section

namespace Cert.KernelIdeal.Assemble

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run Cert.KernelIdeal.Final Cert.KernelIdeal.FinalB

variable {F : FTy → Type} [FloatOps F] [Named F]

variable (m : (ℓ : Loc nD τ sig) → Buf (Elt F) ℓ)

/-! ## The contents when pass A is entered -/

theorem V1_arg0 (c : Dev nD) : Run.V1 m c main_arg0 = m ((c : Thread nD τ).loc main_arg0) := W1_of m c main_arg0 (by decide)
theorem V1_arg1 (c : Dev nD) : Run.V1 m c main_arg1 = m ((c : Thread nD τ).loc main_arg1) := W1_of m c main_arg1 (by decide)
theorem V1_arg2 (c : Dev nD) : Run.V1 m c main_arg2 = m ((c : Thread nD τ).loc main_arg2) := W1_of m c main_arg2 (by decide)
theorem V1_arg4 (c : Dev nD) : Run.V1 m c main_arg4 = m ((c : Thread nD τ).loc main_arg4) := W1_of m c main_arg4 (by decide)
theorem V1_arg6 (c : Dev nD) : Run.V1 m c main_arg6 = m ((c : Thread nD τ).loc main_arg6) := W1_of m c main_arg6 (by decide)
theorem V1_arg8 (c : Dev nD) : Run.V1 m c main_arg8 = m ((c : Thread nD τ).loc main_arg8) := W1_of m c main_arg8 (by decide)

/-- A reshaped bias row is the reshape of its argument. -/
theorem V1_b1r (c : Dev nD) : Run.V1 m c main_call0_v0 = (shapeCast S1x64 (m ((c : Thread nD τ).loc main_arg3)) shapeCasts_S64_S1x64) := by
  show StableHlo.after hostOps0 (W0 m c) (Proc.devRef .tc main_call0_v0) = _
  after_results; rfl
theorem V1_b2r (c : Dev nD) : Run.V1 m c main_call0_v1 = (shapeCast S1x64 (m ((c : Thread nD τ).loc main_arg5)) shapeCasts_S64_S1x64) := by
  show StableHlo.after hostOps0 (W0 m c) (Proc.devRef .tc main_call0_v1) = _
  after_results; rfl
theorem V1_b3r (c : Dev nD) : Run.V1 m c main_call0_v2 = (shapeCast S1x64 (m ((c : Thread nD τ).loc main_arg7)) shapeCasts_S64_S1x64) := by
  show StableHlo.after hostOps0 (W0 m c) (Proc.devRef .tc main_call0_v2) = _
  after_results; rfl
theorem V1_blr (c : Dev nD) : Run.V1 m c main_call0_v3 = (shapeCast S1x10 (m ((c : Thread nD τ).loc main_arg9)) shapeCasts_S10_S1x10) := by
  show StableHlo.after hostOps0 (W0 m c) (Proc.devRef .tc main_call0_v3) = _
  after_results; rfl

variable (HA : HalfA (Run.V1 m)) (VA : ValA (Run.V1 m) HA)

/-! ## The contents when pass B is entered -/

theorem V2_adj (c : Dev nD) : Run.V2 m HA c main_arg1 = m ((c : Thread nD τ).loc main_arg1) :=
  (W2_in m HA c 1 rfl).trans (W1_of m c main_arg1 (by decide))
/-- Pass A's result array. -/
theorem V2_s2 (c : Dev nD) : Run.V2 m HA c main_call0_v4 = G5 VA c :=
  (W2_arr m HA c 5).trans (final5 VA c)
theorem V2_b2r (c : Dev nD) : Run.V2 m HA c main_call0_v1 = (shapeCast S1x64 (m ((c : Thread nD τ).loc main_arg5)) shapeCasts_S64_S1x64) :=
  (W2_of_ne m HA c main_call0_v1 (by decide)).trans (V1_b2r m c)
theorem V2_w3 (c : Dev nD) : Run.V2 m HA c main_arg6 = m ((c : Thread nD τ).loc main_arg6) :=
  (W2_of_ne m HA c main_arg6 (by decide)).trans (W1_of m c main_arg6 (by decide))
theorem V2_b3r (c : Dev nD) : Run.V2 m HA c main_call0_v2 = (shapeCast S1x64 (m ((c : Thread nD τ).loc main_arg7)) shapeCasts_S64_S1x64) :=
  (W2_of_ne m HA c main_call0_v2 (by decide)).trans (V1_b3r m c)
theorem V2_wl (c : Dev nD) : Run.V2 m HA c main_arg8 = m ((c : Thread nD τ).loc main_arg8) :=
  (W2_of_ne m HA c main_arg8 (by decide)).trans (W1_of m c main_arg8 (by decide))
theorem V2_blr (c : Dev nD) : Run.V2 m HA c main_call0_v3 = (shapeCast S1x10 (m ((c : Thread nD τ).loc main_arg9)) shapeCasts_S10_S1x10) :=
  (W2_of_ne m HA c main_call0_v3 (by decide)).trans (V1_blr m c)

/-! ## The kernel term -/

/-- Pass A's result array is `s2` of the arguments. -/
theorem G5_eq (c : Dev nD) : G5 VA c = Term.s2 (m ((c : Thread nD τ).loc main_arg0)) (m ((c : Thread nD τ).loc main_arg1)) (m ((c : Thread nD τ).loc main_arg2)) (shapeCast S1x64 (m ((c : Thread nD τ).loc main_arg3)) shapeCasts_S64_S1x64) (m ((c : Thread nD τ).loc main_arg4)) := by
  funext j
  unfold G5
  rw [VA.hout5, iblk0_adj, iblk0_x, iblk0_w1, iblk0_b1, iblk0_w2, V1_arg0, V1_arg1, V1_arg2, V1_arg4, V1_b1r]
  rfl

variable (HB : HalfB (Run.V2 m HA)) (VB : ValB (Run.V2 m HA) HB)

/-- The accumulated column sums are the kernel term's. -/
theorem csum_eq (c : Dev nD) : ∀ (n : ℕ) (h : n < cfg1.N), csumAt (Run.V2 m HA) c n h = Term.csum (m ((c : Thread nD τ).loc main_arg1)) n
  | 0, h => by
    show k1_pay3 (iblk1 (Run.V2 m HA) c 0 ⟨0, h⟩) = k1_pay3 (Term.rowBlock (m ((c : Thread nD τ).loc main_arg1)) 0)
    rw [iblk1_adj, V2_adj]
  | n + 1, h => by
    show k1_pay4 (iblk1 (Run.V2 m HA) c 0 ⟨n + 1, h⟩) (csumAt (Run.V2 m HA) c n (Nat.lt_of_succ_lt h)) = k1_pay4 (Term.rowBlock (m ((c : Thread nD τ).loc main_arg1)) (n + 1)) (Term.csum (m ((c : Thread nD τ).loc main_arg1)) n)
    rw [iblk1_adj, V2_adj, csum_eq c n (Nat.lt_of_succ_lt h)]

include VA in
/-- The rows pass B keeps in its scratch are the kernel term's `h2`. -/
theorem h2_eq (c : Dev nD) :
    h2At (Run.V2 m HA) c = Term.h2 (m ((c : Thread nD τ).loc main_arg1)) (Term.s2 (m ((c : Thread nD τ).loc main_arg0)) (m ((c : Thread nD τ).loc main_arg1)) (m ((c : Thread nD τ).loc main_arg2)) (shapeCast S1x64 (m ((c : Thread nD τ).loc main_arg3)) shapeCasts_S64_S1x64) (m ((c : Thread nD τ).loc main_arg4))) (shapeCast S1x64 (m ((c : Thread nD τ).loc main_arg5)) shapeCasts_S64_S1x64) := by
  funext j
  unfold h2At
  rw [iblk1_adj, iblk1_call0_v4, iblk1_call0_v1, V2_adj, V2_s2 m HA VA, V2_b2r, G5_eq]
  rfl

include VA VB in
/-- THE RESULT ARRAY after the run is the kernel term of the arguments' launch contents. -/
theorem main_v0_eq (c : Dev nD) :
    W3 m HA HB c (Proc.devRef .tc main_v0)
      = Term.out (m ((c : Thread nD τ).loc main_arg0)) (m ((c : Thread nD τ).loc main_arg1)) (m ((c : Thread nD τ).loc main_arg2)) (shapeCast S1x64 (m ((c : Thread nD τ).loc main_arg3)) shapeCasts_S64_S1x64) (m ((c : Thread nD τ).loc main_arg4)) (shapeCast S1x64 (m ((c : Thread nD τ).loc main_arg5)) shapeCasts_S64_S1x64) (m ((c : Thread nD τ).loc main_arg6)) (shapeCast S1x64 (m ((c : Thread nD τ).loc main_arg7)) shapeCasts_S64_S1x64) (m ((c : Thread nD τ).loc main_arg8)) (shapeCast S1x10 (m ((c : Thread nD τ).loc main_arg9)) shapeCasts_S10_S1x10) := by
  refine ((W3_arr m HA HB c 7).trans (final7 VB c)).trans ?_
  rw [VB.hout7, csum_eq m HA c 24, h2_eq m HA VA c, iblk1_arg6, iblk1_call0_v2, iblk1_arg8, iblk1_call0_v3, V2_w3, V2_b3r, V2_wl, V2_blr]
  rfl

end Cert.KernelIdeal.Assemble

end
-- ==== Proof.RefModules.lean ====
/-
  The reference's run and its read-at-an-index lemmas, brought into the build.
-/
import proofs.«109796_g44951127720457_cont_8to1_c_798_21_alg».proof.Proof.Gen.ReferenceIdeal.Run
import proofs.«109796_g44951127720457_cont_8to1_c_798_21_alg».proof.Proof.Gen.ReferenceIdeal.Read
-- ==== Proof.Claims.lean ====
/-
  The five claims from their parts.

  The three frames: the kernel program at either float instance runs as the host reshapes and the two passes, and
  its argument arrays end as launched; the reference is host operations only, and its generated run already says
  so.  `preserves` is the one named constant: the table gives `1/10000` for the word the kernel multiplies by.
  `algebraic`: the kernel program's result array is the kernel term of the arguments (the run, read), the
  reference's is its composed term (its generated run); under the precondition every argument entry is a real
  number, and for real arguments the two terms are equal (the value side).
-/
import proofs.«109796_g44951127720457_cont_8to1_c_798_21_alg».proof.Defs
import proofs.«109796_g44951127720457_cont_8to1_c_798_21_alg».proof.Proof.Gen.Kernel
import proofs.«109796_g44951127720457_cont_8to1_c_798_21_alg».proof.Proof.Gen.KernelIdeal
import proofs.«109796_g44951127720457_cont_8to1_c_798_21_alg».proof.Proof.Gen.ReferenceIdeal
import proofs.«109796_g44951127720457_cont_8to1_c_798_21_alg».proof.Proof.Gen.Pre_finite_inputs
import proofs.«109796_g44951127720457_cont_8to1_c_798_21_alg».proof.Proof.Assemble
import proofs.«109796_g44951127720457_cont_8to1_c_798_21_alg».proof.Proof.RefModules

noncomputable section

namespace Cert.Proof.Parts

open Idealize.ShloMosaic Idealize.ShloMosaic.TcCoe Idealize.SL.Sem
open Cert.KernelIdeal Cert.KernelIdeal.Gen Cert.KernelIdeal.Run Cert.KernelIdeal.Final Cert.KernelIdeal.FinalB

/-- What the value side supplies, at the ideal instance: for real arguments the kernel term is the reference's
    composed term, and under the precondition every argument entry is real. -/
structure Bridge where
  eq : ∀ (x : Vec Ideal S10000x128 .f32) (adj : Vec Ideal S10000x10000 .f32) (w1 : Vec Ideal S128x64 .f32) (b1 : Vec Ideal S64 .f32)
      (w2 : Vec Ideal S64x64 .f32) (b2 : Vec Ideal S64 .f32) (w3 : Vec Ideal S64x64 .f32) (b3 : Vec Ideal S64 .f32)
      (wl : Vec Ideal S64x10 .f32) (bl : Vec Ideal S10 .f32),
      (∀ i, ∃ r : ℝ, x i = (r : EReal)) → (∀ i, ∃ r : ℝ, adj i = (r : EReal)) → (∀ i, ∃ r : ℝ, w1 i = (r : EReal)) → (∀ i, ∃ r : ℝ, b1 i = (r : EReal)) →
      (∀ i, ∃ r : ℝ, w2 i = (r : EReal)) → (∀ i, ∃ r : ℝ, b2 i = (r : EReal)) → (∀ i, ∃ r : ℝ, w3 i = (r : EReal)) → (∀ i, ∃ r : ℝ, b3 i = (r : EReal)) →
      (∀ i, ∃ r : ℝ, wl i = (r : EReal)) → (∀ i, ∃ r : ℝ, bl i = (r : EReal)) →
      Term.out (F := Ideal) x adj w1 (shapeCast S1x64 b1 shapeCasts_S64_S1x64) w2 (shapeCast S1x64 b2 shapeCasts_S64_S1x64)
          w3 (shapeCast S1x64 b3 shapeCasts_S64_S1x64) wl (shapeCast S1x10 bl shapeCasts_S10_S1x10)
        = Cert.ReferenceIdeal.Read.val_main_v23 (F := Ideal) x adj w1 b1 w2 b2 w3 b3 wl bl
  real : ∀ (m : (ℓ : Loc Cert.KernelIdeal.nD Cert.KernelIdeal.τ Cert.KernelIdeal.sig) → Buf (Elt Ideal) ℓ), Cert.Pre_KernelIdeal m →
      ∀ c : Dev Cert.KernelIdeal.nD,
      (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal))
      ∧ (∀ i, ∃ r : ℝ, (m ((c.tc : Thread Cert.KernelIdeal.nD Cert.KernelIdeal.τ).loc Cert.KernelIdeal.main_arg4)) i = (r : EReal))
      ∧ (∀ i, ∃ r : ℝ, (m ((c.tc : Thread Cert.KernelIdeal.nD Cert.KernelIdeal.τ).loc Cert.KernelIdeal.main_arg5)) i = (r : EReal))
      ∧ (∀ i, ∃ r : ℝ, (m ((c.tc : Thread Cert.KernelIdeal.nD Cert.KernelIdeal.τ).loc Cert.KernelIdeal.main_arg6)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal))

variable (B : Bridge)
  (HA : ∀ m : (ℓ : Loc nD τ sig) → Buf (Elt Ideal) ℓ, HalfA (Run.V1 m)) (VA : ∀ m, ValA (Run.V1 m) (HA m))
  (HB : ∀ m : (ℓ : Loc nD τ sig) → Buf (Elt Ideal) ℓ, HalfB (Run.V2 m (HA m))) (VB : ∀ m, ValB (Run.V2 m (HA m)) (HB m))

include HA HB in
theorem frame_ideal : Cert.frame_KernelIdeal := fun m ρ _ => Run.frame_all m (HA m) (HB m) ρ

theorem frame_reference : Cert.frame_ReferenceIdeal := fun m ρ _ =>
  (θ_run Cert.ReferenceIdeal.defs _ _).mono (fun _ h c => (h c).2) (Cert.ReferenceIdeal.Value.run (F := Ideal) m ρ)

/-- The ledger's one entry. -/
theorem preserves : Cert.preserves_Kernel_KernelIdeal :=
  IdealRules.named_const.statement Cert.KernelIdeal.κ "inv_10000" .f32 0x38D1B717#32 ((1 / 10000 : ℝ) : EReal) rfl

include B HA VA HB VB in
theorem algebraic : Cert.algebraic_KernelIdeal_ReferenceIdeal := by
  intro m ρ m' ρ' hpre hagree
  refine ⟨fun c => Term.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (shapeCast S1x64 (m ((c.tc : Thread Cert.KernelIdeal.nD Cert.KernelIdeal.τ).loc Cert.KernelIdeal.main_arg3)) shapeCasts_S64_S1x64) (m ((c.tc : Thread Cert.KernelIdeal.nD Cert.KernelIdeal.τ).loc Cert.KernelIdeal.main_arg4))
      (shapeCast S1x64 (m ((c.tc : Thread Cert.KernelIdeal.nD Cert.KernelIdeal.τ).loc Cert.KernelIdeal.main_arg5)) shapeCasts_S64_S1x64) (m ((c.tc : Thread Cert.KernelIdeal.nD Cert.KernelIdeal.τ).loc Cert.KernelIdeal.main_arg6)) (shapeCast S1x64 (m ((c.tc : Thread Cert.KernelIdeal.nD Cert.KernelIdeal.τ).loc Cert.KernelIdeal.main_arg7)) shapeCasts_S64_S1x64) (m ((c.tc : Thread Cert.KernelIdeal.nD Cert.KernelIdeal.τ).loc Cert.KernelIdeal.main_arg8))
      (shapeCast S1x10 (m ((c.tc : Thread Cert.KernelIdeal.nD Cert.KernelIdeal.τ).loc Cert.KernelIdeal.main_arg9)) shapeCasts_S10_S1x10), ?_, ?_⟩
  · exact (θ_run (Cert.KernelIdeal.defs (F := Ideal)) _ _).mono (fun r h c =>
      ⟨(h c _ (Run.mem_uc main_v0 (by decide))).trans (Assemble.main_v0_eq m (HA m) (VA m) (HB m) (VB m) c),
       (h c _ (Run.mem_uc main_arg0 (by decide))).trans (Run.W3_main_arg0 m (HA m) (HB m) c),
       (h c _ (Run.mem_uc main_arg1 (by decide))).trans (Run.W3_main_arg1 m (HA m) (HB m) c),
       (h c _ (Run.mem_uc main_arg2 (by decide))).trans (Run.W3_main_arg2 m (HA m) (HB m) c),
       (h c _ (Run.mem_uc main_arg3 (by decide))).trans (Run.W3_main_arg3 m (HA m) (HB m) c),
       (h c _ (Run.mem_uc main_arg4 (by decide))).trans (Run.W3_main_arg4 m (HA m) (HB m) c),
       (h c _ (Run.mem_uc main_arg5 (by decide))).trans (Run.W3_main_arg5 m (HA m) (HB m) c),
       (h c _ (Run.mem_uc main_arg6 (by decide))).trans (Run.W3_main_arg6 m (HA m) (HB m) c),
       (h c _ (Run.mem_uc main_arg7 (by decide))).trans (Run.W3_main_arg7 m (HA m) (HB m) c),
       (h c _ (Run.mem_uc main_arg8 (by decide))).trans (Run.W3_main_arg8 m (HA m) (HB m) c),
       (h c _ (Run.mem_uc main_arg9 (by decide))).trans (Run.W3_main_arg9 m (HA m) (HB m) c)⟩)
      (Run.run_all m (HA m) (HB m) ρ)
  · refine (θ_run Cert.ReferenceIdeal.defs _ _).mono (fun r h c => ⟨?_, (h c).2⟩) (Cert.ReferenceIdeal.Value.run (F := Ideal) m' ρ')
    obtain ⟨a0, a1, a2, a3, a4, a5, a6, a7, a8, a9⟩ := hagree c
    obtain ⟨r0, r1, r2, r3, r4, r5, r6, r7, r8, r9⟩ := B.real m hpre c
    rw [(h c).1, a0, a1, a2, a3, a4, a5, a6, a7, a8, a9]
    exact (B.eq _ _ _ _ _ _ _ _ _ _ r0 r1 r2 r3 r4 r5 r6 r7 r8 r9).symm

end Cert.Proof.Parts

end
-- ==== Proof.PassA.lean ====
import proofs.«109796_g44951127720457_cont_8to1_c_798_21_alg».proof.Proof.Gen.KernelIdeal.Launch
import proofs.«109796_g44951127720457_cont_8to1_c_798_21_alg».proof.Proof.Gen.KernelIdeal.Skeleton
import proofs.«109796_g44951127720457_cont_8to1_c_798_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

/-! # Region 0 (the first of the two kernel calls): the frame half of its kernel, at the contents the region is entered with

The body runs on a grid of 25 points. Its five input windows are the node features (10000×128), one 400×10000 row block of
the adjacency matrix per point, the first weights (128×64), the bias row (1×64) and the second weights (64×64); its output
window is one 400×64 row block per point; beside them it is passed a 10000×64 scratch buffer of its own. At the first point
it fills the whole scratch with `k0_pay1 features W1`; at every point it then stores
`k0_pay2 (row block) scratch bias W2` over the whole output block. So the scratch is CARRIED from point to point: written
once, read 25 times, and holding the same contents `scr0` after every point.

This module states, for any buffer contents `V` at the region's entry: the windows' blocks (`iblk0`), the two runs of the
body (first point / later points), what the body leaves in the scratch (`scr0`) and in the output window (`out0_5`), the
invariant that carries the scratch (`PhiS`: before the first point every scoped buffer that is no staging buffer at anything;
afterwards the scratch at `scr0` and the others at anything), the proof data `dat0`, the body obligation, and the two
entailments between the invariant's ends and the class's invariant. -/

noncomputable section

namespace Cert.KernelIdeal.PassA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch on the grid point -/

/-- The condition of the body's one conditional: the point's coordinate on the grid's only axis is zero
    (the comparison chain of the skeleton, substituted). -/
abbrev cond0_0 (i : grid0.Coords) : Prop := (Scalar.cmpi .ne (Scalar.extui (Scalar.cmpi .eq (BitVec.ofNat 32 (i 0).val) 0#32)) 0#32) = 1#1

/-- It holds at the first of the 25 points and at no other. -/
theorem hcond0_0 : ∀ t : Fin cfg0.N, cond0_0 (grid0.coords t) ↔ t.val % 25 = 0 :=
  (by decide +kernel : ∀ t : Fin grid0.N, cond0_0 (grid0.coords t) ↔ t.val % 25 = 0)

/-- The offsets of every access of the body: the origin. -/
theorem hz : (![0, 0] : Fin 2 → Nat) = fun _ => 0 := funext fun a => by fin_cases a <;> rfl

/-! ## The body's run, case by case -/

set_option maxHeartbeats 1000000 in
/-- AT THE FIRST POINT (the conditional taken). On whole memrefs, the five inputs at contents `x0 … x4`, the output's and the
    scratch at anything: the body fills the scratch with the product `k0_pay1 x0 x2` of the features and the first weights,
    reads it back, and stores `k0_pay2 x1 (k0_pay1 x0 x2) x3 x4` over the whole output block; the inputs are as they were. -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .f32) (harg7 : arg7.IsWhole)
    (hc0 : cond0_0 i) (x0 : Vec F S10000x128 .f32) (x1 : Vec F S400x10000 .f32) (x2 : Vec F S128x64 .f32) (x3 : Vec F S1x64 .f32) (x4 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 (k0_pay1 x0 x2) x3 x4)
            ∗ owns (c : Thread nD τ) arg7 fullShare (k0_pay1 x0 x2)) -∗ K ⟨⟩))
      ⊢ wp frame (wpE (defs₀ (F := F)) Variants.none c none) E (cc0__pass_a_body i arg1 harg1 arg2 harg2 arg3 harg3 arg4 harg4 arg5 harg5 arg6 harg6 arg7 harg7) K := by
  simp only [cc0__pass_a_body_eq_skeleton]; unfold cc0__pass_a_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz inb_S400x64_S400x64_0_0 y⟩),
      View.canon_unit_zero hz]
    sl_unfold_words
    rw [View.readCov_unit_zero (S := S10000x64) _ hz]
    simp only [View.readAt_eq_ld, harg1.read_unread, harg2.read_unread, harg3.read_unread, harg4.read_unread, harg5.read_unread,
      View.ld_unit_zero (S := S10000x128) hz, View.ld_unit_zero (S := S400x10000) hz, View.ld_unit_zero (S := S128x64) hz,
      View.ld_unit_zero (S := S1x64) hz, View.ld_unit_zero (S := S64x64) hz]
  iexists _; isplitr
  swap; · iexact H6
  ipureintro
  sl_unfold_words
  rw [View.read_writes_eq_canon _ _ _ (fun y => ⟨_, List.mem_singleton_self _, View.mem_set_unit_zero hz inb_S10000x64_S10000x64_0_0 y⟩),
    View.canon_unit_zero hz]
  simp only [View.readAt_eq_ld, harg1.read_unread, harg3.read_unread,
    View.ld_unit_zero (S := S10000x128) hz, View.ld_unit_zero (S := S128x64) hz]

set_option maxHeartbeats 1000000 in
/-- AT EVERY LATER POINT (the conditional not taken). The scratch holds `xs` and is only read: the body stores
    `k0_pay2 x1 xs x3 x4` over the whole output block and leaves everything else as it was. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .f32) (harg7 : arg7.IsWhole)
    (hc0 : ¬cond0_0 i) (x0 : Vec F S10000x128 .f32) (x1 : Vec F S400x10000 .f32) (x2 : Vec F S128x64 .f32) (x3 : Vec F S1x64 .f32) (x4 : Vec F S64x64 .f32) (xs : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 xs x3 x4)
            ∗ owns (c : Thread nD τ) arg7 fullShare xs) -∗ K ⟨⟩))
      ⊢ wp frame (wpE (defs₀ (F := F)) Variants.none c none) E (cc0__pass_a_body i arg1 harg1 arg2 harg2 arg3 harg3 arg4 harg4 arg5 harg5 arg6 harg6 arg7 harg7) K := by
  simp only [cc0__pass_a_body_eq_skeleton]; unfold cc0__pass_a_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz inb_S400x64_S400x64_0_0 y⟩),
      View.canon_unit_zero hz]
    simp only [View.readAt_eq_ld, harg2.read_unread, harg4.read_unread, harg5.read_unread, harg7.read_unread,
      View.ld_unit_zero (S := S400x10000) hz, View.ld_unit_zero (S := S1x64) hz, View.ld_unit_zero (S := S64x64) hz,
      View.ld_unit_zero (S := S10000x64) hz]
  iexists _; isplitr; · ipureintro; exact harg7.read_unread _
  iexact H6

section Region
-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the grid's 25 points. -/
abbrev t0 : Fin cfg0.N := ⟨0, lt_of_lt_of_eq (by decide : 0 < 25) N_0.symm⟩

/-! An input window's current staging buffer holds the window's block at every point, fetched there or not (an input
    not fetched at a point has the block index of the point before, and the body leaves it in place): for ANY proof data
    whose array is `V`'s and whose body leaves the block where it was. The five inputs, one by one. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves -/

/-- What the scratch holds after every point: the features times the first weights, computed once, at the first point,
    from the blocks fetched there (both windows are the whole of their arrays). -/
def scr0 (c : Dev nD) : Vec F S10000x64 .f32 := k0_pay1 (iblk0 V c 0 t0) (iblk0 V c 2 t0)

theorem scr0_eq (c : Dev nD) : scr0 V c = k0_pay1 (iblk0 V c 0 t0) (iblk0 V c 2 t0) := rfl

/-- The same through any name of the first point. -/
theorem scr0_at (c : Dev nD) (t : Fin cfg0.N) (ht : t.val = 0) : scr0 V c = k0_pay1 (iblk0 V c 0 t) (iblk0 V c 2 t) := by
  obtain rfl : t = t0 := Fin.ext ht
  rfl

/-- What the body leaves in the output window's staging buffer at point `t`: the second payload of the point's row block
    of the adjacency matrix, the scratch, the bias row and the second weights. -/
def out0_5 (c : Dev nD) (t : Fin cfg0.N) : Vec F S400x64 .f32 :=
  k0_pay2 (iblk0 V c 1 t) (scr0 V c) (iblk0 V c 3 t) (iblk0 V c 4 t)

theorem out0_5_eq (c : Dev nD) (t : Fin cfg0.N) : out0_5 V c t = k0_pay2 (iblk0 V c 1 t) (scr0 V c) (iblk0 V c 3 t) (iblk0 V c 4 t) := rfl

/-! ## The invariant: the scratch carried from point to point -/

/-- The kernel's scratch, a whole scoped buffer passed beside the windows. -/
abbrev scM0 : Memref sig .tc .vmem S10000x64 .f32 := Memref.whole cc0_scratch0

/-- The core's other scoped buffers that are no staging buffer of this pipeline (the second kernel's staging buffers and
    scratch), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's region invariant with this kernel's scratch split off as a memref owned at some contents: what the body
    is handed at the first point, and what the region gives back at the end. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point the class's (the scratch at anything); afterwards
    the scratch at `scr0` — the first point fills it, no later point stores into it —, the other scoped buffers at anything,
    the generator register at some state. -/
def PhiS (c : Dev nD) : ℕ → sProp 𝕄
  | 0 => Pipeline.ΦA spec0 c
  | _ + 1 => iprop((owns (c : Thread nD τ) scM0 fullShare (scr0 V c) ∗ rest0 c) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop((owns (c : Thread nD τ) scM0 fullShare (scr0 V c) ∗ rest0 c) ∗ (∃ r, prngReg c r)) := rfl

theorem PhiS_pos (c : Dev nD) (n : ℕ) (hn : n ≠ 0) :
    PhiS V c n = iprop((owns (c : Thread nD τ) scM0 fullShare (scr0 V c) ∗ rest0 c) ∗ (∃ r, prngReg c r)) := by
  cases n with
  | zero => exact absurd rfl hn
  | succ n => rfl

/-! ## The pipeline's proof data -/

/-- The proof data of pipeline 0 on core `c`: the arrays as the region finds them (`V`); after the body at point `t` each
    input's buffer at its block and the output's at `out0_5`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
  Φ t := PhiS V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant at a point's start, restated at the point's number. -/
theorem PhiS_castSucc (c : Dev nD) (t : Fin cfg0.N) : (dat0 V c).Φ t.castSucc = PhiS V c t.val := by
  dsimp only [dat0]; simp only [Fin.coe_castSucc]

/-! ## The body obligation -/

/-- Each window's current staging memref at point `t`, spelt as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x64 .f32 := win0_5.stage (cfg0.slots t 5)
abbrev hs0_5 (t : Fin cfg0.N) : (ms0_5 t).IsWhole := hstage0_5 ((cfg0.slots t 5).cast nbuf0_5)

/-- What the body is called with at point `t`: the invariant, what the core owes, and the windows' current buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point. The inputs' memrefs hold their blocks (`before0_W`). At the first point the invariant is the
    class's: the scratch at anything goes in, `run_first` fills it, and it comes back at `scr0` (read through this point's
    name by `scr0_at`). At a later point the invariant hands the scratch at `scr0`, `run_later` only reads it, and it goes
    back as it came. The other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_succ, PhiS_castSucc,
    after0_0, after0_1, after0_2, after0_3, after0_4, after0_5, out0_5_eq]
  by_cases h0 : t.val = 0
  · rw [PhiS_zero V c _ h0, PhiA0_eq, scr0_at V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((hcond0_0 t).mpr (by rw [h0]))
      (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ h0]
    have hN : t.val < 25 := lt_of_lt_of_eq t.isLt (show cfg0.N = 25 from N_0)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 (by have := (hcond0_0 t).mp h; omega))
      (iblk0 V c 0 t) (iblk0 V c 1 t) (iblk0 V c 2 t) (iblk0 V c 3 t) (iblk0 V c 4 t) (scr0 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val from rfl, PhiS_pos V c _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region

end Cert.KernelIdeal.PassA

end
-- ==== Proof.HalvesA.lean ====
/-
  Pass A's half and its value facts, from the pass's own module: the proof data, its arrays, shares and tallies,
  the body obligation and the invariant's two ends; and what the body leaves in the result window at each point.
-/
import proofs.«109796_g44951127720457_cont_8to1_c_798_21_alg».proof.Proof.PassA
import proofs.«109796_g44951127720457_cont_8to1_c_798_21_alg».proof.Proof.Final

noncomputable section

namespace Cert.KernelIdeal.Halves

open Idealize.ShloMosaic Idealize.ShloMosaic.TcCoe Idealize.SL.Sem
open Cert.KernelIdeal Cert.KernelIdeal.Gen

variable {F : FTy → Type} [FloatOps F] [Named F]

def halfA (V : Run.Contents F) : Run.HalfA V where
  dat := PassA.dat0 V
  hA := PassA.A_eq0 V
  hq := fun _ _ => rfl
  howed := fun _ _ => rfl
  hrec := fun _ _ => rfl
  hbody := PassA.body_obligation0 V
  hin := PassA.hin0 V
  hout := PassA.hout0 V

def valA (V : Run.Contents F) : Final.ValA V (halfA V) where
  out5 := PassA.out0_5 V
  hafter5 := PassA.after0_5 V
  hout5 := fun _ _ => rfl

end Cert.KernelIdeal.Halves

end
-- ==== Proof.PassBBase.lean ====
import proofs.«109796_g44951127720457_cont_8to1_c_798_21_alg».proof.Proof.Gen.KernelIdeal.Launch
import proofs.«109796_g44951127720457_cont_8to1_c_798_21_alg».proof.Proof.Gen.KernelIdeal.Skeleton
import proofs.«109796_g44951127720457_cont_8to1_c_798_21_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.WritesUnit
import Idealize.ShloMosaic.Lib.Pipeline.Value

set_option maxRecDepth 16384

noncomputable section

namespace Cert.KernelIdeal.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions, in closed form over the grid -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is positive. -/
abbrev cond1_1 (i : grid1.Coords) : Prop := (Scalar.cmpi .ne (Scalar.extui (Scalar.cmpi .sgt (BitVec.ofNat 32 (i 0).val) 0#32)) 0#32) = 1#1
/-- It holds from the second point on. -/
theorem hcond1_1 : ∀ t : Fin cfg1.N, cond1_1 (grid1.coords t) ↔ 1 ≤ t.val :=
  (by decide +kernel : ∀ t : Fin grid1.N, cond1_1 (grid1.coords t) ↔ 1 ≤ t.val)

/-- The third conditional's test: the grid coordinate is the last one, 24. -/
abbrev cond1_2 (i : grid1.Coords) : Prop := k1_cond3 i = 1#1
/-- It holds at the last point only. -/
theorem hcond1_2 : ∀ t : Fin cfg1.N, cond1_2 (grid1.coords t) ↔ t.val = 24 :=
  (by decide +kernel : ∀ t : Fin grid1.N, cond1_2 (grid1.coords t) ↔ t.val = 24)

/-- The one grid coordinate of point t is t. -/
theorem coords_val : ∀ t : Fin cfg1.N, ((grid1.coords t) 0).val = t.val :=
  (by decide +kernel : ∀ t : Fin grid1.N, ((grid1.coords t) 0).val = t.val)

/-! ## Where the output window is idle -/

/-- Where the third conditional fails the output window is idle: nothing is stored into it, -/
theorem idleAt1_7 : ∀ t : Fin cfg1.N, ¬cond1_2 (grid1.coords t) → cfg1.idle 7 (grid1.coords t) = true := by decide +kernel
/-- and its block is not written back there. -/
theorem noFlush1_7 : ∀ t : Fin cfg1.N, ¬cond1_2 (grid1.coords t) → (cfg1.win 7).flush t = false := by decide +kernel
/-- Where it holds the window is live. -/
theorem liveAt1_7 : ∀ t : Fin cfg1.N, cond1_2 (grid1.coords t) → cfg1.idle 7 (grid1.coords t) = false := by decide +kernel

/-! ## Loads and stores through the whole of a rank-2 buffer -/

theorem zero2 : (![0, 0] : Fin 2 → ℕ) = fun _ => 0 := by
  funext a; match a with | ⟨0, _⟩ => rfl | ⟨1, _⟩ => rfl

/-- A load of the whole of a whole buffer held at the contents that read X reads X. -/
theorem readAt_whole_unread {d : Fin 2 → ℕ} {m : Memref sig .tc .vmem (⟨2, d⟩ : Shape) .f32} (h : m.IsWhole)
    (X : (⟨2, d⟩ : Shape).Idx → Elt F .f32) (inb : ∀ a, (![0, 0] : Fin 2 → ℕ) a + d a ≤ d a) :
    View.readAt (Elt F) m.view (Rect.unit (s := ⟨2, d⟩) ![0, 0] d inb).toLoadRect (h.unread X) = X := by
  show View.ld (m.view.read (Elt F) (h.unread X)) (Rect.unit (s := ⟨2, d⟩) ![0, 0] d inb) = X
  rw [h.read_unread]; exact View.ld_unit_zero zero2 inb X

/-- One store through the whole of a buffer leaves its payload, whatever the buffer held. -/
theorem read_writes_whole2 {d : Fin 2 → ℕ} {m : Memref sig .tc .vmem (⟨2, d⟩ : Shape) .f32}
    (f : m.view.ty.Contents (Elt F)) (inb : ∀ a, (![0, 0] : Fin 2 → ℕ) a + d a ≤ d a) (w : (⟨2, d⟩ : Shape).Idx → Elt F .f32) :
    m.view.read (Elt F) (m.view.writes (Elt F) f [⟨Rect.unit (s := ⟨2, d⟩) ![0, 0] d inb, w⟩]) = w :=
  (View.read_writes_eq_canon m.view f _ fun y => ⟨_, List.mem_singleton_self _, View.mem_set_unit_zero zero2 inb y⟩).trans
    (View.canon_unit_zero zero2 inb w)

/-- A load of the whole after one store through the whole reads the payload. -/
theorem readCov_whole2 {d : Fin 2 → ℕ} {m : Memref sig .tc .vmem (⟨2, d⟩ : Shape) .f32}
    (inb : ∀ a, (![0, 0] : Fin 2 → ℕ) a + d a ≤ d a) (w : (⟨2, d⟩ : Shape).Idx → Elt F .f32) :
    m.view.readCov [⟨Rect.unit (s := ⟨2, d⟩) ![0, 0] d inb, w⟩] (Rect.unit (s := ⟨2, d⟩) ![0, 0] d inb).toLoadRect = w :=
  View.readCov_unit_zero m.view zero2 inb w

/-! ## The slice store into the first scratch -/

/-- The rows of the first scratch the body stores into at grid coordinates i. -/
abbrev r9 (i : grid1.Coords) : Rect S10000x64 := Rect.unit (s := S10000x64) (k1_off1 i) S400x64.size (k1_off1_inb i)

/-- The first scratch after the body's slice store at grid coordinates i: rows [400·i, 400·i + 400) hold the stored
    block p, every other row what it held (xs). -/
def upd9 (i : grid1.Coords) (xs : Vec F S10000x64 .f32) (p : Vec F S400x64 .f32) : Vec F S10000x64 .f32 := fun j =>
  if h : 400 * (i 0).val ≤ (j 0).val ∧ (j 0).val < 400 * (i 0).val + 400 then
    p (ValueIdx.ix2 (⟨(j 0).val - 400 * (i 0).val, by omega⟩ : Fin 400) (⟨(j 1).val, ValueIdx.idx2_lt1 j⟩ : Fin 64))
  else xs j

/-- What the buffer reads after the slice store: newest wins on the slice's rows, the old contents elsewhere. -/
theorem read_writes_r9 {m : Memref sig .tc .vmem S10000x64 .f32} (hm : m.IsWhole) (i : grid1.Coords)
    (xs : Vec F S10000x64 .f32) (p : Vec F S400x64 .f32) :
    m.view.read (Elt F) (m.view.writes (Elt F) (hm.unread xs) [⟨r9 i, p⟩]) = upd9 i xs p := by
  funext j
  rw [View.read_writes_cons_rows m.view (hm.unread xs) (k1_off1_inb i) p [] j (k1_off1_eq i)
    (show S400x64.size (0 : Fin 2) = 400 from rfl) rfl]
  unfold upd9
  by_cases h : 400 * (i 0).val ≤ (j 0).val ∧ (j 0).val < 400 * (i 0).val + 400
  · rw [dif_pos h, dif_pos h]
    refine congrArg p ?_
    funext a
    match a with
    | ⟨0, _⟩ => exact Fin.ext rfl
    | ⟨1, _⟩ => exact Fin.ext (Nat.sub_zero _)
  · rw [dif_neg h, dif_neg h, View.writes_nil, hm.read_unread]

/-- A load of the whole buffer after the slice store reads the same. -/
theorem readAt_whole_writes_r9 {m : Memref sig .tc .vmem S10000x64 .f32} (hm : m.IsWhole) (i : grid1.Coords)
    (xs : Vec F S10000x64 .f32) (p : Vec F S400x64 .f32) (inb : ∀ a, (![0, 0] : Fin 2 → ℕ) a + S10000x64.size a ≤ S10000x64.size a) :
    View.readAt (Elt F) m.view (Rect.unit (s := S10000x64) ![0, 0] S10000x64.size inb).toLoadRect
      (m.view.writes (Elt F) (hm.unread xs) [⟨r9 i, p⟩]) = upd9 i xs p := by
  show View.ld (m.view.read (Elt F) (m.view.writes (Elt F) (hm.unread xs) [⟨r9 i, p⟩])) (Rect.unit (s := S10000x64) ![0, 0] S10000x64.size inb) = _
  rw [read_writes_r9 hm i xs p]; exact View.ld_unit_zero zero2 inb _

end Cert.KernelIdeal.PassB

end
-- ==== Proof.PassBRun.lean ====
import proofs.«109796_g44951127720457_cont_8to1_c_798_21_alg».proof.Proof.PassBBase

set_option maxRecDepth 16384

noncomputable section

namespace Cert.KernelIdeal.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
/-! ## The body's run, case by case -/

set_option maxHeartbeats 2000000 in
/-- THE BODY AT THE FIRST POINT (first conditional only). On whole memrefs, the inputs at their contents, the output at contents handed back untouched, the two scratch buffers at any contents: the first scratch ends with this point's rows stored over what it held, the second with this point's column sums. -/
theorem run_A (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : cond1_0 i) (hc1 : ¬cond1_1 i) (hc2 : ¬cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
    (xi7 : Vec F S1x10 .f32) (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare xi7 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare xi7 ∗ owns (c : Thread nD τ) arg9 fullShare (upd9 i xs9 (k1_pay1 x0 x1 x2)) ∗ owns (c : Thread nD τ) arg10 fullShare (k1_pay3 x0)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

set_option maxHeartbeats 2000000 in
/-- THE BODY AT A MIDDLE POINT (second conditional only): as at the first point, the second scratch ending with this point's column sums added to what it held. -/
theorem run_B (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : ¬cond1_0 i) (hc1 : cond1_1 i) (hc2 : ¬cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
    (xi7 : Vec F S1x10 .f32) (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare xi7 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare xi7 ∗ owns (c : Thread nD τ) arg9 fullShare (upd9 i xs9 (k1_pay1 x0 x1 x2)) ∗ owns (c : Thread nD τ) arg10 fullShare (k1_pay4 x0 xs10)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

set_option maxHeartbeats 2000000 in
/-- THE BODY AT THE LAST POINT (second and third conditionals): as at a middle point, and the output ends with the final value computed from the second scratch as just updated, the WHOLE first scratch as just updated, and the four small inputs. -/
theorem run_C (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : ¬cond1_0 i) (hc1 : cond1_1 i) (hc2 : cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
     (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay5 (k1_pay4 x0 xs10) (upd9 i xs9 (k1_pay1 x0 x1 x2)) x3 x4 x5 x6) ∗ owns (c : Thread nD τ) arg9 fullShare (upd9 i xs9 (k1_pay1 x0 x1 x2)) ∗ owns (c : Thread nD τ) arg10 fullShare (k1_pay4 x0 xs10)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    simp only [readAt_whole_unread, readCov_whole2]
    refine (read_writes_whole2 (F := F) _ _ _).trans ?_
    exact congrArg (fun G => k1_pay5 (k1_pay4 x0 xs10) G x3 x4 x5 x6) (readAt_whole_writes_r9 (F := F) harg9 i xs9 _ _)
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

end Cert.KernelIdeal.PassB

end
-- ==== Proof.PassB.lean ====
import proofs.«109796_g44951127720457_cont_8to1_c_798_21_alg».proof.Proof.PassBRun

set_option maxRecDepth 16384

noncomputable section

namespace Cert.KernelIdeal.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region
-- the TensorCore's buffer contents when the region is entered: the parameter this region's half is stated at
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The grid's size and its last point -/

theorem N1 : cfg1.N = 25 := N_1

/-- The last point of the grid. -/
abbrev tL : Fin cfg1.N := ⟨24, lt_of_lt_of_eq (by decide : 24 < 25) N1.symm⟩

/-- The block of 400 rows a row of the first scratch lies in is a point of the grid. -/
theorem blk_lt (j : S10000x64.Idx) : (j 0).val / 400 < cfg1.N := by
  have h := ValueIdx.idx2_lt0 j; rw [N1]; omega

/-! ## What the two scratch buffers hold -/

/-- The column sums accumulated through point n. -/
def csumAt (c : Dev nD) : (n : ℕ) → n < cfg1.N → Vec F S1x10000 .f32
  | 0, h => k1_pay3 (iblk1 V c 0 ⟨0, h⟩)
  | n + 1, h => k1_pay4 (iblk1 V c 0 ⟨n + 1, h⟩) (csumAt c n (Nat.lt_of_succ_lt h))

/-- At the first point: that point's column sums. -/
theorem csumAt_zero (c : Dev nD) (t : Fin cfg1.N) (h : t.val = 0) : csumAt V c t.val t.isLt = k1_pay3 (iblk1 V c 0 t) := by
  obtain ⟨n, hn⟩ := t
  cases n with
  | zero => rfl
  | succ n => exact absurd h (Nat.succ_ne_zero n)

/-- At a later point: that point's column sums added to what the point before left. -/
theorem csumAt_pos (c : Dev nD) (t : Fin cfg1.N) (h : t.val ≠ 0) :
    csumAt V c t.val t.isLt = k1_pay4 (iblk1 V c 0 t) (csumAt V c (t.val - 1) (Nat.lt_of_le_of_lt (Nat.sub_le _ _) t.isLt)) := by
  obtain ⟨n, hn⟩ := t
  cases n with
  | zero => exact absurd rfl h
  | succ n => rfl

/-- Row r of the second scratch lies in the slice point r / 400 stores, at row r % 400 of that point's payload. -/
def h2At (c : Dev nD) : Vec F S10000x64 .f32 := fun j =>
  k1_pay1 (iblk1 V c 0 ⟨(j 0).val / 400, blk_lt j⟩) (iblk1 V c 1 ⟨(j 0).val / 400, blk_lt j⟩) (iblk1 V c 2 ⟨(j 0).val / 400, blk_lt j⟩)
    (ValueIdx.ix2 (⟨(j 0).val % 400, Nat.mod_lt _ (by decide)⟩ : Fin 400) (⟨(j 1).val, ValueIdx.idx2_lt1 j⟩ : Fin 64))

/-- The same with the point and the row within its slice named. -/
theorem h2At_apply (c : Dev nD) (j : S10000x64.Idx) (t : Fin cfg1.N) (ht : (j 0).val / 400 = t.val) (x : Fin 400)
    (hx : x.val = (j 0).val % 400) :
    h2At V c j = k1_pay1 (iblk1 V c 0 t) (iblk1 V c 1 t) (iblk1 V c 2 t) (ValueIdx.ix2 x (⟨(j 1).val, ValueIdx.idx2_lt1 j⟩ : Fin 64)) := by
  obtain rfl : (⟨(j 0).val / 400, blk_lt j⟩ : Fin cfg1.N) = t := Fin.ext ht
  obtain rfl : (⟨(j 0).val % 400, Nat.mod_lt _ (by decide)⟩ : Fin 400) = x := Fin.ext hx.symm
  rfl

/-- The rows of the first scratch written through point n (rows below 400·(n+1)) hold what their points stored. -/
def rowsOK (c : Dev nD) (n : ℕ) (g : Vec F S10000x64 .f32) : Prop :=
  ∀ j : S10000x64.Idx, (j 0).val < 400 * (n + 1) → g j = h2At V c j

theorem upd9_of_mem (i : grid1.Coords) (xs : Vec F S10000x64 .f32) (p : Vec F S400x64 .f32) (j : S10000x64.Idx)
    (h : 400 * (i 0).val ≤ (j 0).val ∧ (j 0).val < 400 * (i 0).val + 400) :
    upd9 i xs p j = p (ValueIdx.ix2 (⟨(j 0).val - 400 * (i 0).val, by omega⟩ : Fin 400) (⟨(j 1).val, ValueIdx.idx2_lt1 j⟩ : Fin 64)) :=
  dif_pos h

theorem upd9_of_not_mem (i : grid1.Coords) (xs : Vec F S10000x64 .f32) (p : Vec F S400x64 .f32) (j : S10000x64.Idx)
    (h : ¬(400 * (i 0).val ≤ (j 0).val ∧ (j 0).val < 400 * (i 0).val + 400)) : upd9 i xs p j = xs j :=
  dif_neg h

/-- One more point: if the rows below 400·t held what their points stored, then after point t's slice store so do the rows
    below 400·(t+1) — the new slice by the store, the earlier rows because the store misses them. -/
theorem rowsOK_step (c : Dev nD) (t : Fin cfg1.N) (g : Vec F S10000x64 .f32)
    (hg : ∀ j : S10000x64.Idx, (j 0).val < 400 * t.val → g j = h2At V c j) :
    rowsOK V c t.val (upd9 (grid1.coords t) g (k1_pay1 (iblk1 V c 0 t) (iblk1 V c 1 t) (iblk1 V c 2 t))) := by
  intro j hj
  have hi := coords_val t
  by_cases h : 400 * ((grid1.coords t) 0).val ≤ (j 0).val ∧ (j 0).val < 400 * ((grid1.coords t) 0).val + 400
  · rw [upd9_of_mem _ _ _ _ h]
    exact (h2At_apply V c j t (by omega) _ (by show (j 0).val - 400 * ((grid1.coords t) 0).val = (j 0).val % 400; omega)).symm
  · rw [upd9_of_not_mem _ _ _ _ h]
    exact hg j (by omega)

/-- What the body leaves in window 7's staging buffer at the last point. -/
def out1_7 (c : Dev nD) : Vec F S1x10 .f32 :=
  k1_pay5 (csumAt V c 24 tL.isLt) (h2At V c) (iblk1 V c 3 tL) (iblk1 V c 4 tL) (iblk1 V c 5 tL) (iblk1 V c 6 tL)

theorem out1_7_eq (c : Dev nD) : out1_7 V c = k1_pay5 (csumAt V c 24 tL.isLt) (h2At V c) (iblk1 V c 3 tL) (iblk1 V c 4 tL) (iblk1 V c 5 tL) (iblk1 V c 6 tL) := rfl

/-- At the last point the body's stored value is out1_7: all 25 slices of the first scratch are then written (the 24 earlier
    ones by hypothesis, the last by this point's store), so the whole-buffer load reads h2At; the second scratch holds
    the sums through the last point. -/
theorem out1_7_last (c : Dev nD) (t : Fin cfg1.N) (h : t.val = 24) (g : Vec F S10000x64 .f32)
    (hg : ∀ j : S10000x64.Idx, (j 0).val < 400 * t.val → g j = h2At V c j) :
    k1_pay5 (k1_pay4 (iblk1 V c 0 t) (csumAt V c (t.val - 1) (Nat.lt_of_le_of_lt (Nat.sub_le _ _) t.isLt)))
        (upd9 (grid1.coords t) g (k1_pay1 (iblk1 V c 0 t) (iblk1 V c 1 t) (iblk1 V c 2 t)))
        (iblk1 V c 3 t) (iblk1 V c 4 t) (iblk1 V c 5 t) (iblk1 V c 6 t) = out1_7 V c := by
  have e9 : upd9 (grid1.coords t) g (k1_pay1 (iblk1 V c 0 t) (iblk1 V c 1 t) (iblk1 V c 2 t)) = h2At V c :=
    funext fun j => rowsOK_step V c t g hg j (by have := ValueIdx.idx2_lt0 j; omega)
  rw [e9, ← csumAt_pos V c t (by omega)]
  obtain rfl : t = tL := Fin.ext h
  rfl

/-! ## The invariant -/

/-- The core's scoped buffers that are neither staging buffers of this call nor its scratch, each at some contents. -/
def rest9 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f))

/-- The class invariant with this kernel's two scratch buffers split off as whole memrefs at some contents. -/
theorem PhiA1_split (c : Dev nD) : (Pipeline.ΦA spec1 c : sProp 𝕄) ⊢
    iprop(rest9 (F := F) c ∗ (∃ d, owns (c : Thread nD τ) (Memref.whole cc1_scratch0) fullShare d)
      ∗ (∃ d, owns (c : Thread nD τ) (Memref.whole cc1_scratch1) fullShare d) ∗ (∃ r, prngReg c r)) := by
  unfold Pipeline.ΦA rest9; rw [scopedRest1_eq]; simp only [owns_whole]
  iintro ⟨⟨H1, H2, H3, H4, H5, H6, H7, H8, H9, HS0, HS1⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  iexact Hg

/-- And put back. -/
theorem PhiA1_join (c : Dev nD) :
    iprop(rest9 (F := F) c ∗ (∃ d, owns (c : Thread nD τ) (Memref.whole cc1_scratch0) fullShare d)
      ∗ (∃ d, owns (c : Thread nD τ) (Memref.whole cc1_scratch1) fullShare d) ∗ (∃ r, prngReg c r)) ⊢ (Pipeline.ΦA spec1 c : sProp 𝕄) := by
  unfold Pipeline.ΦA rest9; rw [scopedRest1_eq]; simp only [owns_whole]
  iintro ⟨⟨H1, H2, H3, H4, H5, H6, H7, H8, H9⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iexact Hg

/-- The region invariant before position n. Before the first point the class's (every scratch at anything); afterwards the
    other scoped buffers at anything, the second scratch at the column sums through the point before, the first scratch
    at SOME contents whose rows written so far hold what their points stored, and the generator register at some state. -/
def PhiS (c : Dev nD) : (n : ℕ) → n ≤ cfg1.N → sProp 𝕄
  | 0, _ => Pipeline.ΦA spec1 c
  | n + 1, hn => iprop(rest9 (F := F) c
      ∗ (∃ g, ⌜rowsOK V c n g⌝ ∗ owns (c : Thread nD τ) (Memref.whole cc1_scratch0) fullShare g)
      ∗ owns (c : Thread nD τ) (Memref.whole cc1_scratch1) fullShare (csumAt V c n hn)
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest9 (F := F) c
      ∗ (∃ g, ⌜rowsOK V c n g⌝ ∗ owns (c : Thread nD τ) (Memref.whole cc1_scratch0) fullShare g)
      ∗ owns (c : Thread nD τ) (Memref.whole cc1_scratch1) fullShare (csumAt V c n hn)
      ∗ (∃ r, prngReg c r)) := rfl

theorem PhiS_pos (c : Dev nD) (n : ℕ) (h : n ≤ cfg1.N) (hz : n ≠ 0) :
    PhiS V c n h = iprop(rest9 (F := F) c
      ∗ (∃ g, ⌜rowsOK V c (n - 1) g⌝ ∗ owns (c : Thread nD τ) (Memref.whole cc1_scratch0) fullShare g)
      ∗ owns (c : Thread nD τ) (Memref.whole cc1_scratch1) fullShare (csumAt V c (n - 1) (by omega))
      ∗ (∃ r, prngReg c r)) := by
  cases n with
  | zero => exact absurd rfl hz
  | succ n => rfl

/-! ## The pipeline's proof data -/

/-- The proof data of pipeline 1 on core c: the arrays as the region finds them (V); after the body each input's buffer
    at its block, the output's at out1_7 (it is idle at every point but the last, where this is what the body stores);
    the invariant PhiS; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7' (c : Dev nD) (t : Fin cfg1.N) : (dat1 V c).after 7 t = out1_7 V c := by dsimp only [dat1]
theorem after1_7 (c : Dev nD) : (dat1 V c).after 7 tL = out1_7 V c := after1_7' V c tL

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in; the
    invariant hands the body the two scratch buffers (at anything at the first point) and takes them back with one more
    slice of the first written and the second's sums advanced; the output's buffer is handed back untouched except at
    the last point, where it holds out1_7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  have hN : t.val < 25 := lt_of_lt_of_eq t.isLt N1
  by_cases h0 : t.val = 0
  · have hc0 : cond1_0 (grid1.coords t) := (hcond1_0 t).mpr h0
    have hc1 : ¬cond1_1 (grid1.coords t) := fun h => by have := (hcond1_1 t).mp h; omega
    have hc2 : ¬cond1_2 (grid1.coords t) := fun h => by have := (hcond1_2 t).mp h; omega
    rw [Dat.leavesExact_idle (dat1 V c) 7 t (idleAt1_7 t hc2) (noFlush1_7 t hc2)]
    rw [PhiS_castSucc V c t, PhiS_zero V c _ _ h0, csumAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS := PhiA1_split c $$ HΦ
    icases HS with ⟨HR, ⟨%g9, HS0⟩, ⟨%g10, HS1⟩, Hg⟩
    iapply (run_A c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) ((dat1 V c).before 7 t d7) g9 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR]; · iexact HR
      isplitl [HS0]
      · iexists _; isplitr
        · ipureintro; exact rowsOK_step V c t g9 (fun j hj => by omega)
        iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h2 : t.val = 24
    · have hc0 : ¬cond1_0 (grid1.coords t) := fun h => h0 ((hcond1_0 t).mp h)
      have hc1 : cond1_1 (grid1.coords t) := (hcond1_1 t).mpr (by omega)
      have hc2 : cond1_2 (grid1.coords t) := (hcond1_2 t).mpr h2
      rw [show (dat1 V c).leavesExact 7 t = owns (c : Thread nD τ) (st1_7 t) fullShare ((dat1 V c).after 7 t) from by
        unfold Dat.leavesExact; rw [liveAt1_7 t hc2]]
      rw [after1_7', PhiS_castSucc V c t, PhiS_pos V c _ _ h0, csumAt_pos V c t h0]
      iintro ⟨⟨HR, ⟨%g9, %hg9, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [← out1_7_last V c t h2 g9 (fun j hj => hg9 j (by omega))]
      iapply (run_C c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) g9 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HR HS0 HS1 Hg]
      · isplitl [HR]; · iexact HR
        isplitl [HS0]
        · iexists _; isplitr
          · ipureintro; exact rowsOK_step V c t g9 (fun j hj => hg9 j (by omega))
          iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond1_0 (grid1.coords t) := fun h => h0 ((hcond1_0 t).mp h)
      have hc1 : cond1_1 (grid1.coords t) := (hcond1_1 t).mpr (by omega)
      have hc2 : ¬cond1_2 (grid1.coords t) := fun h => h2 ((hcond1_2 t).mp h)
      rw [Dat.leavesExact_idle (dat1 V c) 7 t (idleAt1_7 t hc2) (noFlush1_7 t hc2)]
      rw [PhiS_castSucc V c t, PhiS_pos V c _ _ h0, csumAt_pos V c t h0]
      iintro ⟨⟨HR, ⟨%g9, %hg9, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) ((dat1 V c).before 7 t d7) g9 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HR HS0 HS1 Hg]
      · isplitl [HR]; · iexact HR
        isplitl [HS0]
        · iexists _; isplitr
          · ipureintro; exact rowsOK_step V c t g9 (fun j hj => hg9 j (by omega))
          iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, ⟨%g, -, HS0⟩, HS1, Hg⟩
  iapply (PhiA1_join (F := F) c)
  isplitl [HR]; · iexact HR
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N1; omega)

end Region

end Cert.KernelIdeal.PassB

end
-- ==== Proof.HalvesB.lean ====
/-
  Pass B's half and its value facts, from the pass's own modules; and both halves for the word-level program's frame
  are in the sibling module.  The accumulated column sums are defined by the same recursion in the pass's module and in the
  value-reading module; they are the same function, by induction on the point.
-/
import proofs.«109796_g44951127720457_cont_8to1_c_798_21_alg».proof.Proof.PassB
import proofs.«109796_g44951127720457_cont_8to1_c_798_21_alg».proof.Proof.HalvesA

noncomputable section

namespace Cert.KernelIdeal.Halves

open Idealize.ShloMosaic Idealize.ShloMosaic.TcCoe Idealize.SL.Sem
open Cert.KernelIdeal Cert.KernelIdeal.Gen

variable {F : FTy → Type} [FloatOps F] [Named F]

def halfB (V : Run.Contents F) : Run.HalfB V where
  dat := PassB.dat1 V
  hA := PassB.A_eq1 V
  hq := fun _ _ => rfl
  howed := fun _ _ => rfl
  hrec := fun _ _ => rfl
  hbody := PassB.body_obligation1 V
  hin := PassB.hin1 V
  hout := PassB.hout1 V

theorem csumAt_eq (V : Run.Contents F) (c : Dev nD) : ∀ (n : ℕ) (h : n < cfg1.N), PassB.csumAt V c n h = FinalB.csumAt V c n h
  | 0, _ => rfl
  | n + 1, h => by
    show k1_pay4 _ (PassB.csumAt V c n (Nat.lt_of_succ_lt h)) = k1_pay4 _ (FinalB.csumAt V c n (Nat.lt_of_succ_lt h))
    rw [csumAt_eq V c n (Nat.lt_of_succ_lt h)]
    rfl

def valB (V : Run.Contents F) : FinalB.ValB V (halfB V) where
  out7 := PassB.out1_7 V
  hafter7 := PassB.after1_7 V
  hout7 := fun c => by
    rw [PassB.out1_7_eq, csumAt_eq]
    rfl

end Cert.KernelIdeal.Halves

end
-- ==== Proof.KPassA.lean ====
import proofs.«109796_g44951127720457_cont_8to1_c_798_21_alg».proof.Proof.Gen.Kernel.Launch
import proofs.«109796_g44951127720457_cont_8to1_c_798_21_alg».proof.Proof.Gen.Kernel.Skeleton
import proofs.«109796_g44951127720457_cont_8to1_c_798_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

/-! # Region 0 (the first of the two kernel calls): the frame half of its kernel, at the contents the region is entered with

The body runs on a grid of 25 points. Its five input windows are the node features (10000×128), one 400×10000 row block of
the adjacency matrix per point, the first weights (128×64), the bias row (1×64) and the second weights (64×64); its output
window is one 400×64 row block per point; beside them it is passed a 10000×64 scratch buffer of its own. At the first point
it fills the whole scratch with `k0_pay1 features W1`; at every point it then stores
`k0_pay2 (row block) scratch bias W2` over the whole output block. So the scratch is CARRIED from point to point: written
once, read 25 times, and holding the same contents `scr0` after every point.

This module states, for any buffer contents `V` at the region's entry: the windows' blocks (`iblk0`), the two runs of the
body (first point / later points), what the body leaves in the scratch (`scr0`) and in the output window (`out0_5`), the
invariant that carries the scratch (`PhiS`: before the first point every scoped buffer that is no staging buffer at anything;
afterwards the scratch at `scr0` and the others at anything), the proof data `dat0`, the body obligation, and the two
entailments between the invariant's ends and the class's invariant. -/

noncomputable section

namespace Cert.Kernel.PassA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch on the grid point -/

/-- The condition of the body's one conditional: the point's coordinate on the grid's only axis is zero
    (the comparison chain of the skeleton, substituted). -/
abbrev cond0_0 (i : grid0.Coords) : Prop := (Scalar.cmpi .ne (Scalar.extui (Scalar.cmpi .eq (BitVec.ofNat 32 (i 0).val) 0#32)) 0#32) = 1#1

/-- It holds at the first of the 25 points and at no other. -/
theorem hcond0_0 : ∀ t : Fin cfg0.N, cond0_0 (grid0.coords t) ↔ t.val % 25 = 0 :=
  (by decide +kernel : ∀ t : Fin grid0.N, cond0_0 (grid0.coords t) ↔ t.val % 25 = 0)

/-- The offsets of every access of the body: the origin. -/
theorem hz : (![0, 0] : Fin 2 → Nat) = fun _ => 0 := funext fun a => by fin_cases a <;> rfl

/-! ## The body's run, case by case -/

set_option maxHeartbeats 1000000 in
/-- AT THE FIRST POINT (the conditional taken). On whole memrefs, the five inputs at contents `x0 … x4`, the output's and the
    scratch at anything: the body fills the scratch with the product `k0_pay1 x0 x2` of the features and the first weights,
    reads it back, and stores `k0_pay2 x1 (k0_pay1 x0 x2) x3 x4` over the whole output block; the inputs are as they were. -/
theorem run_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .f32) (harg7 : arg7.IsWhole)
    (hc0 : cond0_0 i) (x0 : Vec F S10000x128 .f32) (x1 : Vec F S400x10000 .f32) (x2 : Vec F S128x64 .f32) (x3 : Vec F S1x64 .f32) (x4 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 (k0_pay1 x0 x2) x3 x4)
            ∗ owns (c : Thread nD τ) arg7 fullShare (k0_pay1 x0 x2)) -∗ K ⟨⟩))
      ⊢ wp frame (wpE (defs₀ (F := F)) Variants.none c none) E (cc0__pass_a_body i arg1 harg1 arg2 harg2 arg3 harg3 arg4 harg4 arg5 harg5 arg6 harg6 arg7 harg7) K := by
  simp only [cc0__pass_a_body_eq_skeleton]; unfold cc0__pass_a_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz inb_S400x64_S400x64_0_0 y⟩),
      View.canon_unit_zero hz]
    sl_unfold_words
    rw [View.readCov_unit_zero (S := S10000x64) _ hz]
    simp only [View.readAt_eq_ld, harg1.read_unread, harg2.read_unread, harg3.read_unread, harg4.read_unread, harg5.read_unread,
      View.ld_unit_zero (S := S10000x128) hz, View.ld_unit_zero (S := S400x10000) hz, View.ld_unit_zero (S := S128x64) hz,
      View.ld_unit_zero (S := S1x64) hz, View.ld_unit_zero (S := S64x64) hz]
  iexists _; isplitr
  swap; · iexact H6
  ipureintro
  sl_unfold_words
  rw [View.read_writes_eq_canon _ _ _ (fun y => ⟨_, List.mem_singleton_self _, View.mem_set_unit_zero hz inb_S10000x64_S10000x64_0_0 y⟩),
    View.canon_unit_zero hz]
  simp only [View.readAt_eq_ld, harg1.read_unread, harg3.read_unread,
    View.ld_unit_zero (S := S10000x128) hz, View.ld_unit_zero (S := S128x64) hz]

set_option maxHeartbeats 1000000 in
/-- AT EVERY LATER POINT (the conditional not taken). The scratch holds `xs` and is only read: the body stores
    `k0_pay2 x1 xs x3 x4` over the whole output block and leaves everything else as it was. -/
theorem run_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S400x64 .f32) (harg6 : arg6.IsWhole) (arg7 : Memref sig .tc .vmem S10000x64 .f32) (harg7 : arg7.IsWhole)
    (hc0 : ¬cond0_0 i) (x0 : Vec F S10000x128 .f32) (x1 : Vec F S400x10000 .f32) (x2 : Vec F S128x64 .f32) (x3 : Vec F S1x64 .f32) (x4 : Vec F S64x64 .f32) (xs : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x1 xs x3 x4)
            ∗ owns (c : Thread nD τ) arg7 fullShare xs) -∗ K ⟨⟩))
      ⊢ wp frame (wpE (defs₀ (F := F)) Variants.none c none) E (cc0__pass_a_body i arg1 harg1 arg2 harg2 arg3 harg3 arg4 harg4 arg5 harg5 arg6 harg6 arg7 harg7) K := by
  simp only [cc0__pass_a_body_eq_skeleton]; unfold cc0__pass_a_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_singleton_self _, View.mem_set_unit_zero hz inb_S400x64_S400x64_0_0 y⟩),
      View.canon_unit_zero hz]
    simp only [View.readAt_eq_ld, harg2.read_unread, harg4.read_unread, harg5.read_unread, harg7.read_unread,
      View.ld_unit_zero (S := S400x10000) hz, View.ld_unit_zero (S := S1x64) hz, View.ld_unit_zero (S := S64x64) hz,
      View.ld_unit_zero (S := S10000x64) hz]
  iexists _; isplitr; · ipureintro; exact harg7.read_unread _
  iexact H6

section Region
-- the TensorCore's buffer contents when the region is entered: everything below is stated at them
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the grid's 25 points. -/
abbrev t0 : Fin cfg0.N := ⟨0, lt_of_lt_of_eq (by decide : 0 < 25) N_0.symm⟩

/-! An input window's current staging buffer holds the window's block at every point, fetched there or not (an input
    not fetched at a point has the block index of the point before, and the body leaves it in place): for ANY proof data
    whose array is `V`'s and whose body leaves the block where it was. The five inputs, one by one. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves -/

/-- What the scratch holds after every point: the features times the first weights, computed once, at the first point,
    from the blocks fetched there (both windows are the whole of their arrays). -/
def scr0 (c : Dev nD) : Vec F S10000x64 .f32 := k0_pay1 (iblk0 V c 0 t0) (iblk0 V c 2 t0)

theorem scr0_eq (c : Dev nD) : scr0 V c = k0_pay1 (iblk0 V c 0 t0) (iblk0 V c 2 t0) := rfl

/-- The same through any name of the first point. -/
theorem scr0_at (c : Dev nD) (t : Fin cfg0.N) (ht : t.val = 0) : scr0 V c = k0_pay1 (iblk0 V c 0 t) (iblk0 V c 2 t) := by
  obtain rfl : t = t0 := Fin.ext ht
  rfl

/-- What the body leaves in the output window's staging buffer at point `t`: the second payload of the point's row block
    of the adjacency matrix, the scratch, the bias row and the second weights. -/
def out0_5 (c : Dev nD) (t : Fin cfg0.N) : Vec F S400x64 .f32 :=
  k0_pay2 (iblk0 V c 1 t) (scr0 V c) (iblk0 V c 3 t) (iblk0 V c 4 t)

theorem out0_5_eq (c : Dev nD) (t : Fin cfg0.N) : out0_5 V c t = k0_pay2 (iblk0 V c 1 t) (scr0 V c) (iblk0 V c 3 t) (iblk0 V c 4 t) := rfl

/-! ## The invariant: the scratch carried from point to point -/

/-- The kernel's scratch, a whole scoped buffer passed beside the windows. -/
abbrev scM0 : Memref sig .tc .vmem S10000x64 .f32 := Memref.whole cc0_scratch0

/-- The core's other scoped buffers that are no staging buffer of this pipeline (the second kernel's staging buffers and
    scratch), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's region invariant with this kernel's scratch split off as a memref owned at some contents: what the body
    is handed at the first point, and what the region gives back at the end. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point the class's (the scratch at anything); afterwards
    the scratch at `scr0` — the first point fills it, no later point stores into it —, the other scoped buffers at anything,
    the generator register at some state. -/
def PhiS (c : Dev nD) : ℕ → sProp 𝕄
  | 0 => Pipeline.ΦA spec0 c
  | _ + 1 => iprop((owns (c : Thread nD τ) scM0 fullShare (scr0 V c) ∗ rest0 c) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop((owns (c : Thread nD τ) scM0 fullShare (scr0 V c) ∗ rest0 c) ∗ (∃ r, prngReg c r)) := rfl

theorem PhiS_pos (c : Dev nD) (n : ℕ) (hn : n ≠ 0) :
    PhiS V c n = iprop((owns (c : Thread nD τ) scM0 fullShare (scr0 V c) ∗ rest0 c) ∗ (∃ r, prngReg c r)) := by
  cases n with
  | zero => exact absurd rfl hn
  | succ n => rfl

/-! ## The pipeline's proof data -/

/-- The proof data of pipeline 0 on core `c`: the arrays as the region finds them (`V`); after the body at point `t` each
    input's buffer at its block and the output's at `out0_5`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
  Φ t := PhiS V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant at a point's start, restated at the point's number. -/
theorem PhiS_castSucc (c : Dev nD) (t : Fin cfg0.N) : (dat0 V c).Φ t.castSucc = PhiS V c t.val := by
  dsimp only [dat0]; simp only [Fin.coe_castSucc]

/-! ## The body obligation -/

/-- Each window's current staging memref at point `t`, spelt as the pipeline passes it to the body, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x64 .f32 := win0_5.stage (cfg0.slots t 5)
abbrev hs0_5 (t : Fin cfg0.N) : (ms0_5 t).IsWhole := hstage0_5 ((cfg0.slots t 5).cast nbuf0_5)

/-- What the body is called with at point `t`: the invariant, what the core owes, and the windows' current buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point. The inputs' memrefs hold their blocks (`before0_W`). At the first point the invariant is the
    class's: the scratch at anything goes in, `run_first` fills it, and it comes back at `scr0` (read through this point's
    name by `scr0_at`). At a later point the invariant hands the scratch at `scr0`, `run_later` only reads it, and it goes
    back as it came. The other scoped buffers, the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_succ, PhiS_castSucc,
    after0_0, after0_1, after0_2, after0_3, after0_4, after0_5, out0_5_eq]
  by_cases h0 : t.val = 0
  · rw [PhiS_zero V c _ h0, PhiA0_eq, scr0_at V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((hcond0_0 t).mpr (by rw [h0]))
      (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ h0]
    have hN : t.val < 25 := lt_of_lt_of_eq t.isLt (show cfg0.N = 25 from N_0)
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 (by have := (hcond0_0 t).mp h; omega))
      (iblk0 V c 0 t) (iblk0 V c 1 t) (iblk0 V c 2 t) (iblk0 V c 3 t) (iblk0 V c 4 t) (scr0 V c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class's invariant) is the invariant before the first point. -/
theorem hin0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val from rfl, PhiS_pos V c _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region

end Cert.Kernel.PassA

end
-- ==== Proof.KPassBBase.lean ====
import proofs.«109796_g44951127720457_cont_8to1_c_798_21_alg».proof.Proof.Gen.Kernel.Launch
import proofs.«109796_g44951127720457_cont_8to1_c_798_21_alg».proof.Proof.Gen.Kernel.Skeleton
import proofs.«109796_g44951127720457_cont_8to1_c_798_21_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.WritesUnit
import Idealize.ShloMosaic.Lib.Pipeline.Value

set_option maxRecDepth 16384

noncomputable section

namespace Cert.Kernel.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions, in closed form over the grid -/

/-- The first conditional's test: the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's test: the grid coordinate is positive. -/
abbrev cond1_1 (i : grid1.Coords) : Prop := (Scalar.cmpi .ne (Scalar.extui (Scalar.cmpi .sgt (BitVec.ofNat 32 (i 0).val) 0#32)) 0#32) = 1#1
/-- It holds from the second point on. -/
theorem hcond1_1 : ∀ t : Fin cfg1.N, cond1_1 (grid1.coords t) ↔ 1 ≤ t.val :=
  (by decide +kernel : ∀ t : Fin grid1.N, cond1_1 (grid1.coords t) ↔ 1 ≤ t.val)

/-- The third conditional's test: the grid coordinate is the last one, 24. -/
abbrev cond1_2 (i : grid1.Coords) : Prop := k1_cond3 i = 1#1
/-- It holds at the last point only. -/
theorem hcond1_2 : ∀ t : Fin cfg1.N, cond1_2 (grid1.coords t) ↔ t.val = 24 :=
  (by decide +kernel : ∀ t : Fin grid1.N, cond1_2 (grid1.coords t) ↔ t.val = 24)

/-- The one grid coordinate of point t is t. -/
theorem coords_val : ∀ t : Fin cfg1.N, ((grid1.coords t) 0).val = t.val :=
  (by decide +kernel : ∀ t : Fin grid1.N, ((grid1.coords t) 0).val = t.val)

/-! ## Where the output window is idle -/

/-- Where the third conditional fails the output window is idle: nothing is stored into it, -/
theorem idleAt1_7 : ∀ t : Fin cfg1.N, ¬cond1_2 (grid1.coords t) → cfg1.idle 7 (grid1.coords t) = true := by decide +kernel
/-- and its block is not written back there. -/
theorem noFlush1_7 : ∀ t : Fin cfg1.N, ¬cond1_2 (grid1.coords t) → (cfg1.win 7).flush t = false := by decide +kernel
/-- Where it holds the window is live. -/
theorem liveAt1_7 : ∀ t : Fin cfg1.N, cond1_2 (grid1.coords t) → cfg1.idle 7 (grid1.coords t) = false := by decide +kernel

/-! ## Loads and stores through the whole of a rank-2 buffer -/

theorem zero2 : (![0, 0] : Fin 2 → ℕ) = fun _ => 0 := by
  funext a; match a with | ⟨0, _⟩ => rfl | ⟨1, _⟩ => rfl

/-- A load of the whole of a whole buffer held at the contents that read X reads X. -/
theorem readAt_whole_unread {d : Fin 2 → ℕ} {m : Memref sig .tc .vmem (⟨2, d⟩ : Shape) .f32} (h : m.IsWhole)
    (X : (⟨2, d⟩ : Shape).Idx → Elt F .f32) (inb : ∀ a, (![0, 0] : Fin 2 → ℕ) a + d a ≤ d a) :
    View.readAt (Elt F) m.view (Rect.unit (s := ⟨2, d⟩) ![0, 0] d inb).toLoadRect (h.unread X) = X := by
  show View.ld (m.view.read (Elt F) (h.unread X)) (Rect.unit (s := ⟨2, d⟩) ![0, 0] d inb) = X
  rw [h.read_unread]; exact View.ld_unit_zero zero2 inb X

/-- One store through the whole of a buffer leaves its payload, whatever the buffer held. -/
theorem read_writes_whole2 {d : Fin 2 → ℕ} {m : Memref sig .tc .vmem (⟨2, d⟩ : Shape) .f32}
    (f : m.view.ty.Contents (Elt F)) (inb : ∀ a, (![0, 0] : Fin 2 → ℕ) a + d a ≤ d a) (w : (⟨2, d⟩ : Shape).Idx → Elt F .f32) :
    m.view.read (Elt F) (m.view.writes (Elt F) f [⟨Rect.unit (s := ⟨2, d⟩) ![0, 0] d inb, w⟩]) = w :=
  (View.read_writes_eq_canon m.view f _ fun y => ⟨_, List.mem_singleton_self _, View.mem_set_unit_zero zero2 inb y⟩).trans
    (View.canon_unit_zero zero2 inb w)

/-- A load of the whole after one store through the whole reads the payload. -/
theorem readCov_whole2 {d : Fin 2 → ℕ} {m : Memref sig .tc .vmem (⟨2, d⟩ : Shape) .f32}
    (inb : ∀ a, (![0, 0] : Fin 2 → ℕ) a + d a ≤ d a) (w : (⟨2, d⟩ : Shape).Idx → Elt F .f32) :
    m.view.readCov [⟨Rect.unit (s := ⟨2, d⟩) ![0, 0] d inb, w⟩] (Rect.unit (s := ⟨2, d⟩) ![0, 0] d inb).toLoadRect = w :=
  View.readCov_unit_zero m.view zero2 inb w

/-! ## The slice store into the first scratch -/

/-- The rows of the first scratch the body stores into at grid coordinates i. -/
abbrev r9 (i : grid1.Coords) : Rect S10000x64 := Rect.unit (s := S10000x64) (k1_off1 i) S400x64.size (k1_off1_inb i)

/-- The first scratch after the body's slice store at grid coordinates i: rows [400·i, 400·i + 400) hold the stored
    block p, every other row what it held (xs). -/
def upd9 (i : grid1.Coords) (xs : Vec F S10000x64 .f32) (p : Vec F S400x64 .f32) : Vec F S10000x64 .f32 := fun j =>
  if h : 400 * (i 0).val ≤ (j 0).val ∧ (j 0).val < 400 * (i 0).val + 400 then
    p (ValueIdx.ix2 (⟨(j 0).val - 400 * (i 0).val, by omega⟩ : Fin 400) (⟨(j 1).val, ValueIdx.idx2_lt1 j⟩ : Fin 64))
  else xs j

/-- What the buffer reads after the slice store: newest wins on the slice's rows, the old contents elsewhere. -/
theorem read_writes_r9 {m : Memref sig .tc .vmem S10000x64 .f32} (hm : m.IsWhole) (i : grid1.Coords)
    (xs : Vec F S10000x64 .f32) (p : Vec F S400x64 .f32) :
    m.view.read (Elt F) (m.view.writes (Elt F) (hm.unread xs) [⟨r9 i, p⟩]) = upd9 i xs p := by
  funext j
  rw [View.read_writes_cons_rows m.view (hm.unread xs) (k1_off1_inb i) p [] j (k1_off1_eq i)
    (show S400x64.size (0 : Fin 2) = 400 from rfl) rfl]
  unfold upd9
  by_cases h : 400 * (i 0).val ≤ (j 0).val ∧ (j 0).val < 400 * (i 0).val + 400
  · rw [dif_pos h, dif_pos h]
    refine congrArg p ?_
    funext a
    match a with
    | ⟨0, _⟩ => exact Fin.ext rfl
    | ⟨1, _⟩ => exact Fin.ext (Nat.sub_zero _)
  · rw [dif_neg h, dif_neg h, View.writes_nil, hm.read_unread]

/-- A load of the whole buffer after the slice store reads the same. -/
theorem readAt_whole_writes_r9 {m : Memref sig .tc .vmem S10000x64 .f32} (hm : m.IsWhole) (i : grid1.Coords)
    (xs : Vec F S10000x64 .f32) (p : Vec F S400x64 .f32) (inb : ∀ a, (![0, 0] : Fin 2 → ℕ) a + S10000x64.size a ≤ S10000x64.size a) :
    View.readAt (Elt F) m.view (Rect.unit (s := S10000x64) ![0, 0] S10000x64.size inb).toLoadRect
      (m.view.writes (Elt F) (hm.unread xs) [⟨r9 i, p⟩]) = upd9 i xs p := by
  show View.ld (m.view.read (Elt F) (m.view.writes (Elt F) (hm.unread xs) [⟨r9 i, p⟩])) (Rect.unit (s := S10000x64) ![0, 0] S10000x64.size inb) = _
  rw [read_writes_r9 hm i xs p]; exact View.ld_unit_zero zero2 inb _

end Cert.Kernel.PassB

end
-- ==== Proof.KPassBRun.lean ====
import proofs.«109796_g44951127720457_cont_8to1_c_798_21_alg».proof.Proof.KPassBBase

set_option maxRecDepth 16384

noncomputable section

namespace Cert.Kernel.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! ## The body's run, case by case -/

set_option maxHeartbeats 2000000 in
/-- THE BODY AT THE FIRST POINT (first conditional only). On whole memrefs, the inputs at their contents, the output at contents handed back untouched, the two scratch buffers at any contents: the first scratch ends with this point's rows stored over what it held, the second with this point's column sums. -/
theorem run_A (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : cond1_0 i) (hc1 : ¬cond1_1 i) (hc2 : ¬cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
    (xi7 : Vec F S1x10 .f32) (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare xi7 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare xi7 ∗ owns (c : Thread nD τ) arg9 fullShare (upd9 i xs9 (k1_pay1 x0 x1 x2)) ∗ owns (c : Thread nD τ) arg10 fullShare (k1_pay3 x0)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

set_option maxHeartbeats 2000000 in
/-- THE BODY AT A MIDDLE POINT (second conditional only): as at the first point, the second scratch ending with this point's column sums added to what it held. -/
theorem run_B (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : ¬cond1_0 i) (hc1 : cond1_1 i) (hc2 : ¬cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
    (xi7 : Vec F S1x10 .f32) (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare xi7 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare xi7 ∗ owns (c : Thread nD τ) arg9 fullShare (upd9 i xs9 (k1_pay1 x0 x1 x2)) ∗ owns (c : Thread nD τ) arg10 fullShare (k1_pay4 x0 xs10)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg8.eq_unread hf7; obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

set_option maxHeartbeats 2000000 in
/-- THE BODY AT THE LAST POINT (second and third conditionals): as at a middle point, and the output ends with the final value computed from the second scratch as just updated, the WHOLE first scratch as just updated, and the four small inputs. -/
theorem run_C (c : Dev nD) (i : grid1.Coords) (arg1 : Memref sig .tc .vmem S400x10000 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x10 .f32) (harg6 : arg6.IsWhole) (arg7 : Memref sig .tc .vmem S1x10 .f32) (harg7 : arg7.IsWhole) (arg8 : Memref sig .tc .vmem S1x10 .f32) (harg8 : arg8.IsWhole) (arg9 : Memref sig .tc .vmem S10000x64 .f32) (harg9 : arg9.IsWhole) (arg10 : Memref sig .tc .vmem S1x10000 .f32) (harg10 : arg10.IsWhole)
    (hc0 : ¬cond1_0 i) (hc1 : cond1_1 i) (hc2 : cond1_2 i)
    (x0 : Vec F S400x10000 .f32) (x1 : Vec F S10000x64 .f32) (x2 : Vec F S1x64 .f32) (x3 : Vec F S64x64 .f32) (x4 : Vec F S1x64 .f32) (x5 : Vec F S64x10 .f32) (x6 : Vec F S1x10 .f32)
     (xs9 : Vec F S10000x64 .f32) (xs10 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k1_pay5 (k1_pay4 x0 xs10) (upd9 i xs9 (k1_pay1 x0 x1 x2)) x3 x4 x5 x6) ∗ owns (c : Thread nD τ) arg9 fullShare (upd9 i xs9 (k1_pay1 x0 x1 x2)) ∗ owns (c : Thread nD τ) arg10 fullShare (k1_pay4 x0 xs10)) -∗ K ⟨⟩))
      ⊢ wp frame (wpE (defs₀ (F := F)) Variants.none c none) E (cc1__pass_b_body i arg1 harg1 arg2 harg2 arg3 harg3 arg4 harg4 arg5 harg5 arg6 harg6 arg7 harg7 arg8 harg8 arg9 harg9 arg10 harg10) K := by
  simp only [cc1__pass_b_body_eq_skeleton]; unfold cc1__pass_b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f9, %hf9, H9⟩, ⟨%f10, %hf10, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  obtain rfl := harg9.eq_unread hf9; obtain rfl := harg10.eq_unread hf10
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    simp only [readAt_whole_unread, readCov_whole2]
    refine (read_writes_whole2 (F := F) _ _ _).trans ?_
    exact congrArg (fun G => k1_pay5 (k1_pay4 x0 xs10) G x3 x4 x5 x6) (readAt_whole_writes_r9 (F := F) harg9 i xs9 _ _)
  isplitl [H9]
  · iexists _; isplitr
    swap; · iexact H9
    ipureintro
    sl_unfold_run_names
    simp only [readAt_whole_unread]
    exact read_writes_r9 harg9 i xs9 _
  iexists _; isplitr
  swap; · iexact H10
  ipureintro
  sl_unfold_run_names
  simp only [readAt_whole_unread]
  exact read_writes_whole2 _ _ _

end Cert.Kernel.PassB

end
-- ==== Proof.KPassB.lean ====
import proofs.«109796_g44951127720457_cont_8to1_c_798_21_alg».proof.Proof.KPassBRun

set_option maxRecDepth 16384

noncomputable section

namespace Cert.Kernel.PassB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
-- the TensorCore's buffer contents when the region is entered: the parameter this region's half is stated at
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The grid's size and its last point -/

theorem N1 : cfg1.N = 25 := N_1

/-- The last point of the grid. -/
abbrev tL : Fin cfg1.N := ⟨24, lt_of_lt_of_eq (by decide : 24 < 25) N1.symm⟩

/-- The block of 400 rows a row of the first scratch lies in is a point of the grid. -/
theorem blk_lt (j : S10000x64.Idx) : (j 0).val / 400 < cfg1.N := by
  have h := ValueIdx.idx2_lt0 j; rw [N1]; omega

/-! ## What the two scratch buffers hold -/

/-- The column sums accumulated through point n. -/
def csumAt (c : Dev nD) : (n : ℕ) → n < cfg1.N → Vec F S1x10000 .f32
  | 0, h => k1_pay3 (iblk1 V c 0 ⟨0, h⟩)
  | n + 1, h => k1_pay4 (iblk1 V c 0 ⟨n + 1, h⟩) (csumAt c n (Nat.lt_of_succ_lt h))

/-- At the first point: that point's column sums. -/
theorem csumAt_zero (c : Dev nD) (t : Fin cfg1.N) (h : t.val = 0) : csumAt V c t.val t.isLt = k1_pay3 (iblk1 V c 0 t) := by
  obtain ⟨n, hn⟩ := t
  cases n with
  | zero => rfl
  | succ n => exact absurd h (Nat.succ_ne_zero n)

/-- At a later point: that point's column sums added to what the point before left. -/
theorem csumAt_pos (c : Dev nD) (t : Fin cfg1.N) (h : t.val ≠ 0) :
    csumAt V c t.val t.isLt = k1_pay4 (iblk1 V c 0 t) (csumAt V c (t.val - 1) (Nat.lt_of_le_of_lt (Nat.sub_le _ _) t.isLt)) := by
  obtain ⟨n, hn⟩ := t
  cases n with
  | zero => exact absurd rfl h
  | succ n => rfl

/-- Row r of the second scratch lies in the slice point r / 400 stores, at row r % 400 of that point's payload. -/
def h2At (c : Dev nD) : Vec F S10000x64 .f32 := fun j =>
  k1_pay1 (iblk1 V c 0 ⟨(j 0).val / 400, blk_lt j⟩) (iblk1 V c 1 ⟨(j 0).val / 400, blk_lt j⟩) (iblk1 V c 2 ⟨(j 0).val / 400, blk_lt j⟩)
    (ValueIdx.ix2 (⟨(j 0).val % 400, Nat.mod_lt _ (by decide)⟩ : Fin 400) (⟨(j 1).val, ValueIdx.idx2_lt1 j⟩ : Fin 64))

/-- The same with the point and the row within its slice named. -/
theorem h2At_apply (c : Dev nD) (j : S10000x64.Idx) (t : Fin cfg1.N) (ht : (j 0).val / 400 = t.val) (x : Fin 400)
    (hx : x.val = (j 0).val % 400) :
    h2At V c j = k1_pay1 (iblk1 V c 0 t) (iblk1 V c 1 t) (iblk1 V c 2 t) (ValueIdx.ix2 x (⟨(j 1).val, ValueIdx.idx2_lt1 j⟩ : Fin 64)) := by
  obtain rfl : (⟨(j 0).val / 400, blk_lt j⟩ : Fin cfg1.N) = t := Fin.ext ht
  obtain rfl : (⟨(j 0).val % 400, Nat.mod_lt _ (by decide)⟩ : Fin 400) = x := Fin.ext hx.symm
  rfl

/-- The rows of the first scratch written through point n (rows below 400·(n+1)) hold what their points stored. -/
def rowsOK (c : Dev nD) (n : ℕ) (g : Vec F S10000x64 .f32) : Prop :=
  ∀ j : S10000x64.Idx, (j 0).val < 400 * (n + 1) → g j = h2At V c j

theorem upd9_of_mem (i : grid1.Coords) (xs : Vec F S10000x64 .f32) (p : Vec F S400x64 .f32) (j : S10000x64.Idx)
    (h : 400 * (i 0).val ≤ (j 0).val ∧ (j 0).val < 400 * (i 0).val + 400) :
    upd9 i xs p j = p (ValueIdx.ix2 (⟨(j 0).val - 400 * (i 0).val, by omega⟩ : Fin 400) (⟨(j 1).val, ValueIdx.idx2_lt1 j⟩ : Fin 64)) :=
  dif_pos h

theorem upd9_of_not_mem (i : grid1.Coords) (xs : Vec F S10000x64 .f32) (p : Vec F S400x64 .f32) (j : S10000x64.Idx)
    (h : ¬(400 * (i 0).val ≤ (j 0).val ∧ (j 0).val < 400 * (i 0).val + 400)) : upd9 i xs p j = xs j :=
  dif_neg h

/-- One more point: if the rows below 400·t held what their points stored, then after point t's slice store so do the rows
    below 400·(t+1) — the new slice by the store, the earlier rows because the store misses them. -/
theorem rowsOK_step (c : Dev nD) (t : Fin cfg1.N) (g : Vec F S10000x64 .f32)
    (hg : ∀ j : S10000x64.Idx, (j 0).val < 400 * t.val → g j = h2At V c j) :
    rowsOK V c t.val (upd9 (grid1.coords t) g (k1_pay1 (iblk1 V c 0 t) (iblk1 V c 1 t) (iblk1 V c 2 t))) := by
  intro j hj
  have hi := coords_val t
  by_cases h : 400 * ((grid1.coords t) 0).val ≤ (j 0).val ∧ (j 0).val < 400 * ((grid1.coords t) 0).val + 400
  · rw [upd9_of_mem _ _ _ _ h]
    exact (h2At_apply V c j t (by omega) _ (by show (j 0).val - 400 * ((grid1.coords t) 0).val = (j 0).val % 400; omega)).symm
  · rw [upd9_of_not_mem _ _ _ _ h]
    exact hg j (by omega)

/-- What the body leaves in window 7's staging buffer at the last point. -/
def out1_7 (c : Dev nD) : Vec F S1x10 .f32 :=
  k1_pay5 (csumAt V c 24 tL.isLt) (h2At V c) (iblk1 V c 3 tL) (iblk1 V c 4 tL) (iblk1 V c 5 tL) (iblk1 V c 6 tL)

theorem out1_7_eq (c : Dev nD) : out1_7 V c = k1_pay5 (csumAt V c 24 tL.isLt) (h2At V c) (iblk1 V c 3 tL) (iblk1 V c 4 tL) (iblk1 V c 5 tL) (iblk1 V c 6 tL) := rfl

/-- At the last point the body's stored value is out1_7: all 25 slices of the first scratch are then written (the 24 earlier
    ones by hypothesis, the last by this point's store), so the whole-buffer load reads h2At; the second scratch holds
    the sums through the last point. -/
theorem out1_7_last (c : Dev nD) (t : Fin cfg1.N) (h : t.val = 24) (g : Vec F S10000x64 .f32)
    (hg : ∀ j : S10000x64.Idx, (j 0).val < 400 * t.val → g j = h2At V c j) :
    k1_pay5 (k1_pay4 (iblk1 V c 0 t) (csumAt V c (t.val - 1) (Nat.lt_of_le_of_lt (Nat.sub_le _ _) t.isLt)))
        (upd9 (grid1.coords t) g (k1_pay1 (iblk1 V c 0 t) (iblk1 V c 1 t) (iblk1 V c 2 t)))
        (iblk1 V c 3 t) (iblk1 V c 4 t) (iblk1 V c 5 t) (iblk1 V c 6 t) = out1_7 V c := by
  have e9 : upd9 (grid1.coords t) g (k1_pay1 (iblk1 V c 0 t) (iblk1 V c 1 t) (iblk1 V c 2 t)) = h2At V c :=
    funext fun j => rowsOK_step V c t g hg j (by have := ValueIdx.idx2_lt0 j; omega)
  rw [e9, ← csumAt_pos V c t (by omega)]
  obtain rfl : t = tL := Fin.ext h
  rfl

/-! ## The invariant -/

/-- The core's scoped buffers that are neither staging buffers of this call nor its scratch, each at some contents. -/
def rest9 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_scratch0), ((c : Thread nD τ).loc cc0_scratch0) ↦{fullShare} f))

/-- The class invariant with this kernel's two scratch buffers split off as whole memrefs at some contents. -/
theorem PhiA1_split (c : Dev nD) : (Pipeline.ΦA spec1 c : sProp 𝕄) ⊢
    iprop(rest9 (F := F) c ∗ (∃ d, owns (c : Thread nD τ) (Memref.whole cc1_scratch0) fullShare d)
      ∗ (∃ d, owns (c : Thread nD τ) (Memref.whole cc1_scratch1) fullShare d) ∗ (∃ r, prngReg c r)) := by
  unfold Pipeline.ΦA rest9; rw [scopedRest1_eq]; simp only [owns_whole]
  iintro ⟨⟨H1, H2, H3, H4, H5, H6, H7, H8, H9, HS0, HS1⟩, Hg⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  iexact Hg

/-- And put back. -/
theorem PhiA1_join (c : Dev nD) :
    iprop(rest9 (F := F) c ∗ (∃ d, owns (c : Thread nD τ) (Memref.whole cc1_scratch0) fullShare d)
      ∗ (∃ d, owns (c : Thread nD τ) (Memref.whole cc1_scratch1) fullShare d) ∗ (∃ r, prngReg c r)) ⊢ (Pipeline.ΦA spec1 c : sProp 𝕄) := by
  unfold Pipeline.ΦA rest9; rw [scopedRest1_eq]; simp only [owns_whole]
  iintro ⟨⟨H1, H2, H3, H4, H5, H6, H7, H8, H9⟩, HS0, HS1, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iexact Hg

/-- The region invariant before position n. Before the first point the class's (every scratch at anything); afterwards the
    other scoped buffers at anything, the second scratch at the column sums through the point before, the first scratch
    at SOME contents whose rows written so far hold what their points stored, and the generator register at some state. -/
def PhiS (c : Dev nD) : (n : ℕ) → n ≤ cfg1.N → sProp 𝕄
  | 0, _ => Pipeline.ΦA spec1 c
  | n + 1, hn => iprop(rest9 (F := F) c
      ∗ (∃ g, ⌜rowsOK V c n g⌝ ∗ owns (c : Thread nD τ) (Memref.whole cc1_scratch0) fullShare g)
      ∗ owns (c : Thread nD τ) (Memref.whole cc1_scratch1) fullShare (csumAt V c n hn)
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest9 (F := F) c
      ∗ (∃ g, ⌜rowsOK V c n g⌝ ∗ owns (c : Thread nD τ) (Memref.whole cc1_scratch0) fullShare g)
      ∗ owns (c : Thread nD τ) (Memref.whole cc1_scratch1) fullShare (csumAt V c n hn)
      ∗ (∃ r, prngReg c r)) := rfl

theorem PhiS_pos (c : Dev nD) (n : ℕ) (h : n ≤ cfg1.N) (hz : n ≠ 0) :
    PhiS V c n h = iprop(rest9 (F := F) c
      ∗ (∃ g, ⌜rowsOK V c (n - 1) g⌝ ∗ owns (c : Thread nD τ) (Memref.whole cc1_scratch0) fullShare g)
      ∗ owns (c : Thread nD τ) (Memref.whole cc1_scratch1) fullShare (csumAt V c (n - 1) (by omega))
      ∗ (∃ r, prngReg c r)) := by
  cases n with
  | zero => exact absurd rfl hz
  | succ n => rfl

/-! ## The pipeline's proof data -/

/-- The proof data of pipeline 1 on core c: the arrays as the region finds them (V); after the body each input's buffer
    at its block, the output's at out1_7 (it is idle at every point but the last, where this is what the body stores);
    the invariant PhiS; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7' (c : Dev nD) (t : Fin cfg1.N) : (dat1 V c).after 7 t = out1_7 V c := by dsimp only [dat1]
theorem after1_7 (c : Dev nD) : (dat1 V c).after 7 tL = out1_7 V c := after1_7' V c tL

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; the closed forms say which case the point is in; the
    invariant hands the body the two scratch buffers (at anything at the first point) and takes them back with one more
    slice of the first written and the second's sums advanced; the output's buffer is handed back untouched except at
    the last point, where it holds out1_7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  have hN : t.val < 25 := lt_of_lt_of_eq t.isLt N1
  by_cases h0 : t.val = 0
  · have hc0 : cond1_0 (grid1.coords t) := (hcond1_0 t).mpr h0
    have hc1 : ¬cond1_1 (grid1.coords t) := fun h => by have := (hcond1_1 t).mp h; omega
    have hc2 : ¬cond1_2 (grid1.coords t) := fun h => by have := (hcond1_2 t).mp h; omega
    rw [Dat.leavesExact_idle (dat1 V c) 7 t (idleAt1_7 t hc2) (noFlush1_7 t hc2)]
    rw [PhiS_castSucc V c t, PhiS_zero V c _ _ h0, csumAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS := PhiA1_split c $$ HΦ
    icases HS with ⟨HR, ⟨%g9, HS0⟩, ⟨%g10, HS1⟩, Hg⟩
    iapply (run_A c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) ((dat1 V c).before 7 t d7) g9 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HR HS0 HS1 Hg]
    · isplitl [HR]; · iexact HR
      isplitl [HS0]
      · iexists _; isplitr
        · ipureintro; exact rowsOK_step V c t g9 (fun j hj => by omega)
        iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h2 : t.val = 24
    · have hc0 : ¬cond1_0 (grid1.coords t) := fun h => h0 ((hcond1_0 t).mp h)
      have hc1 : cond1_1 (grid1.coords t) := (hcond1_1 t).mpr (by omega)
      have hc2 : cond1_2 (grid1.coords t) := (hcond1_2 t).mpr h2
      rw [show (dat1 V c).leavesExact 7 t = owns (c : Thread nD τ) (st1_7 t) fullShare ((dat1 V c).after 7 t) from by
        unfold Dat.leavesExact; rw [liveAt1_7 t hc2]]
      rw [after1_7', PhiS_castSucc V c t, PhiS_pos V c _ _ h0, csumAt_pos V c t h0]
      iintro ⟨⟨HR, ⟨%g9, %hg9, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      rw [← out1_7_last V c t h2 g9 (fun j hj => hg9 j (by omega))]
      iapply (run_C c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) g9 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HR HS0 HS1 Hg]
      · isplitl [HR]; · iexact HR
        isplitl [HS0]
        · iexists _; isplitr
          · ipureintro; exact rowsOK_step V c t g9 (fun j hj => hg9 j (by omega))
          iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond1_0 (grid1.coords t) := fun h => h0 ((hcond1_0 t).mp h)
      have hc1 : cond1_1 (grid1.coords t) := (hcond1_1 t).mpr (by omega)
      have hc2 : ¬cond1_2 (grid1.coords t) := fun h => h2 ((hcond1_2 t).mp h)
      rw [Dat.leavesExact_idle (dat1 V c) 7 t (idleAt1_7 t hc2) (noFlush1_7 t hc2)]
      rw [PhiS_castSucc V c t, PhiS_pos V c _ _ h0, csumAt_pos V c t h0]
      iintro ⟨⟨HR, ⟨%g9, %hg9, HS0⟩, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid1.coords t) _ _ _ _ _ _ _ _ _ _ _ _ _ _ _ _ _ _ _ _ hc0 hc1 hc2 (iblk1 V c 0 t) (iblk1 V c 1 t) (iblk1 V c 2 t) (iblk1 V c 3 t) (iblk1 V c 4 t) (iblk1 V c 5 t) (iblk1 V c 6 t) ((dat1 V c).before 7 t d7) g9 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HR HS0 HS1 Hg]
      · isplitl [HR]; · iexact HR
        isplitl [HS0]
        · iexists _; isplitr
          · ipureintro; exact rowsOK_step V c t g9 (fun j hj => hg9 j (by omega))
          iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the scratch buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, ⟨%g, -, HS0⟩, HS1, Hg⟩
  iapply (PhiA1_join (F := F) c)
  isplitl [HR]; · iexact HR
  isplitl [HS0]; · iexists _; iexact HS0
  isplitl [HS1]; · iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N1; omega)

end Region

end Cert.Kernel.PassB

end
-- ==== Proof.KRun.lean ====
/-
  The run of the two-pass program as a sequence of segments: the host reshapes, then pass A, then pass B.

  Between two segments a core holds every unscoped buffer at known contents: the launch memory, then the reshaped
  bias rows, then pass A's result array at what its write-backs leave, then pass B's.  Each pass enters with its
  windows' arrays split out of those buffers and puts them back at its exit; the generator register goes into
  the pass's invariant and comes back; nothing is ever owed.  What is assumed of each pass (its half: proof data
  whose arrays are the entry contents, full shares, nothing owed, the body obligation, and the invariant's two
  ends against the class invariant) is a parameter here; the conclusion names every unscoped buffer after the run.
-/
import proofs.«109796_g44951127720457_cont_8to1_c_798_21_alg».proof.Proof.Gen.Kernel.Launch
import proofs.«109796_g44951127720457_cont_8to1_c_798_21_alg».proof.Proof.Gen.Kernel.Skeleton
import proofs.«109796_g44951127720457_cont_8to1_c_798_21_alg».proof.Proof.Gen.Kernel.Points
import proofs.«109796_g44951127720457_cont_8to1_c_798_21_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The TensorCore's buffer contents on each core, read at its references. -/
abbrev Contents (F : FTy → Type) : Type := (c : Dev nD) → (b : Ref sig .tc) → Buf (Elt F) ((c : Thread nD τ).loc b)

/-- What pass A's half supplies at the entry contents `V`. -/
structure HalfA (V : Contents F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- What pass B's half supplies at the entry contents `V`. -/
structure HalfB (V : Contents F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

variable (m : (ℓ : Loc nD τ sig) → Buf (Elt F) ℓ)

/-! ## The buffer contents at each boundary -/

/-- At launch. -/
abbrev W0 : Dev nD → Valuation τ sig (Elt F) := fun c b => m ((c : Dev nD), b)
/-- After the host reshapes (pass A's entry). -/
abbrev W1 : Dev nD → Valuation τ sig (Elt F) := fun c => StableHlo.after hostOps0 (W0 m c)
abbrev V1 : Contents F := fun c b => W1 m c b

variable (HA : HalfA (V1 m))

/-- At pass A's exit: its arrays at what the pipeline leaves, every other buffer as entered. -/
def W2 (c : Dev nD) : Valuation τ sig (Elt F) :=
  Pipeline.withArrays spec0 c (W1 m c) fun w => (HA.dat c).arrAt w cfg0.N
theorem W2_arr (c : Dev nD) (w : Fin cfg0.W) :
    W2 m HA c (Proc.devRef .tc (Pipeline.arrRef spec0 w)) = (HA.dat c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m HA c (Proc.devRef .tc b) = W1 m c (Proc.devRef .tc b) := by
  unfold W2; exact Pipeline.withArrays_of_ne spec0 c _ _ b hb
abbrev V2 : Contents F := fun c b => W2 m HA c b
theorem hF0 (c : Dev nD) (w : Fin cfg0.W) : (HA.dat c).arrAt w cfg0.N = V2 m HA c (Pipeline.arrRef spec0 w) :=
  (W2_arr m HA c w).symm
theorem hrest0 (c : Dev nD) : ∀ b, b ∉ Finset.univ.image (Pipeline.arrRef spec0) → V2 m HA c b = V1 m c b :=
  fun b hb => W2_of_ne m HA c b fun w e => hb (Finset.mem_image.mpr ⟨w, Finset.mem_univ _, e⟩)

variable (HB : HalfB (V2 m HA))

/-- At pass B's exit. -/
def W3 (c : Dev nD) : Valuation τ sig (Elt F) :=
  Pipeline.withArrays spec1 c (W2 m HA c) fun w => (HB.dat c).arrAt w cfg1.N
theorem W3_arr (c : Dev nD) (w : Fin cfg1.W) :
    W3 m HA HB c (Proc.devRef .tc (Pipeline.arrRef spec1 w)) = (HB.dat c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m HA HB c (Proc.devRef .tc b) = W2 m HA c (Proc.devRef .tc b) := by
  unfold W3; exact Pipeline.withArrays_of_ne spec1 c _ _ b hb
abbrev V3 : Contents F := fun c b => W3 m HA HB c b
theorem hF1 (c : Dev nD) (w : Fin cfg1.W) : (HB.dat c).arrAt w cfg1.N = V3 m HA HB c (Pipeline.arrRef spec1 w) :=
  (W3_arr m HA HB c w).symm
theorem hrest1 (c : Dev nD) : ∀ b, b ∉ Finset.univ.image (Pipeline.arrRef spec1) → V3 m HA HB c b = V2 m HA c b :=
  fun b hb => W3_of_ne m HA HB c b fun w e => hb (Finset.mem_image.mpr ⟨w, Finset.mem_univ _, e⟩)

/-! ## The proof data family and the thread state -/

abbrev adm : (p : Fin 2) → (pcfgs (F := F) p).Adm := fun p => (cfgs p).toPCfg_adm
/-- Both passes' proof data, each at its entry contents. -/
def pdats : (p : Fin 2) → (c : Dev nD) → Dat τ (Elt F) Unit ℕ (UR sig nD τ) ℕ (Pipeline.pin (pcfgs (F := F)) adm p) c
  | ⟨0, _⟩ => fun c => HA.dat c
  | ⟨1, _⟩ => fun c => HB.dat c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

abbrev Tₙ (c : Dev nD) : sProp 𝕄 := iprop(StableHlo.held (c : Thread nD τ) (Pipeline.ucRefs τ sig) (W3 m HA HB c) ∗ ∃ r, prngReg c r)

/-- What pass A's entry hands its invariant — the generator register and the scoped buffers no window stages — is the class invariant. -/
theorem phiA_of_entry0 (c : Dev nD) :
    (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
  unfold Pipeline.ΦA
  iintro ⟨Hp, -, Hr⟩
  isplitl [Hr]; · iexact Hr
  iexact Hp
/-- and the class invariant gives them back at the exit (the kernel has no semaphore of its own). -/
theorem phiA_to_exit0 (c : Dev nD) :
    (Pipeline.ΦA spec0 c : sProp 𝕄) ⊢ iprop((∃ r, prngReg c r) ∗ BI.emp ∗ Pipeline.scopedRest (Pipeline.pin (pcfgs (F := F)) adm 0).spec c) := by
  unfold Pipeline.ΦA
  iintro ⟨Hr, Hp⟩
  isplitl [Hp]; · iexact Hp
  isplitr; · iempintro
  iexact Hr

/-- What pass B's entry hands its invariant — the generator register and the scoped buffers no window stages — is the class invariant. -/
theorem phiA_of_entry1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
  unfold Pipeline.ΦA
  iintro ⟨Hp, -, Hr⟩
  isplitl [Hr]; · iexact Hr
  iexact Hp
/-- and the class invariant gives them back at the exit (the kernel has no semaphore of its own). -/
theorem phiA_to_exit1 (c : Dev nD) :
    (Pipeline.ΦA spec1 c : sProp 𝕄) ⊢ iprop((∃ r, prngReg c r) ∗ BI.emp ∗ Pipeline.scopedRest (Pipeline.pin (pcfgs (F := F)) adm 1).spec c) := by
  unfold Pipeline.ΦA
  iintro ⟨Hr, Hp⟩
  isplitl [Hp]; · iexact Hp
  isplitr; · iempintro
  iexact Hr

/-! ## The passes as segments -/

set_option backward.isDefEq.respectTransparency.types false in
/-- Pass A over the thread state: entered from every unscoped buffer at `W1`, left at `W2`. -/
def regA : Pipeline.RegionSeg (pcfgs (F := F)) adm (pdats m HA HB) () defs₀ 𝒱₀ L lv 0 where
  win := launch0.win.to₀
  block_pos := launch0.block_pos
  stage_whole := launch0.stage_whole
  K := PEmpty
  osem k := k.elim
  ho := Pipeline.OwnSemFacts.none _
  hbody c := (HA.hbody c).loose
  hwaits := Pipeline.hwaits_of_owed_zero _ _ _ _ L lv 0 fun c t => HA.howed c t
  pre c := iprop(StableHlo.held (c : Thread nD τ) (Pipeline.ucRefs τ sig) (W1 m c) ∗ R c)
  post c := iprop(StableHlo.held (c : Thread nD τ) (Pipeline.ucRefs τ sig) (W2 m HA c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m HA HB) launch0.win launch0.arr_whole c
      ((pdats m HA HB 0 c).share_full (HA.hq c)) (V1 m c) (HA.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [show (pdats m HA HB 0 c).recorded 0 = Set.univ from HA.hrec c 0]; trivial)
      rw [show (pdats m HA HB 0 c).owed 0 = 0 from HA.howed c 0]
      iexact HO
    isplitl [Hp]; · iexact Hp
    iexact Hrest
  hin c := (phiA_of_entry0 c).trans (HA.hin c)
  hout c := by
    rw [Pipeline.ownSems0_none]
    exact (HA.hout c).trans (phiA_to_exit0 c)
  hexit c := by
    have hjoin := Pipeline.unscopedBufs_of_arrays (p := 0) (pcfgs (F := F)) adm (Ix := Unit) (Name := ℕ) (U := UR sig nD τ) (Lvl := ℕ)
      launch0.win launch0.arr_whole c (pdats m HA HB) ((pdats m HA HB 0 c).share_full (HA.hq c))
      (V1 m c) (V2 m HA c) ((pdats m HA HB 0 c).arrAt · cfg0.N) (hF0 m HA c) (hrest0 m HA c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m HA HB 0 c).owed (Fin.last _) = 0 from HA.howed c _]
    iexact HO

set_option backward.isDefEq.respectTransparency.types false in
/-- Pass B over the thread state: entered from every unscoped buffer at `W2`, left at `W3`. -/
def regB : Pipeline.RegionSeg (pcfgs (F := F)) adm (pdats m HA HB) () defs₀ 𝒱₀ L lv 1 where
  win := launch1.win.to₀
  block_pos := launch1.block_pos
  stage_whole := launch1.stage_whole
  K := PEmpty
  osem k := k.elim
  ho := Pipeline.OwnSemFacts.none _
  hbody c := (HB.hbody c).loose
  hwaits := Pipeline.hwaits_of_owed_zero _ _ _ _ L lv 1 fun c t => HB.howed c t
  pre c := iprop(StableHlo.held (c : Thread nD τ) (Pipeline.ucRefs τ sig) (W2 m HA c) ∗ R c)
  post c := iprop(Tₙ m HA HB c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m HA c)
  hentry c := by
    rw [Pipeline.ownSems0_none]
    have hsplit := Pipeline.arrays_of_unscopedBufs (p := 1) (pcfgs (F := F)) adm (pdats m HA HB) launch1.win launch1.arr_whole c
      ((pdats m HA HB 1 c).share_full (HB.hq c)) (V2 m HA c) (HB.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (by rw [show (pdats m HA HB 1 c).recorded 0 = Set.univ from HB.hrec c 0]; trivial)
      rw [show (pdats m HA HB 1 c).owed 0 = 0 from HB.howed c 0]
      iexact HO
    isplitl [Hp]; · iexact Hp
    iexact Hrest
  hin c := (phiA_of_entry1 c).trans (HB.hin c)
  hout c := by
    rw [Pipeline.ownSems0_none]
    exact (HB.hout c).trans (phiA_to_exit1 c)
  hexit c := by
    have hjoin := Pipeline.unscopedBufs_of_arrays (p := 1) (pcfgs (F := F)) adm (Ix := Unit) (Name := ℕ) (U := UR sig nD τ) (Lvl := ℕ)
      launch1.win launch1.arr_whole c (pdats m HA HB) ((pdats m HA HB 1 c).share_full (HB.hq c))
      (V2 m HA c) (V3 m HA HB c) ((pdats m HA HB 1 c).arrAt · cfg1.N) (hF1 m HA HB c) (hrest1 m HA HB c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m HA HB 1 c).owed (Fin.last _) = 0 from HB.howed c _]
    iexact HO

/-! ## The program as segments, and the launch -/

abbrev segs : List (Pipeline.Seg (pcfgs (F := F)) adm (pdats m HA HB) () defs₀ 𝒱₀ L lv) :=
  [ .host (hseg0 m), .region (regA m HA HB), .region (regB m HA HB) ]

theorem main_run (c : Dev nD) : main (F := F) c = Pipeline.Seg.run (segs m HA HB) := (main_chain c).trans (by chain_rfl)

set_option backward.isDefEq.respectTransparency.types false in
/-- THE RUN. From any memory with zero counters every weakly fair execution of the program terminates, nothing
    faulting, and every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m HA HB c b) :=
  Pipeline.θ_run_regions_kit (pcfgs (F := F)) adm (pdats m HA HB) () cellOf_inj emb₁ defs₀ 𝒱₀ L lv m ρ main (segs m HA HB)
    (fun c Q => by rw [main_run m HA HB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m HA HB)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m HA HB c b)
    (hfin := fun c s' => by
      iintro ⟨⟨Hh, -⟩, HSI⟩
      unfold StableHlo.held
      imodintro
      iapply (pointsTo_read_all (Pipeline.ucRefs τ sig) (fun b => (((c : Thread nD τ)).1, b)) (W3 m HA HB c) s')
      isplitl [Hh] <;> iassumption)
    (hQ := fun s h c => h c)

/-! ## Arrays the passes only read, and the arguments at the end -/

/-- An input window's array leaves pass A as it entered. -/
theorem W2_in (c : Dev nD) (w : Fin cfg0.W) (hw : (cfg0.win w).isOut = false) :
    W2 m HA c (Proc.devRef .tc (Pipeline.arrRef spec0 w)) = W1 m c (Proc.devRef .tc (Pipeline.arrRef spec0 w)) :=
  (W2_arr m HA c w).trans (((HA.dat c).arrAt_in w hw _).trans (HA.hA c w))
/-- An input window's array leaves pass B as it entered. -/
theorem W3_in (c : Dev nD) (w : Fin cfg1.W) (hw : (cfg1.win w).isOut = false) :
    W3 m HA HB c (Proc.devRef .tc (Pipeline.arrRef spec1 w)) = W2 m HA c (Proc.devRef .tc (Pipeline.arrRef spec1 w)) :=
  (W3_arr m HA HB c w).trans (((HB.dat c).arrAt_in w hw _).trans (HB.hA c w))
/-- A buffer the host reshapes do not write holds its launch contents when pass A is entered. -/
theorem W1_of (c : Dev nD) (r : Ref sig .tc) (h : r ∉ (hostOps0_W : List (Ref sig .tc))) :
    W1 m c (Proc.devRef .tc r) = m ((c : Thread nD τ).loc r) :=
  (Gen.V1_of m c r h).trans rfl
theorem W3_main_arg0 (c : Dev nD) : W3 m HA HB c (Proc.devRef .tc main_arg0) = m ((c : Thread nD τ).loc main_arg0) :=
  (W3_of_ne m HA HB c main_arg0 (by decide)).trans ((W2_in m HA c 0 rfl).trans (W1_of m c main_arg0 (by decide)))
theorem W3_main_arg1 (c : Dev nD) : W3 m HA HB c (Proc.devRef .tc main_arg1) = m ((c : Thread nD τ).loc main_arg1) :=
  (W3_in m HA HB c 0 rfl).trans ((W2_in m HA c 1 rfl).trans (W1_of m c main_arg1 (by decide)))
theorem W3_main_arg2 (c : Dev nD) : W3 m HA HB c (Proc.devRef .tc main_arg2) = m ((c : Thread nD τ).loc main_arg2) :=
  (W3_of_ne m HA HB c main_arg2 (by decide)).trans ((W2_in m HA c 2 rfl).trans (W1_of m c main_arg2 (by decide)))
theorem W3_main_arg3 (c : Dev nD) : W3 m HA HB c (Proc.devRef .tc main_arg3) = m ((c : Thread nD τ).loc main_arg3) :=
  (W3_of_ne m HA HB c main_arg3 (by decide)).trans ((W2_of_ne m HA c main_arg3 (by decide)).trans (W1_of m c main_arg3 (by decide)))
theorem W3_main_arg4 (c : Dev nD) : W3 m HA HB c (Proc.devRef .tc main_arg4) = m ((c : Thread nD τ).loc main_arg4) :=
  (W3_of_ne m HA HB c main_arg4 (by decide)).trans ((W2_in m HA c 4 rfl).trans (W1_of m c main_arg4 (by decide)))
theorem W3_main_arg5 (c : Dev nD) : W3 m HA HB c (Proc.devRef .tc main_arg5) = m ((c : Thread nD τ).loc main_arg5) :=
  (W3_of_ne m HA HB c main_arg5 (by decide)).trans ((W2_of_ne m HA c main_arg5 (by decide)).trans (W1_of m c main_arg5 (by decide)))
theorem W3_main_arg6 (c : Dev nD) : W3 m HA HB c (Proc.devRef .tc main_arg6) = m ((c : Thread nD τ).loc main_arg6) :=
  (W3_in m HA HB c 3 rfl).trans ((W2_of_ne m HA c main_arg6 (by decide)).trans (W1_of m c main_arg6 (by decide)))
theorem W3_main_arg7 (c : Dev nD) : W3 m HA HB c (Proc.devRef .tc main_arg7) = m ((c : Thread nD τ).loc main_arg7) :=
  (W3_of_ne m HA HB c main_arg7 (by decide)).trans ((W2_of_ne m HA c main_arg7 (by decide)).trans (W1_of m c main_arg7 (by decide)))
theorem W3_main_arg8 (c : Dev nD) : W3 m HA HB c (Proc.devRef .tc main_arg8) = m ((c : Thread nD τ).loc main_arg8) :=
  (W3_in m HA HB c 5 rfl).trans ((W2_of_ne m HA c main_arg8 (by decide)).trans (W1_of m c main_arg8 (by decide)))
theorem W3_main_arg9 (c : Dev nD) : W3 m HA HB c (Proc.devRef .tc main_arg9) = m ((c : Thread nD τ).loc main_arg9) :=
  (W3_of_ne m HA HB c main_arg9 (by decide)).trans ((W2_of_ne m HA c main_arg9 (by decide)).trans (W1_of m c main_arg9 (by decide)))

include HA HB in
/-- THE FRAME: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m HA HB c),
      (h c _ (mem_uc main_arg1 (by decide))).trans (W3_main_arg1 m HA HB c),
      (h c _ (mem_uc main_arg2 (by decide))).trans (W3_main_arg2 m HA HB c),
      (h c _ (mem_uc main_arg3 (by decide))).trans (W3_main_arg3 m HA HB c),
      (h c _ (mem_uc main_arg4 (by decide))).trans (W3_main_arg4 m HA HB c),
      (h c _ (mem_uc main_arg5 (by decide))).trans (W3_main_arg5 m HA HB c),
      (h c _ (mem_uc main_arg6 (by decide))).trans (W3_main_arg6 m HA HB c),
      (h c _ (mem_uc main_arg7 (by decide))).trans (W3_main_arg7 m HA HB c),
      (h c _ (mem_uc main_arg8 (by decide))).trans (W3_main_arg8 m HA HB c),
      (h c _ (mem_uc main_arg9 (by decide))).trans (W3_main_arg9 m HA HB c)⟩)
    (run_all m HA HB ρ)

end Cert.Kernel.Run

end
-- ==== Proof.KHalves.lean ====
/-
  The two passes' halves for the word-level program: the same proof data, obligations and invariant ends as for the
  idealized one, at the machine's float instance.
-/
import proofs.«109796_g44951127720457_cont_8to1_c_798_21_alg».proof.Proof.KPassA
import proofs.«109796_g44951127720457_cont_8to1_c_798_21_alg».proof.Proof.KPassB
import proofs.«109796_g44951127720457_cont_8to1_c_798_21_alg».proof.Proof.KRun

noncomputable section

namespace Cert.Kernel.Halves

open Idealize.ShloMosaic Idealize.ShloMosaic.TcCoe Idealize.SL.Sem
open Cert.Kernel Cert.Kernel.Gen

variable {F : FTy → Type} [FloatOps F]

def halfA (V : Run.Contents F) : Run.HalfA V where
  dat := PassA.dat0 V
  hA := PassA.A_eq0 V
  hq := fun _ _ => rfl
  howed := fun _ _ => rfl
  hrec := fun _ _ => rfl
  hbody := PassA.body_obligation0 V
  hin := PassA.hin0 V
  hout := PassA.hout0 V

def halfB (V : Run.Contents F) : Run.HalfB V where
  dat := PassB.dat1 V
  hA := PassB.A_eq1 V
  hq := fun _ _ => rfl
  howed := fun _ _ => rfl
  hrec := fun _ _ => rfl
  hbody := PassB.body_obligation1 V
  hin := PassB.hin1 V
  hout := PassB.hout1 V

end Cert.Kernel.Halves

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.ValConst.lean ====
/-
  The float constants of the two programs, as the extended reals they denote at the exact-real instance: the word of the
  float one (the all-ones row of the column sum), the word of the float 10000 (the reference's divisor), and the kernel's
  named reciprocal, which denotes the rational 1/10000.
-/
import proofs.«109796_g44951127720457_cont_8to1_c_798_21_alg».proof.Proof.Gen.KernelIdeal.Skeleton
import Idealize.ShloMosaic.PureOps.IdealRules

noncomputable section

namespace Cert.Bridge

open Idealize.ShloMosaic

/-- The word `0x3F800000` denotes the real one. -/
theorem ofBits_one : Ideal.ofBits .f32 0x3F800000#32 = 1 := by
  simp [Ideal.ofBits, Ideal.ieee, -EReal.coe_mul]; norm_num

/-- The word `0x461C4000` denotes the real 10000. -/
theorem ofBits_10000 : Ideal.ofBits .f32 0x461C4000#32 = ((10000 : ℝ) : EReal) := by
  simp [Ideal.ofBits, Ideal.ieee, -EReal.coe_mul]; norm_num

/-- The kernel's named reciprocal denotes the rational 1/10000, by the certificate's table. -/
theorem inv_n : Named.named (F := Ideal) Cert.KernelIdeal.κ "inv_10000" (φ := .f32) 0x38D1B717#32
    = ((1 / 10000 : ℝ) : EReal) :=
  IdealRules.named_const.ideal_named_scalar _ _ _ _ rfl

end Cert.Bridge

end
-- ==== Proof.ValPay.lean ====
/-
  The kernel bodies' payload terms read at an index, at the exact-real instance.

  Each payload is a short chain of matrix products into a zero accumulator, a row broadcast, a sum, a maximum against
  zero and identity shape casts; at `(p, c)` a product is the textbook sum over the contracted coordinate, the broadcast
  row is the row's entry at `c`, and the maximum against the zero word is the maximum with `0`. No finiteness is needed
  here: these are identities of extended reals.
-/
import proofs.«109796_g44951127720457_cont_8to1_c_798_21_alg».proof.Proof.KernelTerm
import proofs.«109796_g44951127720457_cont_8to1_c_798_21_alg».proof.Proof.LibPlainDot
import proofs.«109796_g44951127720457_cont_8to1_c_798_21_alg».proof.Proof.ValConst
import Idealize.ShloMosaic.Lib.ValueLayout

noncomputable section

namespace Cert.Bridge

open Idealize.ShloMosaic Idealize.ShloMosaic.ValueIdx Cert.KernelIdeal Cert.KernelIdeal.Gen
open scoped BigOperators

/-- `x · W1` at `(r, c)`. -/
theorem k0_pay1_apply (x : Vec Ideal S10000x128 .f32) (w1 : Vec Ideal S128x64 .f32) (r : Fin 10000) (c : Fin 64) :
    k0_pay1 (F := Ideal) x w1 (ix2 r c) = ∑ k : Fin 128, x (ix2 r k) * w1 (ix2 k c) := by
  unfold k0_pay1
  refine (congrFun (shapeCast_self _ _) _).trans ?_
  exact PlainDot.matmul_zero_apply dot_S10000x128_S128x64_S10000x64_1_0_0_1_n_n_wf none x w1 r c

/-- A block's `relu (A_blk · s + b)` at `(p, k)`: the common middle of the two passes. -/
theorem relu_layer_apply (a : FVec Ideal S400x10000 .f32) (s : FVec Ideal S10000x64 .f32) (b : FVec Ideal S1x64 .f32)
    (p : Fin 400) (k : Fin 64) :
    maximumf (F := Ideal)
        (addf (matmul (φ₁ := .f32) (φ₂ := .f32) dot_S400x10000_S10000x64_S400x64_1_0_0_1_n_n none a s
            (constant S400x64 .f32 0x00000000#32))
          (broadcastTo S400x64 (shapeCast S1x64 b shapeCasts_S1x64_S1x64) broadcasts_S1x64_S400x64))
        (broadcast S400x64 (Scalar.ofBits .f32 0x00000000#32)) (ix2 p k)
      = max ((∑ q : Fin 10000, a (ix2 p q) * s (ix2 q k)) + b (ix2 (0 : Fin 1) k)) 0 := by
  have hm := PlainDot.matmul_zero_apply dot_S400x10000_S10000x64_S400x64_1_0_0_1_n_n_wf none a s p k
  have hb : broadcastTo S400x64 (shapeCast S1x64 b shapeCasts_S1x64_S1x64) broadcasts_S1x64_S400x64 (ix2 p k)
      = b (ix2 (0 : Fin 1) k) :=
    (broadcastTo_1b_ab_apply _ broadcasts_S1x64_S400x64 p k).trans (congrFun (shapeCast_self b _) _)
  have hz : broadcast S400x64 (Scalar.ofBits (F := Ideal) .f32 0x00000000#32) (ix2 p k) = 0 := Ideal.ofBits_zero_f32
  exact congrArg₂ max (congrArg₂ (· + ·) hm hb) hz

/-- Pass A's stored block at `(p, c)`: `relu (A_blk · s1 + b1) · W2`. -/
theorem k0_pay2_apply (a : Vec Ideal S400x10000 .f32) (s : Vec Ideal S10000x64 .f32) (b : Vec Ideal S1x64 .f32)
    (w : Vec Ideal S64x64 .f32) (p : Fin 400) (c : Fin 64) :
    k0_pay2 (F := Ideal) a s b w (ix2 p c)
      = ∑ k : Fin 64, max ((∑ q : Fin 10000, a (ix2 p q) * s (ix2 q k)) + b (ix2 (0 : Fin 1) k)) 0 * w (ix2 k c) := by
  unfold k0_pay2
  refine (PlainDot.matmul_zero_apply dot_S400x64_S64x64_S400x64_1_0_0_1_n_n_wf none _ w p c).trans ?_
  exact Finset.sum_congr rfl fun k _ => congrArg (· * w (ix2 k c)) (relu_layer_apply a s b p k)

/-- Pass B's stored block at `(p, c)`: `relu (A_blk · s2 + b2)`. -/
theorem k1_pay1_apply (a : Vec Ideal S400x10000 .f32) (s : Vec Ideal S10000x64 .f32) (b : Vec Ideal S1x64 .f32)
    (p : Fin 400) (c : Fin 64) :
    k1_pay1 (F := Ideal) a s b (ix2 p c)
      = max ((∑ q : Fin 10000, a (ix2 p q) * s (ix2 q c)) + b (ix2 (0 : Fin 1) c)) 0 := by
  unfold k1_pay1
  refine (congrFun (shapeCast_self _ _) _).trans ?_
  rw [shapeCast_self s]
  exact relu_layer_apply a s b p c

/-- The all-ones row times a block, at column `q`: the block's column sum. -/
theorem k1_pay2_apply (a : Vec Ideal S400x10000 .f32) (u : Fin 1) (q : Fin 10000) :
    k1_pay2 (F := Ideal) a (ix2 u q) = ∑ p : Fin 400, a (ix2 p q) := by
  unfold k1_pay2
  refine (PlainDot.matmul_zero_apply dot_S1x400_S400x10000_S1x10000_1_0_0_1_n_n_wf none _ a u q).trans ?_
  refine Finset.sum_congr rfl fun p _ => ?_
  show Ideal.ofBits .f32 0x3F800000#32 * a (ix2 p q) = a (ix2 p q)
  rw [ofBits_one, one_mul]

/-- The first block's column sum. -/
theorem k1_pay3_apply (a : Vec Ideal S400x10000 .f32) (u : Fin 1) (q : Fin 10000) :
    k1_pay3 (F := Ideal) a (ix2 u q) = ∑ p : Fin 400, a (ix2 p q) := by
  unfold k1_pay3
  exact (congrFun (shapeCast_self _ _) _).trans (k1_pay2_apply a u q)

/-- A later block's column sum added to the running one. -/
theorem k1_pay4_apply (a : Vec Ideal S400x10000 .f32) (v : Vec Ideal S1x10000 .f32) (u : Fin 1) (q : Fin 10000) :
    k1_pay4 (F := Ideal) a v (ix2 u q) = v (ix2 u q) + ∑ p : Fin 400, a (ix2 p q) := by
  unfold k1_pay4
  refine (congrFun (shapeCast_self _ _) _).trans ?_
  exact congrArg (v (ix2 u q) + ·) (k1_pay2_apply a u q)

/-- The last step at `(u, j)`: `(((cs · h2) · (1/N)) · W3 + b3) · Wl + bl`. -/
theorem k1_pay5_apply (cs : Vec Ideal S1x10000 .f32) (h : Vec Ideal S10000x64 .f32) (w3 : Vec Ideal S64x64 .f32)
    (b3 : Vec Ideal S1x64 .f32) (wl : Vec Ideal S64x10 .f32) (bl : Vec Ideal S1x10 .f32) (u : Fin 1) (j : Fin 10) :
    k1_pay5 (F := Ideal) cs h w3 b3 wl bl (ix2 u j)
      = (∑ c : Fin 64,
          ((∑ k' : Fin 64, ((∑ k : Fin 10000, cs (ix2 u k) * h (ix2 k k')) * ((1 / 10000 : ℝ) : EReal)) * w3 (ix2 k' c))
            + b3 (ix2 u c)) * wl (ix2 c j)) + bl (ix2 u j) := by
  unfold k1_pay5
  refine congrArg₂ (· + ·) ?_ (congrFun (shapeCast_self bl _) _)
  refine (PlainDot.matmul_zero_apply dot_S1x64_S64x10_S1x10_1_0_0_1_n_n_wf none _ wl u j).trans ?_
  refine Finset.sum_congr rfl fun c _ => congrArg (· * wl (ix2 c j)) ?_
  refine congrArg₂ (· + ·) ?_ (congrFun (shapeCast_self b3 _) _)
  refine (PlainDot.matmul_zero_apply dot_S1x64_S64x64_S1x64_1_0_0_1_n_n_wf none _ w3 u c).trans ?_
  refine Finset.sum_congr rfl fun k' _ => congrArg (· * w3 (ix2 k' c)) ?_
  refine congrArg₂ (· * ·) ?_ inv_n
  exact PlainDot.matmul_zero_apply dot_S1x10000_S10000x64_S1x64_1_0_0_1_n_n_wf none cs h u k'

end Cert.Bridge

end
-- ==== Proof.ValKernel.lean ====
/-
  The kernel's result term read at an index, at the exact-real instance.

  A row `r` of the adjacency matrix is row `r % 400` of block `r / 400`, so the block-wise stages `s2` and `h2` read
  at `(r, c)` through the whole matrix's row `r`; the column sums accumulated block by block over the 25 blocks of 400
  rows are the column sums over all 10000 rows. These are identities of extended reals: no finiteness is used.
-/
import proofs.«109796_g44951127720457_cont_8to1_c_798_21_alg».proof.Proof.ValPay

noncomputable section

namespace Cert.Bridge

open Idealize.ShloMosaic Idealize.ShloMosaic.ValueIdx Cert.KernelIdeal Cert.KernelIdeal.Gen
open scoped BigOperators

/-- Row `r % 400` of block `r / 400` is row `r` of the matrix. -/
theorem rowBlock_row (adj : Vec Ideal S10000x10000 .f32) (r q : Fin 10000) :
    Term.rowBlock adj (r.val / 400) (ix2 (⟨r.val % 400, Nat.mod_lt _ (by decide)⟩ : Fin 400) q) = adj (ix2 r q) := by
  unfold Term.rowBlock
  refine congrArg adj ?_
  funext a
  match a with
  | ⟨0, _⟩ =>
    refine Fin.ext ?_
    show (400 * (r.val / 400) + r.val % 400) % 10000 = r.val
    have := r.isLt
    omega
  | ⟨1, _⟩ => rfl

/-- A sum over 25 blocks of 400 rows, the row taken modulo 10000, is the sum over the 10000 rows. -/
theorem sum_blocks {M : Type*} [AddCommMonoid M] (f : Fin 10000 → M) :
    ∑ t ∈ Finset.range 25, ∑ p : Fin 400, f ⟨(400 * t + p.val) % 10000, Nat.mod_lt _ (by decide)⟩ = ∑ r : Fin 10000, f r := by
  rw [Finset.sum_range fun t => ∑ p : Fin 400, f ⟨(400 * t + p.val) % 10000, Nat.mod_lt _ (by decide)⟩]
  rw [← Fintype.sum_prod_type' (fun (t : Fin 25) (p : Fin 400) => f ⟨(400 * t.val + p.val) % 10000, Nat.mod_lt _ (by decide)⟩)]
  rw [← Equiv.sum_comp (finProdFinEquiv (m := 25) (n := 400)) f]
  refine Finset.sum_congr rfl fun y _ => congrArg f (Fin.ext ?_)
  show (400 * y.1.val + y.2.val) % 10000 = y.2.val + 400 * y.1.val
  have h1 := y.1.isLt
  have h2 := y.2.isLt
  omega

/-- `s1 = x · W1` at `(r, c)`. -/
theorem s1_apply (x : Vec Ideal S10000x128 .f32) (w1 : Vec Ideal S128x64 .f32) (r : Fin 10000) (c : Fin 64) :
    Term.s1 x w1 (ix2 r c) = ∑ k : Fin 128, x (ix2 r k) * w1 (ix2 k c) :=
  k0_pay1_apply x w1 r c

/-- `s2 = relu (A · s1 + b1) · W2` at `(r, c)`, through the matrix's row `r`. -/
theorem s2_apply (x : Vec Ideal S10000x128 .f32) (adj : Vec Ideal S10000x10000 .f32) (w1 : Vec Ideal S128x64 .f32)
    (b1r : Vec Ideal S1x64 .f32) (w2 : Vec Ideal S64x64 .f32) (r : Fin 10000) (c : Fin 64) :
    Term.s2 x adj w1 b1r w2 (ix2 r c)
      = ∑ k : Fin 64,
          max ((∑ q : Fin 10000, adj (ix2 r q) * Term.s1 x w1 (ix2 q k)) + b1r (ix2 (0 : Fin 1) k)) 0 * w2 (ix2 k c) := by
  refine (k0_pay2_apply (Term.rowBlock adj (r.val / 400)) (Term.s1 x w1) b1r w2
    ⟨r.val % 400, Nat.mod_lt _ (by decide)⟩ c).trans ?_
  refine Finset.sum_congr rfl fun k _ => congrArg (· * w2 (ix2 k c)) ?_
  refine congrArg (fun z => max (z + b1r (ix2 (0 : Fin 1) k)) 0) ?_
  exact Finset.sum_congr rfl fun q _ => congrArg (· * Term.s1 x w1 (ix2 q k)) (rowBlock_row adj r q)

/-- `h2 = relu (A · s2 + b2)` at `(r, c)`, through the matrix's row `r`. -/
theorem h2_apply (adj : Vec Ideal S10000x10000 .f32) (s : Vec Ideal S10000x64 .f32) (b2r : Vec Ideal S1x64 .f32)
    (r : Fin 10000) (c : Fin 64) :
    Term.h2 adj s b2r (ix2 r c)
      = max ((∑ q : Fin 10000, adj (ix2 r q) * s (ix2 q c)) + b2r (ix2 (0 : Fin 1) c)) 0 := by
  refine (k1_pay1_apply (Term.rowBlock adj (r.val / 400)) s b2r ⟨r.val % 400, Nat.mod_lt _ (by decide)⟩ c).trans ?_
  refine congrArg (fun z => max (z + b2r (ix2 (0 : Fin 1) c)) 0) ?_
  exact Finset.sum_congr rfl fun q _ => congrArg (· * s (ix2 q c)) (rowBlock_row adj r q)

/-- The running column sum after block `n`: the sum over the blocks so far of each block's column sum. -/
theorem csum_apply (adj : Vec Ideal S10000x10000 .f32) (n : ℕ) (u : Fin 1) (q : Fin 10000) :
    Term.csum adj n (ix2 u q) = ∑ t ∈ Finset.range (n + 1), ∑ p : Fin 400, Term.rowBlock adj t (ix2 p q) := by
  induction n with
  | zero =>
    rw [Finset.sum_range_one]
    exact k1_pay3_apply (Term.rowBlock adj 0) u q
  | succ n ih =>
    rw [Finset.sum_range_succ _ (n + 1), ← ih]
    exact k1_pay4_apply (Term.rowBlock adj (n + 1)) (Term.csum adj n) u q

/-- After the last block the running column sum is the column sum over all rows. -/
theorem csum_total (adj : Vec Ideal S10000x10000 .f32) (u : Fin 1) (q : Fin 10000) :
    Term.csum adj 24 (ix2 u q) = ∑ r : Fin 10000, adj (ix2 r q) := by
  rw [csum_apply]
  exact sum_blocks fun r => adj (ix2 r q)

/-- The kernel's result at `(u, j)`. -/
theorem out_apply (x : Vec Ideal S10000x128 .f32) (adj : Vec Ideal S10000x10000 .f32) (w1 : Vec Ideal S128x64 .f32)
    (b1r : Vec Ideal S1x64 .f32) (w2 : Vec Ideal S64x64 .f32) (b2r : Vec Ideal S1x64 .f32) (w3 : Vec Ideal S64x64 .f32)
    (b3r : Vec Ideal S1x64 .f32) (wl : Vec Ideal S64x10 .f32) (blr : Vec Ideal S1x10 .f32) (u : Fin 1) (j : Fin 10) :
    Term.out x adj w1 b1r w2 b2r w3 b3r wl blr (ix2 u j)
      = (∑ c : Fin 64,
          ((∑ k' : Fin 64,
              ((∑ k : Fin 10000, (∑ r : Fin 10000, adj (ix2 r k)) * Term.h2 adj (Term.s2 x adj w1 b1r w2) b2r (ix2 k k'))
                * ((1 / 10000 : ℝ) : EReal)) * w3 (ix2 k' c))
            + b3r (ix2 u c)) * wl (ix2 c j)) + blr (ix2 u j) := by
  refine (k1_pay5_apply (Term.csum adj 24) (Term.h2 adj (Term.s2 x adj w1 b1r w2) b2r) w3 b3r wl blr u j).trans ?_
  refine congrArg (· + blr (ix2 u j)) ?_
  refine Finset.sum_congr rfl fun c _ => congrArg (· * wl (ix2 c j)) ?_
  refine congrArg (· + b3r (ix2 u c)) ?_
  refine Finset.sum_congr rfl fun k' _ => congrArg (· * w3 (ix2 k' c)) ?_
  refine congrArg (· * ((1 / 10000 : ℝ) : EReal)) ?_
  exact Finset.sum_congr rfl fun k _ =>
    congrArg (· * Term.h2 adj (Term.s2 x adj w1 b1r w2) b2r (ix2 k k')) (csum_total adj u k)

end Cert.Bridge

end
-- ==== Proof.ValRef.lean ====
/-
  The reference's stages read at an index, at the exact-real instance.

  Each product of the reference is a plain matrix product, read at `(r, c)` as the sum over the contracted coordinate;
  a bias is broadcast along the rows; `relu` is the maximum with zero; the mean over the rows is the row sum, started at
  zero, divided by the real 10000. These are identities of extended reals: no finiteness is used.
-/
import proofs.«109796_g44951127720457_cont_8to1_c_798_21_alg».proof.Proof.Gen.ReferenceIdeal.Read
import proofs.«109796_g44951127720457_cont_8to1_c_798_21_alg».proof.Proof.LibPlainDot
import proofs.«109796_g44951127720457_cont_8to1_c_798_21_alg».proof.Proof.ValConst

noncomputable section

namespace Cert.Bridge.Ref

open Idealize.ShloMosaic Idealize.ShloMosaic.ValueIdx Cert.ReferenceIdeal Cert.ReferenceIdeal.Gen Cert.ReferenceIdeal.Read
open scoped BigOperators

variable (x : FVec Ideal S10000x128 .f32) (adj : FVec Ideal S10000x10000 .f32) (w1 : FVec Ideal S128x64 .f32)
  (b1 : FVec Ideal S64 .f32) (w2 : FVec Ideal S64x64 .f32) (b2 : FVec Ideal S64 .f32) (w3 : FVec Ideal S64x64 .f32)
  (b3 : FVec Ideal S64 .f32) (wl : FVec Ideal S64x10 .f32) (bl : FVec Ideal S10 .f32)

/-- `x · W1` at `(r, c)`. -/
theorem v0_apply (r : Fin 10000) (c : Fin 64) :
    val_main_v0 (F := Ideal) x w1 (ix2 r c) = ∑ k : Fin 128, x (ix2 r k) * w1 (ix2 k c) :=
  PlainDot.dotGeneral_apply dot_S10000x128_S128x64_S10000x64_1_0_0_1_n_n_wf none _ x w1 r c

/-- An adjacency product `A · s` at `(r, c)`. -/
theorem adj_dot_apply (s : FVec Ideal S10000x64 .f32) (r : Fin 10000) (c : Fin 64) :
    Host.dotGeneral (F := Ideal) dot_S10000x10000_S10000x64_S10000x64_1_0_0_1_n_n none adj s (ix2 r c)
      = ∑ q : Fin 10000, adj (ix2 r q) * s (ix2 q c) :=
  PlainDot.dotGeneral_apply dot_S10000x10000_S10000x64_S10000x64_1_0_0_1_n_n_wf none _ adj s r c

/-- A product with a square weight matrix, `h · W`, at `(r, c)`. -/
theorem dot64_apply (h : FVec Ideal S10000x64 .f32) (w : FVec Ideal S64x64 .f32) (r : Fin 10000) (c : Fin 64) :
    Host.dotGeneral (F := Ideal) dot_S10000x64_S64x64_S10000x64_1_0_0_1_n_n none h w (ix2 r c)
      = ∑ k : Fin 64, h (ix2 r k) * w (ix2 k c) :=
  PlainDot.dotGeneral_apply dot_S10000x64_S64x64_S10000x64_1_0_0_1_n_n_wf none _ h w r c

/-- A bias broadcast along the rows reads, at `(r, c)`, its entry `c`. -/
theorem bias_apply (b : FVec Ideal S64 .f32) (r : Fin 10000) (c : Fin 64) :
    val_main_v3 (F := Ideal) b (ix2 r c) = b (ix1 c) := by
  refine (val_main_v3_apply (F := Ideal) b (ix2 r c)).trans ((val_main_v2_apply (F := Ideal) b _).trans (congrArg b ?_))
  funext a
  match a with
  | ⟨0, _⟩ => rfl

/-- The first `relu`'s broadcast zero. -/
theorem relu0_zero (i : S10000x64.Idx) : val_main_call0_v0 (F := Ideal) i = 0 :=
  (val_main_call0_v0_apply (F := Ideal) i).trans Ideal.ofBits_zero_f32

/-- The second `relu`'s broadcast zero. -/
theorem relu1_zero (i : S10000x64.Idx) : val_main_call1_v0 (F := Ideal) i = 0 :=
  (val_main_call1_v0_apply (F := Ideal) i).trans Ideal.ofBits_zero_f32

/-- `h1 = relu (A · (x · W1) + b1)` at `(r, c)`. -/
theorem v5_apply (r : Fin 10000) (c : Fin 64) :
    val_main_v5 (F := Ideal) x adj w1 b1 (ix2 r c)
      = max ((∑ q : Fin 10000, adj (ix2 r q) * val_main_v0 (F := Ideal) x w1 (ix2 q c)) + b1 (ix1 c)) 0 :=
  congrArg₂ max (congrArg₂ (· + ·) (adj_dot_apply adj (val_main_v0 (F := Ideal) x w1) r c) (bias_apply b1 r c))
    (relu0_zero _)

/-- `h1 · W2` at `(r, c)`. -/
theorem v6_apply (r : Fin 10000) (c : Fin 64) :
    val_main_v6 (F := Ideal) x adj w1 b1 w2 (ix2 r c)
      = ∑ k : Fin 64, val_main_v5 (F := Ideal) x adj w1 b1 (ix2 r k) * w2 (ix2 k c) :=
  dot64_apply (val_main_v5 (F := Ideal) x adj w1 b1) w2 r c

/-- `h2 = relu (A · (h1 · W2) + b2)` at `(r, c)`. -/
theorem v11_apply (r : Fin 10000) (c : Fin 64) :
    val_main_v11 (F := Ideal) x adj w1 b1 w2 b2 (ix2 r c)
      = max ((∑ q : Fin 10000, adj (ix2 r q) * val_main_v6 (F := Ideal) x adj w1 b1 w2 (ix2 q c)) + b2 (ix1 c)) 0 :=
  congrArg₂ max
    (congrArg₂ (· + ·) (adj_dot_apply adj (val_main_v6 (F := Ideal) x adj w1 b1 w2) r c) (bias_apply b2 r c))
    (relu1_zero _)

/-- `h3 = A · (h2 · W3) + b3` at `(r, c)`. -/
theorem v16_apply (r : Fin 10000) (c : Fin 64) :
    val_main_v16 (F := Ideal) x adj w1 b1 w2 b2 w3 b3 (ix2 r c)
      = (∑ q : Fin 10000, adj (ix2 r q)
            * ∑ k : Fin 64, val_main_v11 (F := Ideal) x adj w1 b1 w2 b2 (ix2 q k) * w3 (ix2 k c)) + b3 (ix1 c) := by
  refine congrArg₂ (· + ·) ?_ (bias_apply b3 r c)
  refine (adj_dot_apply adj (val_main_v12 (F := Ideal) x adj w1 b1 w2 b2 w3) r c).trans ?_
  exact Finset.sum_congr rfl fun q _ =>
    congrArg (adj (ix2 r q) * ·) (dot64_apply (val_main_v11 (F := Ideal) x adj w1 b1 w2 b2) w3 q c)

/-- The mean over the rows at `(u, c)`: the row sum, started at zero, divided by the real 10000. -/
theorem v20_apply (u : Fin 1) (c : Fin 64) :
    val_main_v20 (F := Ideal) x adj w1 b1 w2 b2 w3 b3 (ix2 u c)
      = Ideal.div (0 + ∑ r : Fin 10000, val_main_v16 (F := Ideal) x adj w1 b1 w2 b2 w3 b3 (ix2 r c))
          ((10000 : ℝ) : EReal) := by
  refine congrArg₂ Ideal.div ?_ ((val_main_v19_apply (F := Ideal) _).trans ofBits_10000)
  refine (val_main_v18_apply (F := Ideal) x adj w1 b1 w2 b2 w3 b3 (ix2 u c)).trans ?_
  refine (val_main_v17_apply x adj w1 b1 w2 b2 w3 b3 _).trans ?_
  refine congrArg₂ (· + ·) Ideal.ofBits_zero_f32 (Finset.sum_congr rfl fun r _ =>
    congrArg (val_main_v16 (F := Ideal) x adj w1 b1 w2 b2 w3 b3) ?_)
  funext a
  match a with
  | ⟨0, _⟩ => rfl
  | ⟨1, _⟩ => rfl

/-- The reference's result at `(u, j)`: the linear head of the mean. -/
theorem v23_apply (u : Fin 1) (j : Fin 10) :
    val_main_v23 (F := Ideal) x adj w1 b1 w2 b2 w3 b3 wl bl (ix2 u j)
      = (∑ c : Fin 64, val_main_v20 (F := Ideal) x adj w1 b1 w2 b2 w3 b3 (ix2 u c) * wl (ix2 c j)) + bl (ix1 j) := by
  refine congrArg₂ (· + ·) ?_ ?_
  · exact PlainDot.dotGeneral_apply dot_S1x64_S64x10_S1x10_1_0_0_1_n_n_wf none _
      (val_main_v20 (F := Ideal) x adj w1 b1 w2 b2 w3 b3) wl u j
  · refine (val_main_v22_apply (F := Ideal) bl _).trans (congrArg bl ?_)
    funext a
    match a with
    | ⟨0, _⟩ => rfl

end Cert.Bridge.Ref

end
-- ==== Proof.ValLayers.lean ====
/-
  The first two layers are the same function on both sides.

  Read at `(r, c)`, the kernel's `s1`, `s2` and `h2` and the reference's `x · W1`, `h1 · W2` and `h2` are the same
  expressions of the argument arrays: the kernel computes them block by block, and a block's row is the matrix's row.
  These are identities of extended reals: no finiteness is used.
-/
import proofs.«109796_g44951127720457_cont_8to1_c_798_21_alg».proof.Proof.ValKernel
import proofs.«109796_g44951127720457_cont_8to1_c_798_21_alg».proof.Proof.ValRef

noncomputable section

namespace Cert.Bridge

open Idealize.ShloMosaic Idealize.ShloMosaic.ValueIdx Cert.KernelIdeal
open Cert.ReferenceIdeal.Read (val_main_v0 val_main_v5 val_main_v6 val_main_v11)
open scoped BigOperators

/-- `s1` is the reference's `x · W1`. -/
theorem s1_eq (x : Vec Ideal S10000x128 .f32) (w1 : Vec Ideal S128x64 .f32) :
    Term.s1 x w1 = val_main_v0 (F := Ideal) x w1 := by
  funext i
  obtain ⟨r, c, rfl⟩ : ∃ (r : Fin 10000) (c : Fin 64), i = ix2 r c := ⟨i 0, i 1, eq_ix2 i⟩
  exact (s1_apply x w1 r c).trans (Ref.v0_apply x w1 r c).symm

/-- `s2` is the reference's `relu (A · (x · W1) + b1) · W2`. -/
theorem s2_eq (x : Vec Ideal S10000x128 .f32) (adj : Vec Ideal S10000x10000 .f32) (w1 : Vec Ideal S128x64 .f32)
    (b1 : Vec Ideal S64 .f32) (w2 : Vec Ideal S64x64 .f32) :
    Term.s2 x adj w1 (shapeCast S1x64 b1 Gen.shapeCasts_S64_S1x64) w2 = val_main_v6 (F := Ideal) x adj w1 b1 w2 := by
  funext i
  obtain ⟨r, c, rfl⟩ : ∃ (r : Fin 10000) (c : Fin 64), i = ix2 r c := ⟨i 0, i 1, eq_ix2 i⟩
  refine (s2_apply x adj w1 _ w2 r c).trans ((Ref.v6_apply x adj w1 b1 w2 r c).trans ?_).symm
  refine Finset.sum_congr rfl fun k _ => congrArg (· * w2 (ix2 k c)) ?_
  refine (Ref.v5_apply x adj w1 b1 r k).trans ?_
  refine congrArg₂ (fun a b => max (a + b) 0) ?_ (shapeCast_a_1a_apply b1 Gen.shapeCasts_S64_S1x64 0 k).symm
  exact Finset.sum_congr rfl fun q _ => congrArg (adj (ix2 r q) * ·) (congrFun (s1_eq x w1) (ix2 q k)).symm

/-- `h2` is the reference's second hidden layer. -/
theorem h2_eq (x : Vec Ideal S10000x128 .f32) (adj : Vec Ideal S10000x10000 .f32) (w1 : Vec Ideal S128x64 .f32)
    (b1 : Vec Ideal S64 .f32) (w2 : Vec Ideal S64x64 .f32) (b2 : Vec Ideal S64 .f32) :
    Term.h2 adj (Term.s2 x adj w1 (shapeCast S1x64 b1 Gen.shapeCasts_S64_S1x64) w2)
        (shapeCast S1x64 b2 Gen.shapeCasts_S64_S1x64)
      = val_main_v11 (F := Ideal) x adj w1 b1 w2 b2 := by
  funext i
  obtain ⟨r, c, rfl⟩ : ∃ (r : Fin 10000) (c : Fin 64), i = ix2 r c := ⟨i 0, i 1, eq_ix2 i⟩
  rw [s2_eq]
  refine (h2_apply adj _ _ r c).trans ((Ref.v11_apply x adj w1 b1 w2 b2 r c).trans ?_).symm
  exact congrArg (fun z => max ((∑ q : Fin 10000, adj (ix2 r q) * val_main_v6 (F := Ideal) x adj w1 b1 w2 (ix2 q c)) + z) 0)
    (shapeCast_a_1a_apply b2 Gen.shapeCasts_S64_S1x64 0 c).symm

end Cert.Bridge

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.ValReal.lean ====
/-
  The reference's second hidden layer is real-valued when the inputs are.

  Sums, products and maxima of real numbers are real numbers, so every stage up to `h2` takes real values at every
  index. This is what the last layer's rearrangement needs: distributivity fails at the infinities.
-/
import proofs.«109796_g44951127720457_cont_8to1_c_798_21_alg».proof.Proof.ValRef
import proofs.«109796_g44951127720457_cont_8to1_c_798_21_alg».proof.Proof.LibRealSums

noncomputable section

namespace Cert.Bridge.Ref

open Idealize.ShloMosaic Idealize.ShloMosaic.ValueIdx Cert.ReferenceIdeal Cert.ReferenceIdeal.Gen Cert.ReferenceIdeal.Read
open Cert.RealSums
open scoped BigOperators

variable (x : FVec Ideal S10000x128 .f32) (adj : FVec Ideal S10000x10000 .f32) (w1 : FVec Ideal S128x64 .f32)
  (b1 : FVec Ideal S64 .f32) (w2 : FVec Ideal S64x64 .f32) (b2 : FVec Ideal S64 .f32)

/-- `x · W1` is real. -/
theorem v0_isR (hx : ∀ i, IsR (x i)) (hw1 : ∀ i, IsR (w1 i)) (r : Fin 10000) (c : Fin 64) :
    IsR (val_main_v0 (F := Ideal) x w1 (ix2 r c)) := by
  rw [v0_apply]
  exact IsR.sum _ _ fun k _ => (hx _).mul (hw1 _)

/-- `h1` is real. -/
theorem v5_isR (hx : ∀ i, IsR (x i)) (hadj : ∀ i, IsR (adj i)) (hw1 : ∀ i, IsR (w1 i)) (hb1 : ∀ i, IsR (b1 i))
    (r : Fin 10000) (c : Fin 64) : IsR (val_main_v5 (F := Ideal) x adj w1 b1 (ix2 r c)) := by
  rw [v5_apply]
  exact IsR.max ((IsR.sum _ _ fun q _ => (hadj _).mul (v0_isR x w1 hx hw1 q c)).add (hb1 _)) IsR.zero

/-- `h1 · W2` is real. -/
theorem v6_isR (hx : ∀ i, IsR (x i)) (hadj : ∀ i, IsR (adj i)) (hw1 : ∀ i, IsR (w1 i)) (hb1 : ∀ i, IsR (b1 i))
    (hw2 : ∀ i, IsR (w2 i)) (r : Fin 10000) (c : Fin 64) : IsR (val_main_v6 (F := Ideal) x adj w1 b1 w2 (ix2 r c)) := by
  rw [v6_apply]
  exact IsR.sum _ _ fun k _ => (v5_isR x adj w1 b1 hx hadj hw1 hb1 r k).mul (hw2 _)

/-- `h2` is real. -/
theorem v11_isR (hx : ∀ i, IsR (x i)) (hadj : ∀ i, IsR (adj i)) (hw1 : ∀ i, IsR (w1 i)) (hb1 : ∀ i, IsR (b1 i))
    (hw2 : ∀ i, IsR (w2 i)) (hb2 : ∀ i, IsR (b2 i)) (r : Fin 10000) (c : Fin 64) :
    IsR (val_main_v11 (F := Ideal) x adj w1 b1 w2 b2 (ix2 r c)) := by
  rw [v11_apply]
  exact IsR.max ((IsR.sum _ _ fun q _ => (hadj _).mul (v6_isR x adj w1 b1 w2 hx hadj hw1 hb1 hw2 q c)).add (hb2 _))
    IsR.zero

end Cert.Bridge.Ref

end
-- ==== Proof.ValSpec.lean ====
/-
  The one algebraic fact behind the kernel: the mean over the rows commutes with the last adjacency product.

  For a square real matrix `A` over a finite index set of rows, a real matrix `H` (rows by hidden units), a square
  weight matrix `W` and a bias `b`, and a real `c` with `card · c = 1` (so `c` is the reciprocal of the number of
  rows): projecting the scaled product of `A`'s column sums with `H` and adding the bias gives the mean, over the rows,
  of the rows of `A · (H · W) + b`.
-/
import Mathlib.Algebra.BigOperators.Ring.Finset
import Mathlib.Data.Fintype.BigOperators
import Mathlib.Data.Real.Basic
import Mathlib.Tactic.Ring

namespace Cert.Bridge.Spec

open scoped BigOperators

/-- `((colsum A · H) · c) · W + b = (∑ over the rows of (A · (H · W) + b)) · c` when `card · c = 1`. -/
theorem pooled_layer {ι κ : Type*} [Fintype ι] [Fintype κ] (A : ι → ι → ℝ) (H : ι → κ → ℝ) (W : κ → κ → ℝ)
    (b : κ → ℝ) (c : ℝ) (hc : (Fintype.card ι : ℝ) * c = 1) (j : κ) :
    (∑ k' : κ, ((∑ k : ι, (∑ r : ι, A r k) * H k k') * c) * W k' j) + b j
      = (∑ r : ι, ((∑ k : ι, A r k * ∑ k' : κ, H k k' * W k' j) + b j)) * c := by
  -- the bias: a constant summed over the rows is `card` times it, and `card · c = 1`
  have hb : (∑ _r : ι, b j) * c = b j := by
    rw [Finset.sum_const, Finset.card_univ, nsmul_eq_mul, mul_assoc, mul_comm (b j) c, ← mul_assoc, hc, one_mul]
  rw [Finset.sum_add_distrib, add_mul, hb]
  refine congrArg (· + b j) ?_
  -- the products: both sides are the triple sum of `A r k · H k k' · W k' j · c`
  have hl : ∀ k' : κ, ((∑ k : ι, (∑ r : ι, A r k) * H k k') * c) * W k' j
      = ∑ k : ι, ∑ r : ι, A r k * H k k' * W k' j * c := fun k' => by
    rw [Finset.sum_mul, Finset.sum_mul]
    refine Finset.sum_congr rfl fun k _ => ?_
    rw [Finset.sum_mul, Finset.sum_mul, Finset.sum_mul]
    refine Finset.sum_congr rfl fun r _ => ?_
    ring
  have hr : ∀ r : ι, (∑ k : ι, A r k * ∑ k' : κ, H k k' * W k' j) * c
      = ∑ k : ι, ∑ k' : κ, A r k * H k k' * W k' j * c := fun r => by
    rw [Finset.sum_mul]
    refine Finset.sum_congr rfl fun k _ => ?_
    rw [Finset.mul_sum, Finset.sum_mul]
    refine Finset.sum_congr rfl fun k' _ => ?_
    ring
  rw [Finset.sum_congr rfl fun k' _ => hl k', Finset.sum_mul, Finset.sum_congr rfl fun r _ => hr r]
  -- reorder the three sums: (k', k, r) to (r, k, k')
  rw [Finset.sum_comm]
  rw [Finset.sum_congr rfl fun k _ => Finset.sum_comm]
  rw [Finset.sum_comm]

end Cert.Bridge.Spec
-- ==== Proof.ValPooled.lean ====
/-
  The last layer on extended reals that are real numbers.

  For real-valued `A`, `H`, `W` and `b`, the kernel's pooled last layer — the column sums of `A` times `H`, scaled
  by the rational 1/10000, projected by `W`, plus `b` — is the reference's mean over the 10000 rows of `A · (H · W) + b`:
  the row sum started at zero and divided by the real 10000. Both sides are coercions of real expressions, and the real
  identity is the commutation of the mean with the adjacency product.
-/
import proofs.«109796_g44951127720457_cont_8to1_c_798_21_alg».proof.Proof.ValSpec
import proofs.«109796_g44951127720457_cont_8to1_c_798_21_alg».proof.Proof.LibRealSums

noncomputable section

namespace Cert.Bridge

open Idealize.ShloMosaic Cert.RealSums
open scoped BigOperators

/-- The pooled last layer equals the mean of the full last layer, on real-valued data. -/
theorem pooled_ereal (A : Fin 10000 → Fin 10000 → EReal) (H : Fin 10000 → Fin 64 → EReal) (W : Fin 64 → Fin 64 → EReal)
    (b : Fin 64 → EReal) (hA : ∀ r k, IsR (A r k)) (hH : ∀ k k', IsR (H k k')) (hW : ∀ k' c, IsR (W k' c))
    (hb : ∀ c, IsR (b c)) (c : Fin 64) :
    (∑ k' : Fin 64, ((∑ k : Fin 10000, (∑ r : Fin 10000, A r k) * H k k') * ((1 / 10000 : ℝ) : EReal)) * W k' c) + b c
      = Ideal.div (0 + ∑ r : Fin 10000, ((∑ q : Fin 10000, A r q * ∑ k : Fin 64, H q k * W k c) + b c))
          ((10000 : ℝ) : EReal) := by
  have hA' : ∀ r k, ∃ a : ℝ, A r k = (a : EReal) := hA
  have hH' : ∀ k k', ∃ a : ℝ, H k k' = (a : EReal) := hH
  have hW' : ∀ k' c, ∃ a : ℝ, W k' c = (a : EReal) := hW
  have hb' : ∀ c, ∃ a : ℝ, b c = (a : EReal) := hb
  choose A₀ hA₀ using hA'
  choose H₀ hH₀ using hH'
  choose W₀ hW₀ using hW'
  choose b₀ hb₀ using hb'
  rw [Ideal.div_coe (by norm_num : (10000 : ℝ) ≠ 0)]
  -- everything is the coercion of a real expression
  simp only [hA₀, hH₀, hW₀, hb₀, zero_add, ← EReal.coe_mul, ← coe_sum, ← EReal.coe_add]
  -- the identity in the reals
  refine congrArg (fun z : ℝ => (z : EReal)) ?_
  refine Spec.pooled_layer A₀ H₀ W₀ b₀ (1 / 10000) ?_ c
  rw [Fintype.card_fin]
  norm_num

end Cert.Bridge

end
-- ==== Proof.ValMain.lean ====
/-
  The kernel's result term is the reference's, at the exact-real instance, on finite inputs.

  The first two layers are the same function on both sides. In the last layer the kernel uses that the mean over the rows
  commutes with the adjacency product: it projects the scaled product of the adjacency matrix's column sums with `h2`
  where the reference averages the rows of `A · (h2 · W3) + b3`. On real-valued data the two agree; the linear head is
  then applied to equal rows.
-/
import proofs.«109796_g44951127720457_cont_8to1_c_798_21_alg».proof.Proof.ValLayers
import proofs.«109796_g44951127720457_cont_8to1_c_798_21_alg».proof.Proof.ValReal
import proofs.«109796_g44951127720457_cont_8to1_c_798_21_alg».proof.Proof.ValPooled

noncomputable section

namespace Cert.Bridge

open scoped BigOperators

section Stage

open Idealize.ShloMosaic Idealize.ShloMosaic.ValueIdx Cert.KernelIdeal
open Cert.ReferenceIdeal.Read (val_main_v11 val_main_v16 val_main_v20 val_main_v23)

/-- The kernel's result term equals the reference's result stage, on inputs that are real numbers. -/
theorem kernel_eq_reference
    (x : Vec Ideal S10000x128 .f32) (adj : Vec Ideal S10000x10000 .f32) (w1 : Vec Ideal S128x64 .f32) (b1 : Vec Ideal S64 .f32)
    (w2 : Vec Ideal S64x64 .f32) (b2 : Vec Ideal S64 .f32) (w3 : Vec Ideal S64x64 .f32) (b3 : Vec Ideal S64 .f32)
    (wl : Vec Ideal S64x10 .f32) (bl : Vec Ideal S10 .f32)
    (hx : ∀ i, ∃ r : ℝ, x i = (r : EReal)) (hadj : ∀ i, ∃ r : ℝ, adj i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hw3 : ∀ i, ∃ r : ℝ, w3 i = (r : EReal)) (hb3 : ∀ i, ∃ r : ℝ, b3 i = (r : EReal))
    (hwl : ∀ i, ∃ r : ℝ, wl i = (r : EReal)) (hbl : ∀ i, ∃ r : ℝ, bl i = (r : EReal)) :
    Term.out (F := Ideal) x adj w1 (shapeCast S1x64 b1 Gen.shapeCasts_S64_S1x64) w2
        (shapeCast S1x64 b2 Gen.shapeCasts_S64_S1x64) w3 (shapeCast S1x64 b3 Gen.shapeCasts_S64_S1x64) wl
        (shapeCast S1x10 bl Gen.shapeCasts_S10_S1x10)
      = val_main_v23 (F := Ideal) x adj w1 b1 w2 b2 w3 b3 wl bl := by
  funext i
  obtain ⟨u, j, rfl⟩ : ∃ (u : Fin 1) (j : Fin 10), i = ix2 u j := ⟨i 0, i 1, eq_ix2 i⟩
  refine (out_apply x adj w1 _ w2 _ w3 _ wl _ u j).trans
    ((Ref.v23_apply x adj w1 b1 w2 b2 w3 b3 wl bl u j).trans ?_).symm
  -- the linear head is applied to equal rows; the bias is the same entry
  refine congrArg₂ (· + ·) (Finset.sum_congr rfl fun c _ => congrArg (· * wl (ix2 c j)) ?_)
    (shapeCast_a_1a_apply bl Gen.shapeCasts_S10_S1x10 u j).symm
  -- the reference's mean, with its last layer read at an index
  refine (Ref.v20_apply x adj w1 b1 w2 b2 w3 b3 u c).trans ?_
  refine (congrArg (fun z => Ideal.div (0 + z) ((10000 : ℝ) : EReal))
    (Finset.sum_congr rfl fun r _ => Ref.v16_apply x adj w1 b1 w2 b2 w3 b3 r c)).trans ?_
  -- the kernel's pooled layer over the same `h2`
  rw [h2_eq, shapeCast_a_1a_apply b3 Gen.shapeCasts_S64_S1x64 u c]
  exact (pooled_ereal (fun r k => adj (ix2 r k)) (fun k k' => val_main_v11 (F := Ideal) x adj w1 b1 w2 b2 (ix2 k k'))
    (fun k' c => w3 (ix2 k' c)) (fun c => b3 (ix1 c)) (fun _ _ => hadj _)
    (fun k k' => Ref.v11_isR x adj w1 b1 w2 b2 hx hadj hw1 hb1 hw2 hb2 k k') (fun _ _ => hw3 _) (fun _ => hb3 _) c).symm

end Stage

section RunTerm

open Idealize.ShloMosaic Cert.ReferenceIdeal Cert.ReferenceIdeal.Gen

/-- The same with the reference's result spelt as the term its run states. -/
theorem kernel_eq_reference_run
    (x : FVec Ideal S10000x128 .f32) (adj : FVec Ideal S10000x10000 .f32) (w1 : FVec Ideal S128x64 .f32) (b1 : FVec Ideal S64 .f32)
    (w2 : FVec Ideal S64x64 .f32) (b2 : FVec Ideal S64 .f32) (w3 : FVec Ideal S64x64 .f32) (b3 : FVec Ideal S64 .f32)
    (wl : FVec Ideal S64x10 .f32) (bl : FVec Ideal S10 .f32)
    (hx : ∀ i, ∃ r : ℝ, x i = (r : EReal)) (hadj : ∀ i, ∃ r : ℝ, adj i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal))
    (hw3 : ∀ i, ∃ r : ℝ, w3 i = (r : EReal)) (hb3 : ∀ i, ∃ r : ℝ, b3 i = (r : EReal))
    (hwl : ∀ i, ∃ r : ℝ, wl i = (r : EReal)) (hbl : ∀ i, ∃ r : ℝ, bl i = (r : EReal)) :
    Cert.KernelIdeal.Term.out (F := Ideal) x adj w1
        (shapeCast Cert.KernelIdeal.S1x64 b1 Cert.KernelIdeal.Gen.shapeCasts_S64_S1x64) w2
        (shapeCast Cert.KernelIdeal.S1x64 b2 Cert.KernelIdeal.Gen.shapeCasts_S64_S1x64) w3
        (shapeCast Cert.KernelIdeal.S1x64 b3 Cert.KernelIdeal.Gen.shapeCasts_S64_S1x64) wl
        (shapeCast Cert.KernelIdeal.S1x10 bl Cert.KernelIdeal.Gen.shapeCasts_S10_S1x10)
      = addf (F := Ideal) (Host.dotGeneral (F := Ideal) dot_S1x64_S64x10_S1x10_1_0_0_1_n_n none (Host.divf (F := Ideal) (broadcastInDim S1x64 ![1] bcast_S64_S1x64_1 (Host.reduceAdd (F := Ideal) (addf (F := Ideal) (Host.dotGeneral (F := Ideal) dot_S10000x10000_S10000x64_S10000x64_1_0_0_1_n_n none adj (Host.dotGeneral (F := Ideal) dot_S10000x64_S64x64_S10000x64_1_0_0_1_n_n none (maximumf (F := Ideal) (addf (F := Ideal) (Host.dotGeneral (F := Ideal) dot_S10000x10000_S10000x64_S10000x64_1_0_0_1_n_n none adj (Host.dotGeneral (F := Ideal) dot_S10000x64_S64x64_S10000x64_1_0_0_1_n_n none (maximumf (F := Ideal) (addf (F := Ideal) (Host.dotGeneral (F := Ideal) dot_S10000x10000_S10000x64_S10000x64_1_0_0_1_n_n none adj (Host.dotGeneral (F := Ideal) dot_S10000x128_S128x64_S10000x64_1_0_0_1_n_n none x w1)) (broadcastInDim S10000x64 ![0, 1] bcast_S1x64_S10000x64_0_1 (broadcastInDim S1x64 ![1] bcast_S64_S1x64_1 b1))) (broadcastInDim S10000x64 ![] bcast_S_S10000x64 (constant (F := Ideal) S_ .f32 0x00000000#32))) w2)) (broadcastInDim S10000x64 ![0, 1] bcast_S1x64_S10000x64_0_1 (broadcastInDim S1x64 ![1] bcast_S64_S1x64_1 b2))) (broadcastInDim S10000x64 ![] bcast_S_S10000x64 (constant (F := Ideal) S_ .f32 0x00000000#32))) w3)) (broadcastInDim S10000x64 ![0, 1] bcast_S1x64_S10000x64_0_1 (broadcastInDim S1x64 ![1] bcast_S64_S1x64_1 b3))) (constant (F := Ideal) S_ .f32 0x00000000#32) reducesTo_S10000x64_S64_d0 h_S_)) (broadcastInDim S1x64 ![] bcast_S_S1x64 (constant (F := Ideal) S_ .f32 0x461C4000#32))) wl) (broadcastInDim S1x10 ![1] bcast_S10_S1x10_1 bl) :=
  (kernel_eq_reference x adj w1 b1 w2 b2 w3 b3 wl bl hx hadj hw1 hb1 hw2 hb2 hw3 hb3 hwl hbl).trans
    (Cert.ReferenceIdeal.Read.val_main_v23_eq (F := Ideal) x adj w1 b1 w2 b2 w3 b3 wl bl).symm

end RunTerm

end Cert.Bridge

end
-- ==== Proof.ValPre.lean ====
/-
  From the precondition to finiteness.

  The precondition says that, for each argument array, `all (|x| < +∞)` holds, the ten facts joined by `and`. A
  conjunction of one-bit words that is one has every conjunct one; an `all` that is one has every element's comparison
  one; and an extended real whose absolute value is below `+∞` is neither infinity, so it is a real number.
-/
import proofs.«109796_g44951127720457_cont_8to1_c_798_21_alg».proof.Defs
import proofs.«109796_g44951127720457_cont_8to1_c_798_21_alg».proof.Proof.Gen.Pre_finite_inputs
import Idealize.ShloMosaic.Lib.ReduceAll
import Idealize.ShloMosaic.Lib.IdealHost
import Idealize.ShloMosaic.Lib.ValueIdx

noncomputable section

namespace Cert.Bridge

open Idealize.ShloMosaic Idealize.SL.Sem Idealize.ShloMosaic.ValueIdx

/-- The scalar shape has one index. -/
instance subsingleton_scalar_idx : Subsingleton (⟨0, ![]⟩ : Shape).Idx := ⟨fun _ _ => funext fun d => d.elim0⟩

/-- The word `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- `all (|x| < +∞) = 1` makes every element of `x` a real number. -/
theorem all_finite {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) :
    ∀ i, ∃ r : ℝ, x i = (r : EReal) := by
  intro i
  have hi := Host.reduce_andi_all _ _ hr hu ix0 e i
  refine real_of_abs_lt (x i) ?_
  have hc : broadcastInDim s ![] hb (constant (F := Ideal) ⟨0, ![]⟩ .f32 0x7F800000#32) i
      = Ideal.ofBits .f32 0x7F800000#32 := broadcastInDim_scalar_apply hb _ i
  rw [← hc]
  exact hi

/-- The precondition gives, for each argument array, that every entry is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal)) := by
  have h0 := congrFun (h c) ix0
  obtain ⟨h43, e9⟩ := IntOp.andi_eq_one.1 h0
  obtain ⟨h38, e8⟩ := IntOp.andi_eq_one.1 h43
  obtain ⟨h33, e7⟩ := IntOp.andi_eq_one.1 h38
  obtain ⟨h28, e6⟩ := IntOp.andi_eq_one.1 h33
  obtain ⟨h23, e5⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨all_finite _ _ _ _ e0, all_finite _ _ _ _ e1, all_finite _ _ _ _ e2, all_finite _ _ _ _ e3,
    all_finite _ _ _ _ e4, all_finite _ _ _ _ e5, all_finite _ _ _ _ e6, all_finite _ _ _ _ e7,
    all_finite _ _ _ _ e8, all_finite _ _ _ _ e9⟩

end Cert.Bridge

end
-- ==== Proof.lean ====
/-
  The certificate's claim: the two-pass graph-convolution kernel against its plain reference.

  The kernel computes three graph-convolution layers over a dense adjacency matrix, a mean over the nodes and a
  linear head, in two passes over row blocks of the matrix.  Its one liberty is that the mean over the rows
  commutes with the third adjacency product: mean (A · s) = (colsum A / N) · s, so the third pass over the matrix
  becomes a product with the column sums, accumulated block by block beside the second layer; 1/N is the named
  constant of the table, the rational 1/10000.  Over the reals the two sides are the same function of the
  arguments (two finite sums exchanged, a factor moved across a sum, the bias summed N times and divided by N);
  on the extended reals those steps need every entry to be a real number, which is what the precondition says,
  and then every intermediate is real too.

  The parts: each pass's frame half (its body run case by case, the scratch it carries between grid points as
  the region invariant), the run of the program as host reshapes and two passes with every buffer named after
  it, the result buffer read as the kernel term of the arguments, the value side (kernel term = reference term
  for real arguments; the precondition decoded), and the reference's generated run.
-/
import proofs.«109796_g44951127720457_cont_8to1_c_798_21_alg».proof.Defs
import proofs.«109796_g44951127720457_cont_8to1_c_798_21_alg».proof.Proof.Gen.Kernel
import proofs.«109796_g44951127720457_cont_8to1_c_798_21_alg».proof.Proof.Gen.KernelIdeal
import proofs.«109796_g44951127720457_cont_8to1_c_798_21_alg».proof.Proof.Gen.ReferenceIdeal
import proofs.«109796_g44951127720457_cont_8to1_c_798_21_alg».proof.Proof.Gen.Pre_finite_inputs
import proofs.«109796_g44951127720457_cont_8to1_c_798_21_alg».proof.Proof.Claims
import proofs.«109796_g44951127720457_cont_8to1_c_798_21_alg».proof.Proof.HalvesA
import proofs.«109796_g44951127720457_cont_8to1_c_798_21_alg».proof.Proof.HalvesB
import proofs.«109796_g44951127720457_cont_8to1_c_798_21_alg».proof.Proof.KHalves
import proofs.«109796_g44951127720457_cont_8to1_c_798_21_alg».proof.Proof.ValMain
import proofs.«109796_g44951127720457_cont_8to1_c_798_21_alg».proof.Proof.ValPre

noncomputable section

namespace Cert.Proof

open Idealize.ShloMosaic Idealize.SL.Sem

/-- The value side's two facts. -/
def bridge : Parts.Bridge where
  eq := fun x adj w1 b1 w2 b2 w3 b3 wl bl hx hadj hw1 hb1 hw2 hb2 hw3 hb3 hwl hbl =>
    Cert.Bridge.kernel_eq_reference x adj w1 b1 w2 b2 w3 b3 wl bl hx hadj hw1 hb1 hw2 hb2 hw3 hb3 hwl hbl
  real := fun m h c => Cert.Bridge.real_of_pre m h c

theorem claim : Cert.Claim := ⟨Cert.Kernel.Gen.facts, Cert.KernelIdeal.Gen.facts, Cert.ReferenceIdeal.Gen.facts, Cert.Pre_finite_inputs.Gen.facts,
  fun m ρ _ => Cert.Kernel.Run.frame_all m (Cert.Kernel.Halves.halfA _) (Cert.Kernel.Halves.halfB _) ρ,
  Parts.frame_ideal (fun _ => Cert.KernelIdeal.Halves.halfA _) (fun _ => Cert.KernelIdeal.Halves.halfB _),
  Parts.frame_reference,
  Parts.preserves,
  Parts.algebraic bridge (fun _ => Cert.KernelIdeal.Halves.halfA _) (fun _ => Cert.KernelIdeal.Halves.valA _)
    (fun _ => Cert.KernelIdeal.Halves.halfB _) (fun _ => Cert.KernelIdeal.Halves.valB _)⟩

end Cert.Proof

end
